-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x65536 : Shape := ⟨3, ![8, 64, 65536]⟩
abbrev S8x3x65536 : Shape := ⟨3, ![8, 3, 65536]⟩
abbrev S_ : Shape := ⟨0, ![]⟩

class Facts : Prop where
  bcast_S_S8x64x65536 : S_.BroadcastsInDim S8x64x65536 (![] : Fin 0 → Fin S8x64x65536.rank)
  reducesTo_S8x64x65536_S_d0_1_2 : S8x64x65536.ReducesTo [0, 1, 2] S_
  h_S_ : 0 < S_.numel
  bcast_S_S8x3x65536 : S_.BroadcastsInDim S8x3x65536 (![] : Fin 0 → Fin S8x3x65536.rank)
  reducesTo_S8x3x65536_S_d0_1_2 : S8x3x65536.ReducesTo [0, 1, 2] S_

variable [Facts]

def fn {F : FTy → Type} [FloatOps F] (main_arg0 : FVec F S8x64x65536 .f32) (main_arg1 : FVec F S8x3x65536 .f32) : IVec S_ 1 :=
  let main_v0 : FVec F S8x64x65536 .f32 := Host.absf main_arg0
  let main_cst : FVec F S_ .f32 := constant S_ .f32 0x7F800000#32
  let main_v1 : FVec F S8x64x65536 .f32 := broadcastInDim S8x64x65536 ![] bcast_S_S8x64x65536 main_cst
  let main_v2 : IVec S8x64x65536 1 := cmpf .olt main_v0 main_v1
  let main_c : IVec S_ 1 := constantI S_ 1 1#1
  let main_v3 : IVec S_ 1 := (fun x v => Host.reduce IntOp.andi x v reducesTo_S8x64x65536_S_d0_1_2 h_S_) main_v2 main_c
  let main_v4 : FVec F S8x3x65536 .f32 := Host.absf main_arg1
  let main_cst_0 : FVec F S_ .f32 := constant S_ .f32 0x7F800000#32
  let main_v5 : FVec F S8x3x65536 .f32 := broadcastInDim S8x3x65536 ![] bcast_S_S8x3x65536 main_cst_0
  let main_v6 : IVec S8x3x65536 1 := cmpf .olt main_v4 main_v5
  let main_c_1 : IVec S_ 1 := constantI S_ 1 1#1
  let main_v7 : IVec S_ 1 := (fun x v => Host.reduce IntOp.andi x v reducesTo_S8x3x65536_S_d0_1_2 h_S_) main_v6 main_c_1
  let main_v8 : IVec S_ 1 := andi main_v3 main_v7
  main_v8
-- ==== Kernel.lean ====
abbrev S8x64x65536 : Shape := ⟨3, ![8, 64, 65536]⟩
abbrev S8x3x65536 : Shape := ⟨3, ![8, 3, 65536]⟩
abbrev S8x1x65536 : Shape := ⟨3, ![8, 1, 65536]⟩
abbrev S1x3x65536 : Shape := ⟨3, ![1, 3, 65536]⟩
abbrev S1x1x65536 : Shape := ⟨3, ![1, 1, 65536]⟩
abbrev S1x3 : Shape := ⟨2, ![1, 3]⟩
abbrev S1x3x1 : Shape := ⟨3, ![1, 3, 1]⟩
abbrev S1x65536 : Shape := ⟨2, ![1, 65536]⟩
abbrev S1x1 : Shape := ⟨2, ![1, 1]⟩
abbrev S1x1x1 : Shape := ⟨3, ![1, 1, 1]⟩
abbrev S_ : Shape := ⟨0, ![]⟩
abbrev S8x15x65536 : Shape := ⟨3, ![8, 15, 65536]⟩
abbrev S8x80x65536 : Shape := ⟨3, ![8, 80, 65536]⟩
abbrev S8x80x32768 : Shape := ⟨3, ![8, 80, 32768]⟩
abbrev S1x80x65536 : Shape := ⟨3, ![1, 80, 65536]⟩
abbrev S1x80x1024 : Shape := ⟨3, ![1, 80, 1024]⟩
abbrev S80x1024 : Shape := ⟨2, ![80, 1024]⟩
abbrev S1x1x1024 : Shape := ⟨3, ![1, 1, 1024]⟩
abbrev S1x1024 : Shape := ⟨2, ![1, 1024]⟩
abbrev S1024x1 : Shape := ⟨2, ![1024, 1]⟩
abbrev S1024x1024 : Shape := ⟨2, ![1024, 1024]⟩
abbrev S8x64x32768 : Shape := ⟨3, ![8, 64, 32768]⟩
abbrev S8x1x32768 : Shape := ⟨3, ![8, 1, 32768]⟩
abbrev S8x64x32x32x32 : Shape := ⟨5, ![8, 64, 32, 32, 32]⟩

abbrev nBuf : Space → Nat
  | .hbm => 19
  | .vmem => 11
  | .smem => 0
  | _ => 0

abbrev bufTy : (tb : Table) → Fin (tcTables nBuf tb) → BufTy
  | .hbm, ⟨0, _⟩ => ⟨S8x64x65536, .f32⟩
  | .hbm, ⟨1, _⟩ => ⟨S8x3x65536, .f32⟩
  | .hbm, ⟨2, _⟩ => ⟨S8x3x65536, .f32⟩
  | .hbm, ⟨3, _⟩ => ⟨S8x1x65536, .i32⟩
  | .hbm, ⟨4, _⟩ => ⟨S8x64x65536, .bf16⟩
  | .hbm, ⟨5, _⟩ => ⟨S_, .bf16⟩
  | .hbm, ⟨6, _⟩ => ⟨S8x1x65536, .bf16⟩
  | .hbm, ⟨7, _⟩ => ⟨S_, .bf16⟩
  | .hbm, ⟨8, _⟩ => ⟨S8x15x65536, .bf16⟩
  | .hbm, ⟨9, _⟩ => ⟨S8x80x65536, .bf16⟩
  | .hbm, ⟨10, _⟩ => ⟨S8x80x32768, .f32⟩
  | .hbm, ⟨11, _⟩ => ⟨S8x64x32768, .f32⟩
  | .hbm, ⟨12, _⟩ => ⟨S8x1x32768, .f32⟩
  | .hbm, ⟨13, _⟩ => ⟨S_, .f32⟩
  | .hbm, ⟨14, _⟩ => ⟨S8x1x32768, .f32⟩
  | .hbm, ⟨15, _⟩ => ⟨S8x1x32768, .f32⟩
  | .hbm, ⟨16, _⟩ => ⟨S8x64x32768, .f32⟩
  | .hbm, ⟨17, _⟩ => ⟨S8x64x32768, .f32⟩
  | .hbm, ⟨18, _⟩ => ⟨S8x64x32x32x32, .f32⟩
  | .local _ .vmem, ⟨0, _⟩ => ⟨S1x3x65536, .f32⟩
  | .local _ .vmem, ⟨1, _⟩ => ⟨S1x3x65536, .f32⟩
  | .local _ .vmem, ⟨2, _⟩ => ⟨S1x3x65536, .f32⟩
  | .local _ .vmem, ⟨3, _⟩ => ⟨S1x3x65536, .f32⟩
  | .local _ .vmem, ⟨4, _⟩ => ⟨S1x1x65536, .i32⟩
  | .local _ .vmem, ⟨5, _⟩ => ⟨S1x1x65536, .i32⟩
  | .local _ .vmem, ⟨6, _⟩ => ⟨S1x80x65536, .bf16⟩
  | .local _ .vmem, ⟨7, _⟩ => ⟨S1x1x65536, .i32⟩
  | .local _ .vmem, ⟨8, _⟩ => ⟨S1x80x1024, .f32⟩
  | .local _ .vmem, ⟨9, _⟩ => ⟨S1x80x1024, .f32⟩
  | .local _ .vmem, ⟨10, _⟩ => ⟨S80x1024, .f32⟩
  | _, _ => ⟨S8x64x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x65536 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 32], ![false, false]⟩

@[reducible] def k1_t1_loop : Scf.Loop 32 :=
  let c0_i32 : BitVec 32 := 0#32
  let c64_i32 : BitVec 32 := 64#32
  let v5 : BitVec 32 := Scalar.addi c0_i32 c64_i32
  let c1_i32 : BitVec 32 := 1#32
  ⟨c0_i32, v5, c1_i32⟩
def k1_mult1 (k1_t1 : Fin k1_t1_loop.trips) : BitVec 32 :=
  let c0_i32_8 : BitVec 32 := 0#32
  let c0_i32 : BitVec 32 := 0#32
  let c1_i32 : BitVec 32 := 1#32
  let arg6 : BitVec 32 := Scf.iv c0_i32 c1_i32 k1_t1
  let c1_i32_7 : BitVec 32 := 1#32
  let v10 : BitVec 32 := Scalar.muli arg6 c1_i32_7
  let v11 : BitVec 32 := Scalar.addi c0_i32_8 v10
  let c1024_i32_9 : BitVec 32 := 1024#32
  let v12 : BitVec 32 := Scalar.muli v11 c1024_i32_9
  v12
def k1_off1 (k1_t1 : Fin k1_t1_loop.trips) : Fin 3 → Nat :=
  let c0_10 : Index := 0#32
  let c0_11 : Index := 0#32
  let c0_i32_8 : BitVec 32 := 0#32
  let c0_i32 : BitVec 32 := 0#32
  let c1_i32 : BitVec 32 := 1#32
  let arg6 : BitVec 32 := Scf.iv c0_i32 c1_i32 k1_t1
  let c1_i32_7 : BitVec 32 := 1#32
  let v10 : BitVec 32 := Scalar.muli arg6 c1_i32_7
  let v11 : BitVec 32 := Scalar.addi c0_i32_8 v10
  let c1024_i32_9 : BitVec 32 := 1024#32
  let v12 : BitVec 32 := Scalar.muli v11 c1024_i32_9
  let v13 : BitVec 32 := v12
  let v14 : Index := Scalar.indexCast v13
  ![0, 0, v14.toNat]
def k1_off2 (k1_t1 : Fin k1_t1_loop.trips) : Fin 3 → Nat :=
  let c0_12 : Index := 0#32
  let c0_13 : Index := 0#32
  let c0_i32_8 : BitVec 32 := 0#32
  let c0_i32 : BitVec 32 := 0#32
  let c1_i32 : BitVec 32 := 1#32
  let arg6 : BitVec 32 := Scf.iv c0_i32 c1_i32 k1_t1
  let c1_i32_7 : BitVec 32 := 1#32
  let v10 : BitVec 32 := Scalar.muli arg6 c1_i32_7
  let v11 : BitVec 32 := Scalar.addi c0_i32_8 v10
  let c1024_i32_9 : BitVec 32 := 1024#32
  let v12 : BitVec 32 := Scalar.muli v11 c1024_i32_9
  let v13 : BitVec 32 := v12
  let v17 : Index := Scalar.indexCast v13
  ![0, 0, v17.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 1 → Memref sig .tc .vmem S1x80x65536 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 1 → Memref sig .tc .vmem S1x1x65536 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1x80x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1x3x65536_S1x3x65536_0_0_0 : ∀ a, (![0, 0, 0] : Fin 3 → Nat) a + S1x3x65536.size a ≤ S1x3x65536.size a
  h_S1x3x65536 : 0 < S1x3x65536.numel
  reduces_S1x3x65536_S1x3 : S1x3x65536.Reduces [2] S1x3
  shapeCasts_S1x3_S1x3x1 : S1x3.ShapeCasts S1x3x1
  broadcasts_S1x3x1_S1x3x65536 : S1x3x1.Broadcasts S1x3x65536
  reduces_S1x3x65536_S1x65536 : S1x3x65536.Reduces [1] S1x65536
  shapeCasts_S1x65536_S1x1x65536 : S1x65536.ShapeCasts S1x1x65536
  reduces_S1x1x65536_S1x1 : S1x1x65536.Reduces [2] S1x1
  shapeCasts_S1x1_S1x1x1 : S1x1.ShapeCasts S1x1x1
  broadcasts_S1x1x1_S1x3x65536 : S1x1x1.Broadcasts S1x3x65536
  slices_S1x3x65536_o0_0_0_S1x1x65536 : S1x3x65536.Slices ![0, 0, 0] S1x1x65536
  slices_S1x3x65536_o0_1_0_S1x1x65536 : S1x3x65536.Slices ![0, 1, 0] S1x1x65536
  slices_S1x3x65536_o0_2_0_S1x1x65536 : S1x3x65536.Slices ![0, 2, 0] S1x1x65536
  inb_S1x1x65536_S1x1x65536_0_0_0 : ∀ a, (![0, 0, 0] : Fin 3 → Nat) a + S1x1x65536.size a ≤ S1x1x65536.size a
  h_S1x1x65536 : 0 < S1x1x65536.numel
  bitsLt_bf16_f32 : FTy.bits .bf16 < FTy.bits .f32
  bcast_S_S8x1x65536 : S_.BroadcastsInDim S8x1x65536 (![] : Fin 0 → Fin S8x1x65536.rank)
  bcast_S_S8x15x65536 : S_.BroadcastsInDim S8x15x65536 (![] : Fin 0 → Fin S8x15x65536.rank)
  concatenates_S8x64x65536_S8x1x65536_S8x15x65536_S8x80x65536_d1 : Shape.Concatenates [S8x64x65536, S8x1x65536, S8x15x65536] S8x80x65536 1
  inb_S80x1024_S80x1024_0_0 : ∀ a, (![0, 0] : Fin 2 → Nat) a + S80x1024.size a ≤ S80x1024.size a
  h_S80x1024 : 0 < S80x1024.numel
  shapeCasts_S80x1024_S80x1024 : S80x1024.ShapeCasts S80x1024
  h_S1x80x1024 : 0 < S1x80x1024.numel
  shapeCasts_S1x80x1024_S80x1024 : S1x80x1024.ShapeCasts S80x1024
  h_S1x1x1024 : 0 < S1x1x1024.numel
  shapeCasts_S1x1x1024_S1x1024 : S1x1x1024.ShapeCasts S1x1024
  iota_S1024x1_d0_w32 : S1024x1.Iotas .tc 32 [0]
  broadcasts_S1x1024_S1024x1024 : S1x1024.Broadcasts S1024x1024
  broadcasts_S1024x1_S1024x1024 : S1024x1.Broadcasts S1024x1024
  natLt_1_32 : 1 < 32
  inb_S1x80x1024_S1x80x1024_0_0_0 : ∀ a, (![0, 0, 0] : Fin 3 → Nat) a + S1x80x1024.size a ≤ S1x80x1024.size a
  shapeCasts_S80x1024_S1x80x1024 : S80x1024.ShapeCasts S1x80x1024
  slices_S8x80x32768_S8x64x32768_0_0_0 : S8x80x32768.Slices ![0, 0, 0] S8x64x32768
  slices_S8x80x32768_S8x1x32768_0_64_0 : S8x80x32768.Slices ![0, 64, 0] S8x1x32768
  bcast_S_S8x1x32768 : S_.BroadcastsInDim S8x1x32768 (![] : Fin 0 → Fin S8x1x32768.rank)
  bcast_S8x1x32768_S8x64x32768_0_1_2 : S8x1x32768.BroadcastsInDim S8x64x32768 (![0, 1, 2] : Fin 3 → Fin S8x64x32768.rank)
  shapeCasts_S8x64x32768_S8x64x32x32x32 : S8x64x32768.ShapeCasts S8x64x32x32x32
  dot_S80x1024_S1024x1024_S80x1024_1_1_0_0_n_n_wf : DotDims.WF S80x1024 S1024x1024 S80x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x65536.size a ≤ S8x3x65536.size a
  hwx0_0 : ∀ i : grid0.Coords, EltTy.bits .f32 = 32 ∨ (Rect.block (s := S8x3x65536) S1x3x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x65536.size a ≤ S8x3x65536.size a
  hwx0_1 : ∀ i : grid0.Coords, EltTy.bits .f32 = 32 ∨ (Rect.block (s := S8x3x65536) S1x3x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x65536.size a ≤ S8x1x65536.size a
  hwx0_2 : ∀ i : grid0.Coords, EltTy.bits .i32 = 32 ∨ (Rect.block (s := S8x1x65536) S1x1x65536.size (cc0_transform_2 i) (hinb0_2 i)).WholeWords (EltTy.packing .i32)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1x80x1024.size a ≤ S1x80x65536.size a
  k1_off2_inb : ∀ k1_t1 : Fin k1_t1_loop.trips, ∀ a, (k1_off2 k1_t1) a + S1x1x1024.size a ≤ S1x1x65536.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x80x65536.size a ≤ S8x80x65536.size a
  hwx1_0 : ∀ i : grid1.Coords, EltTy.bits .bf16 = 32 ∨ (Rect.block (s := S8x80x65536) S1x80x65536.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1x65536.size a ≤ S8x1x65536.size a
  hwx1_1 : ∀ i : grid1.Coords, EltTy.bits .i32 = 32 ∨ (Rect.block (s := S8x1x65536) S1x1x65536.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x80x1024.size a ≤ S8x80x32768.size a
  hwx1_2 : ∀ i : grid1.Coords, EltTy.bits .f32 = 32 ∨ (Rect.block (s := S8x80x32768) S1x80x1024.size (cc1_transform_2 i) (hinb1_2 i)).WholeWords (EltTy.packing .f32)

variable [Facts₀]

def dot_S80x1024_S1024x1024_S80x1024_1_1_0_0_n_n : DotDims S80x1024 S1024x1024 S80x1024 where
  lhsContracting := [1]
  rhsContracting := [1]
  lhsNonContracting := [0]
  rhsNonContracting := [0]
  lhsBatch := []
  rhsBatch := []
  wf := dot_S80x1024_S1024x1024_S80x1024_1_1_0_0_n_n_wf

abbrev win0_0 : Pipeline.Window sig grid0 :=
  Pipeline.Window.ofSpec (Memref.whole main_arg1) S1x3x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x3x65536.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x65536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1x80x65536.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x1x65536.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x80x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x64x65536 : Shape := ⟨3, ![8, 64, 65536]⟩
abbrev S8x3x65536 : Shape := ⟨3, ![8, 3, 65536]⟩
abbrev S_ : Shape := ⟨0, ![]⟩
abbrev S8x3 : Shape := ⟨2, ![8, 3]⟩
abbrev S8x3x1 : Shape := ⟨3, ![8, 3, 1]⟩
abbrev S8x65536 : Shape := ⟨2, ![8, 65536]⟩
abbrev S8x1x65536 : Shape := ⟨3, ![8, 1, 65536]⟩
abbrev S8x1 : Shape := ⟨2, ![8, 1]⟩
abbrev S8x1x1 : Shape := ⟨3, ![8, 1, 1]⟩
abbrev S8 : Shape := ⟨1, ![8]⟩
abbrev S524288 : Shape := ⟨1, ![524288]⟩
abbrev S8x65536x64 : Shape := ⟨3, ![8, 65536, 64]⟩
abbrev S524288x64 : Shape := ⟨2, ![524288, 64]⟩
abbrev S262144x64 : Shape := ⟨2, ![262144, 64]⟩
abbrev S524288x1 : Shape := ⟨2, ![524288, 1]⟩
abbrev S262144 : Shape := ⟨1, ![262144]⟩
abbrev S262144x1 : Shape := ⟨2, ![262144, 1]⟩
abbrev S8x32768x64 : Shape := ⟨3, ![8, 32768, 64]⟩
abbrev S8x64x32768 : Shape := ⟨3, ![8, 64, 32768]⟩
abbrev S8x64x32x32x32 : Shape := ⟨5, ![8, 64, 32, 32, 32]⟩

abbrev nBuf : Space → Nat
  | .hbm => 85
  | .vmem => 0
  | .smem => 0
  | _ => 0

abbrev bufTy : (tb : Table) → Fin (tcTables nBuf tb) → BufTy
  | .hbm, ⟨0, _⟩ => ⟨S8x64x65536, .f32⟩
  | .hbm, ⟨1, _⟩ => ⟨S8x3x65536, .f32⟩
  | .hbm, ⟨2, _⟩ => ⟨S_, .f32⟩
  | .hbm, ⟨3, _⟩ => ⟨S8x3, .f32⟩
  | .hbm, ⟨4, _⟩ => ⟨S8x3x1, .f32⟩
  | .hbm, ⟨5, _⟩ => ⟨S_, .f32⟩
  | .hbm, ⟨6, _⟩ => ⟨S8x3x1, .f32⟩
  | .hbm, ⟨7, _⟩ => ⟨S8x3x1, .f32⟩
  | .hbm, ⟨8, _⟩ => ⟨S8x3x65536, .f32⟩
  | .hbm, ⟨9, _⟩ => ⟨S8x3x65536, .f32⟩
  | .hbm, ⟨10, _⟩ => ⟨S8x3x65536, .f32⟩
  | .hbm, ⟨11, _⟩ => ⟨S_, .f32⟩
  | .hbm, ⟨12, _⟩ => ⟨S8x65536, .f32⟩
  | .hbm, ⟨13, _⟩ => ⟨S8x1x65536, .f32⟩
  | .hbm, ⟨14, _⟩ => ⟨S8x1x65536, .f32⟩
  | .hbm, ⟨15, _⟩ => ⟨S_, .f32⟩
  | .hbm, ⟨16, _⟩ => ⟨S8x1, .f32⟩
  | .hbm, ⟨17, _⟩ => ⟨S8x1x1, .f32⟩
  | .hbm, ⟨18, _⟩ => ⟨S_, .f32⟩
  | .hbm, ⟨19, _⟩ => ⟨S8x1x1, .f32⟩
  | .hbm, ⟨20, _⟩ => ⟨S8x1x1, .f32⟩
  | .hbm, ⟨21, _⟩ => ⟨S_, .f32⟩
  | .hbm, ⟨22, _⟩ => ⟨S8x1x1, .f32⟩
  | .hbm, ⟨23, _⟩ => ⟨S8x1x1, .f32⟩
  | .hbm, ⟨24, _⟩ => ⟨S8x3x65536, .f32⟩
  | .hbm, ⟨25, _⟩ => ⟨S8x3x65536, .f32⟩
  | .hbm, ⟨26, _⟩ => ⟨S_, .f32⟩
  | .hbm, ⟨27, _⟩ => ⟨S8x3x65536, .f32⟩
  | .hbm, ⟨28, _⟩ => ⟨S8x3x65536, .f32⟩
  | .hbm, ⟨29, _⟩ => ⟨S_, .f32⟩
  | .hbm, ⟨30, _⟩ => ⟨S8x3x65536, .f32⟩
  | .hbm, ⟨31, _⟩ => ⟨S8x3x65536, .f32⟩
  | .hbm, ⟨32, _⟩ => ⟨S_, .f32⟩
  | .hbm, ⟨33, _⟩ => ⟨S_, .i32⟩
  | .hbm, ⟨34, _⟩ => ⟨S_, .f32⟩
  | .hbm, ⟨35, _⟩ => ⟨S8x3x65536, .f32⟩
  | .hbm, ⟨36, _⟩ => ⟨S8x3x65536, .f32⟩
  | .hbm, ⟨37, _⟩ => ⟨S_, .f32⟩
  | .hbm, ⟨38, _⟩ => ⟨S8x3x65536, .f32⟩
  | .hbm, ⟨39, _⟩ => ⟨S8x3x65536, .f32⟩
  | .hbm, ⟨40, _⟩ => ⟨S8x3x65536, .f32⟩
  | .hbm, ⟨41, _⟩ => ⟨S8x3x65536, .i32⟩
  | .hbm, ⟨42, _⟩ => ⟨S8x1x65536, .i32⟩
  | .hbm, ⟨43, _⟩ => ⟨S8x65536, .i32⟩
  | .hbm, ⟨44, _⟩ => ⟨S_, .i32⟩
  | .hbm, ⟨45, _⟩ => ⟨S8x65536, .i32⟩
  | .hbm, ⟨46, _⟩ => ⟨S8x65536, .i32⟩
  | .hbm, ⟨47, _⟩ => ⟨S8x1x65536, .i32⟩
  | .hbm, ⟨48, _⟩ => ⟨S8x65536, .i32⟩
  | .hbm, ⟨49, _⟩ => ⟨S_, .i32⟩
  | .hbm, ⟨50, _⟩ => ⟨S8x65536, .i32⟩
  | .hbm, ⟨51, _⟩ => ⟨S8x65536, .i32⟩
  | .hbm, ⟨52, _⟩ => ⟨S8x65536, .i32⟩
  | .hbm, ⟨53, _⟩ => ⟨S8x1x65536, .i32⟩
  | .hbm, ⟨54, _⟩ => ⟨S8x65536, .i32⟩
  | .hbm, ⟨55, _⟩ => ⟨S8x65536, .i32⟩
  | .hbm, ⟨56, _⟩ => ⟨S8, .i32⟩
  | .hbm, ⟨57, _⟩ => ⟨S8x1, .i32⟩
  | .hbm, ⟨58, _⟩ => ⟨S_, .i32⟩
  | .hbm, ⟨59, _⟩ => ⟨S8x1, .i32⟩
  | .hbm, ⟨60, _⟩ => ⟨S8x1, .i32⟩
  | .hbm, ⟨61, _⟩ => ⟨S8x65536, .i32⟩
  | .hbm, ⟨62, _⟩ => ⟨S8x65536, .i32⟩
  | .hbm, ⟨63, _⟩ => ⟨S524288, .i32⟩
  | .hbm, ⟨64, _⟩ => ⟨S8x65536x64, .f32⟩
  | .hbm, ⟨65, _⟩ => ⟨S524288x64, .f32⟩
  | .hbm, ⟨66, _⟩ => ⟨S_, .f32⟩
  | .hbm, ⟨67, _⟩ => ⟨S262144x64, .f32⟩
  | .hbm, ⟨68, _⟩ => ⟨S524288x1, .i32⟩
  | .hbm, ⟨69, _⟩ => ⟨S262144x64, .f32⟩
  | .hbm, ⟨70, _⟩ => ⟨S_, .f32⟩
  | .hbm, ⟨71, _⟩ => ⟨S524288, .f32⟩
  | .hbm, ⟨72, _⟩ => ⟨S_, .f32⟩
  | .hbm, ⟨73, _⟩ => ⟨S262144, .f32⟩
  | .hbm, ⟨74, _⟩ => ⟨S524288x1, .i32⟩
  | .hbm, ⟨75, _⟩ => ⟨S262144, .f32⟩
  | .hbm, ⟨76, _⟩ => ⟨S_, .f32⟩
  | .hbm, ⟨77, _⟩ => ⟨S262144, .f32⟩
  | .hbm, ⟨78, _⟩ => ⟨S262144, .f32⟩
  | .hbm, ⟨79, _⟩ => ⟨S262144x1, .f32⟩
  | .hbm, ⟨80, _⟩ => ⟨S262144x64, .f32⟩
  | .hbm, ⟨81, _⟩ => ⟨S262144x64, .f32⟩
  | .hbm, ⟨82, _⟩ => ⟨S8x32768x64, .f32⟩
  | .hbm, ⟨83, _⟩ => ⟨S8x64x32768, .f32⟩
  | .hbm, ⟨84, _⟩ => ⟨S8x64x32x32x32, .f32⟩
  | _, _ => ⟨S8x64x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_c : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_8 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_cst_12 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_13 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩

abbrev nD : Nat := 1
abbrev τ : Topo := Topo.v7x

variable {F : FTy → Type} [FloatOps F]

class Facts₀ : Prop where
  reducesTo_S8x3x65536_S8x3_d2 : S8x3x65536.ReducesTo [2] S8x3
  h_S_ : 0 < S_.numel
  bcast_S8x3_S8x3x1_0_1 : S8x3.BroadcastsInDim S8x3x1 (![0, 1] : Fin 2 → Fin S8x3x1.rank)
  bcast_S_S8x3x1 : S_.BroadcastsInDim S8x3x1 (![] : Fin 0 → Fin S8x3x1.rank)
  bcast_S8x3x1_S8x3x65536_0_1_2 : S8x3x1.BroadcastsInDim S8x3x65536 (![0, 1, 2] : Fin 3 → Fin S8x3x65536.rank)
  reducesTo_S8x3x65536_S8x65536_d1 : S8x3x65536.ReducesTo [1] S8x65536
  bcast_S8x65536_S8x1x65536_0_2 : S8x65536.BroadcastsInDim S8x1x65536 (![0, 2] : Fin 2 → Fin S8x1x65536.rank)
  reducesTo_S8x1x65536_S8x1_d2 : S8x1x65536.ReducesTo [2] S8x1
  bcast_S8x1_S8x1x1_0_1 : S8x1.BroadcastsInDim S8x1x1 (![0, 1] : Fin 2 → Fin S8x1x1.rank)
  bcast_S_S8x1x1 : S_.BroadcastsInDim S8x1x1 (![] : Fin 0 → Fin S8x1x1.rank)
  bcast_S8x1x1_S8x3x65536_0_1_2 : S8x1x1.BroadcastsInDim S8x3x65536 (![0, 1, 2] : Fin 3 → Fin S8x3x65536.rank)
  bcast_S_S8x3x65536 : S_.BroadcastsInDim S8x3x65536 (![] : Fin 0 → Fin S8x3x65536.rank)
  slices_S8x3x65536_S8x1x65536_0_0_0 : S8x3x65536.Slices ![0, 0, 0] S8x1x65536
  shapeCasts_S8x1x65536_S8x65536 : S8x1x65536.ShapeCasts S8x65536
  bcast_S_S8x65536 : S_.BroadcastsInDim S8x65536 (![] : Fin 0 → Fin S8x65536.rank)
  slices_S8x3x65536_S8x1x65536_0_1_0 : S8x3x65536.Slices ![0, 1, 0] S8x1x65536
  slices_S8x3x65536_S8x1x65536_0_2_0 : S8x3x65536.Slices ![0, 2, 0] S8x1x65536
  bcast_S8_S8x1_0 : S8.BroadcastsInDim S8x1 (![0] : Fin 1 → Fin S8x1.rank)
  bcast_S_S8x1 : S_.BroadcastsInDim S8x1 (![] : Fin 0 → Fin S8x1.rank)
  bcast_S8x1_S8x65536_0_1 : S8x1.BroadcastsInDim S8x65536 (![0, 1] : Fin 2 → Fin S8x65536.rank)
  shapeCasts_S8x65536_S524288 : S8x65536.ShapeCasts S524288
  transposes_S8x64x65536_S8x65536x64_0_2_1 : S8x64x65536.Transposes [0, 2, 1] S8x65536x64
  shapeCasts_S8x65536x64_S524288x64 : S8x65536x64.ShapeCasts S524288x64
  bcast_S_S262144x64 : S_.BroadcastsInDim S262144x64 (![] : Fin 0 → Fin S262144x64.rank)
  bcast_S524288_S524288x1_0 : S524288.BroadcastsInDim S524288x1 (![0] : Fin 1 → Fin S524288x1.rank)
  bcast_S_S524288 : S_.BroadcastsInDim S524288 (![] : Fin 0 → Fin S524288.rank)
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S8x32768x64 : S262144x64.ShapeCasts S8x32768x64
  transposes_S8x32768x64_S8x64x32768_0_2_1 : S8x32768x64.Transposes [0, 2, 1] S8x64x32768
  shapeCasts_S8x64x32768_S8x64x32x32x32 : S8x64x32768.ShapeCasts S8x64x32x32x32
  scatter_S262144x64_S524288x1_S524288x64_1_0_0_1_wf : ScatterDims.WF S262144x64 S524288x1 S524288x64 [1] [0] [0] 1
  scatter_S262144_S524288x1_S524288_n_0_0_1_wf : ScatterDims.WF S262144 S524288x1 S524288 [] [0] [0] 1

variable [Facts₀]

def scatter_S262144x64_S524288x1_S524288x64_1_0_0_1 : ScatterDims S262144x64 S524288x1 S524288x64 where
  updateWindowDims := [1]
  insertedWindowDims := [0]
  scatterDimsToOperandDims := [0]
  indexVectorDim := 1
  wf := scatter_S262144x64_S524288x1_S524288x64_1_0_0_1_wf
def scatter_S262144_S524288x1_S524288_n_0_0_1 : ScatterDims S262144 S524288x1 S524288 where
  updateWindowDims := []
  insertedWindowDims := [0]
  scatterDimsToOperandDims := [0]
  indexVectorDim := 1
  wf := scatter_S262144_S524288x1_S524288_n_0_0_1_wf

class Facts : Prop extends Facts₀ where

variable [Facts]
-- ==== Proof.Region0.lean ====
/-
  The first kernel region: per batch, one block of the coordinates is centred on its row means, divided by twice
  the largest point norm, shifted by one half, scaled by 32 and clipped to [0, 31]; that block is the second result,
  and its entries rounded to integers v0, v1, v2 give the voxel id v0·1024 + v1·32 + v2 of each point.
  Here: what the region leaves in its two output blocks as a function of the input block, the proof that the
  body computes exactly that on any staging buffers, and the per-point obligation of the pipeline.
  Everything is stated for an arbitrary float instance.
-/
import proofs.«111114_j62749472195254_1_alg».proof.Proof.Gen.KernelIdeal.Launch
import proofs.«111114_j62749472195254_1_alg».proof.Proof.Gen.KernelIdeal.Skeleton
import proofs.«111114_j62749472195254_1_alg».proof.Proof.Gen.KernelIdeal.Points
import proofs.«111114_j62749472195254_1_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the contents of the core's buffers when the region is entered
variable (V : (c : Dev nD) → (b : Ref sig .tc) → Buf (Elt F) ((c : Thread nD τ).loc b))

/-- The block of window `w` at grid point `t`, cut out of the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The coordinates' staging buffer holds the batch's block whenever the body runs: the window is fetched at
    every point and the body leaves it as it found it. -/
theorem before0_in {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The whole block of coordinates, and the whole block of voxel ids. -/
abbrev rXYZ : Rect S1x3x65536 := Rect.unit (s := S1x3x65536) ![0, 0, 0] S1x3x65536.size inb_S1x3x65536_S1x3x65536_0_0_0
abbrev rId : Rect S1x1x65536 := Rect.unit (s := S1x1x65536) ![0, 0, 0] S1x1x65536.size inb_S1x1x65536_S1x1x65536_0_0_0

/-- The normalized, clipped coordinates of a block: what the body stores into the first output block. -/
def ncOf (x0 : Vec F S1x3x65536 .f32) : Vec F S1x3x65536 .f32 :=
  View.canon [⟨rXYZ, k0_pay1 (View.ld x0 rXYZ)⟩]
/-- The voxel ids of a block: what the body stores into the second output block. -/
def idOf (x0 : Vec F S1x3x65536 .f32) : Vec F S1x1x65536 .i32 :=
  View.canon [⟨rId, k0_pay2 (View.ld x0 rXYZ)⟩]

/-- One store of the whole block covers the block. -/
theorem cover_nc (p0 : Vec F S1x3x65536 .f32) (y : S1x3x65536.Idx) :
    ∃ pc ∈ ([⟨rXYZ, p0⟩] : List (View.Piece (Elt F) S1x3x65536 .f32)), y ∈ pc.1.set :=
  View.cover_of_tiled [⟨rXYZ, p0⟩] S1x3x65536.size (by rfl) y
theorem cover_id (p0 : Vec F S1x1x65536 .i32) (y : S1x1x65536.Idx) :
    ∃ pc ∈ ([⟨rId, p0⟩] : List (View.Piece (Elt F) S1x1x65536 .i32)), y ∈ pc.1.set :=
  View.cover_of_tiled [⟨rId, p0⟩] S1x1x65536.size (by rfl) y

set_option maxHeartbeats 1000000 in
/-- On whole staging buffers, the coordinates' at `x0` and the two outputs' at anything, the body ends with the
    coordinates untouched, the first output at `ncOf x0` and the second at `idOf x0` (what it reads from the output
    buffers before overwriting them is never used). -/
theorem sound_kernel0 (c : Dev nD) (E : Set ℕ) (i : grid0.Coords)
    (arg1 : Memref sig .tc .vmem S1x3x65536 .f32) (harg1 : arg1.IsWhole) (arg2 : Memref sig .tc .vmem S1x3x65536 .f32) (harg2 : arg2.IsWhole)
    (arg3 : Memref sig .tc .vmem S1x1x65536 .i32) (harg3 : arg3.IsWhole)
    (x0 : Vec F S1x3x65536 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (ncOf x0) ∗ owns (c : Thread nD τ) arg3 fullShare (idOf x0)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  simp only [k0_part1_eq_skeleton]; unfold k0_part1_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover_nc _)
  iexists _; isplitr
  swap; · iexact H2
  ipureintro
  exact View.read_writes_eq_canon _ _ _ (cover_id _)

/-- The region's proof data on core `c`: the arrays as the region finds them; after the body at point `t` the
    coordinates' buffer still at the batch's block, the two outputs' at `ncOf` and `idOf` of it; between points only the
    buffers the region does not use and the generator register; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => ncOf (blk0 V c 0 t)
    | ⟨2, _⟩ => idOf (blk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = ncOf (blk0 V c 0 t) := by dsimp only [dat0]
theorem after0_2 (c : Dev nD) (t : Fin cfg0.N) : (dat0 V c).after 2 t = idOf (blk0 V c 0 t) := by dsimp only [dat0]
theorem before0_0 (c : Dev nD) (t : Fin cfg0.N) (d) : (dat0 V c).before 0 t d = blk0 V c 0 t :=
  before0_in V (dat0 V c) (A_eq0 V c 0) (after0_0 V c) t d

/-- What the pipeline hands the body at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))
/-- and what it takes back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (blk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation for the first region, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Frm

end
-- ==== Proof.Region1.lean ====
/-
  The second kernel region: at grid point (b, vi) the body clears an 80 × 1024 accumulator, then for each of the 64
  chunks of 1024 points adds to it the product of the extended features of batch b on that chunk (80 rows: the 64
  channels, a row of ones, fifteen rows of zeros) with the indicator matrix "point n lies in voxel vi·1024 + v", and
  finally copies the accumulator into the output block. So entry (c, v) of the block is the sum over the batch's
  points lying in voxel vi·1024 + v of row c.
  Here: the body's run on any staging buffers (the 64 trips through the loop's invariant, one symbolic trip), the
  pieces that run leaves in the output block, the region's proof data and the per-point obligation of the pipeline —
  for an arbitrary float instance. What the pieces ARE, as numbers, is read off elsewhere.
-/
import proofs.«111114_j62749472195254_1_alg».proof.Proof.Gen.KernelIdeal.Launch
import proofs.«111114_j62749472195254_1_alg».proof.Proof.Gen.KernelIdeal.Skeleton
import proofs.«111114_j62749472195254_1_alg».proof.Proof.Gen.KernelIdeal.Points
import proofs.«111114_j62749472195254_1_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the contents of the core's buffers when the region is entered
variable (V : (c : Dev nD) → (b : Ref sig .tc) → Buf (Elt F) ((c : Thread nD τ).loc b))

/-- The block of window `w` at grid point `t`, cut out of the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The features' and the voxel ids' staging buffers hold batch b's blocks whenever the body runs — they are fetched
    only when b changes, and the body leaves them as it found them. -/
theorem before1_in0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_in1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The accumulator. -/
abbrev accM : Memref sig .tc .vmem S80x1024 .f32 := Memref.whole cc1_scratch0
/-- A view of the output block's shape, to read a list of pieces back over arbitrary contents. -/
abbrev outV : View sig .tc .vmem S1x80x1024 .f32 := (Memref.whole cc1_stg2_0 : Memref sig .tc .vmem S1x80x1024 .f32).view

/-- The current staging buffers at point `t`. -/
abbrev ms1_0 (t : Fin cfg1.N) : Memref sig .tc .vmem S1x80x65536 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x65536 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x80x1024 .f32 := win1_2.stage (cfg1.slots t 2)
abbrev hs1_2 (t : Fin cfg1.N) : (ms1_2 t).IsWhole := hstage1_2 ((cfg1.slots t 2).cast nbuf1_2)

/-- Between points the region holds the scoped buffers it does not stage — among them the accumulator, at
    anything — and the generator register. -/
theorem inv1_eq (c : Dev nD) :
    (Pipeline.ΦA (Val := Elt F) (U := UR sig nD τ) spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) accM fullShare d)) ∗ (∃ r, prngReg c r)) := by
  unfold Pipeline.ΦA; rw [scopedRest1_eq]; simp only [accM, owns_whole]; try rfl

set_option maxHeartbeats 4000000 in
/-- The pieces the body's stores leave in the output block (last first), WITH the proof that on whole staging
    buffers — the features' and the ids' at their contents, the output's and the accumulator at anything — the body
    runs to the end with the inputs as they were, the output block with those pieces written, the accumulator at
    something. The list is what the run finds. -/
noncomputable def kernelRun1 (c : Dev nD) (i : grid1.Coords)
    (arg2 : Memref sig .tc .vmem S1x80x65536 .bf16) (harg2 : arg2.IsWhole) (arg3 : Memref sig .tc .vmem S1x1x65536 .i32) (harg3 : arg3.IsWhole)
    (arg4 : Memref sig .tc .vmem S1x80x1024 .f32) (harg4 : arg4.IsWhole)
    (x0 : Vec F S1x80x65536 .bf16) (x1 : Vec F S1x1x65536 .i32) :
    { L : List (View.Piece (Elt F) S1x80x1024 .f32) //
      ∀ (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) accM fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L) ∗ (∃ d, owns (c : Thread nD τ) accM fullShare d)) -∗ K ⟨⟩))
          ⊢ wp frame (wpE (defs₀ (F := F)) Variants.none c none) Set.univ (cc1__scatter_kernel i arg2 harg2 arg3 harg3 arg4 harg4 accM (Memref.isWhole_whole _)) K } := by
  refine ⟨?_, fun K => ?run⟩
  case run =>
    simp only [cc1__scatter_kernel_eq_skeleton]; unfold cc1__scatter_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0
    obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _, _; isplitr; swap; · iexact HS
    ipureintro; rfl

/-- The run's pieces for the output block tile it (one store of the whole block), so they cover it. -/
theorem cover1 (c : Dev nD) (i : grid1.Coords)
    (arg2 : Memref sig .tc .vmem S1x80x65536 .bf16) (harg2 : arg2.IsWhole) (arg3 : Memref sig .tc .vmem S1x1x65536 .i32) (harg3 : arg3.IsWhole)
    (arg4 : Memref sig .tc .vmem S1x80x1024 .f32) (harg4 : arg4.IsWhole)
    (x0 : Vec F S1x80x65536 .bf16) (x1 : Vec F S1x1x65536 .i32) (y : S1x80x1024.Idx) :
    ∃ pc ∈ (kernelRun1 c i arg2 harg2 arg3 harg3 arg4 harg4 x0 x1).1, y ∈ pc.1.set :=
  View.cover_of_tiledL (kernelRun1 c i arg2 harg2 arg3 harg3 arg4 harg4 x0 x1).1 S1x80x1024.size (by sl_kernel_rfl) y

/-- What the run leaves in the output block: its pieces read back (they cover the block, so over anything). -/
def out1 (c : Dev nD) (i : grid1.Coords)
    (arg2 : Memref sig .tc .vmem S1x80x65536 .bf16) (harg2 : arg2.IsWhole) (arg3 : Memref sig .tc .vmem S1x1x65536 .i32) (harg3 : arg3.IsWhole)
    (arg4 : Memref sig .tc .vmem S1x80x1024 .f32) (harg4 : arg4.IsWhole)
    (x0 : Vec F S1x80x65536 .bf16) (x1 : Vec F S1x1x65536 .i32) : Vec F S1x80x1024 .f32 :=
  outV.read (Elt F) (outV.writes (Elt F) outV.junk (kernelRun1 c i arg2 harg2 arg3 harg3 arg4 harg4 x0 x1).1)

/-- The output block after the body at point `t`: the run's block at the point's buffers and input blocks. -/
def outAt1 (c : Dev nD) (t : Fin cfg1.N) : Vec F S1x80x1024 .f32 :=
  out1 c (grid1.coords t) (ms1_0 t) (hs1_0 t) (ms1_1 t) (hs1_1 t) (ms1_2 t) (hs1_2 t) (blk1 V c 0 t) (blk1 V c 1 t)

/-- The region's proof data on core `c`: the arrays as the region finds them; after the body at point `t` the two
    inputs' buffers still at batch b's blocks, the output's at `outAt1`; between points the buffers the region does
    not stage (the accumulator among them) and the generator register; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = outAt1 V c t := by dsimp only [dat1]
theorem before1_0 (c : Dev nD) (t : Fin cfg1.N) (d) : (dat1 V c).before 0 t d = blk1 V c 0 t :=
  before1_in0 V (dat1 V c) (A_eq1 V c 0) (after1_0 V c) t d
theorem before1_1 (c : Dev nD) (t : Fin cfg1.N) (d) : (dat1 V c).before 1 t d = blk1 V c 1 t :=
  before1_in1 V (dat1 V c) (A_eq1 V c 1) (after1_1 V c) t d

/-- What the pipeline hands the body at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))
/-- and what it takes back. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

/-- The body at any point: the inputs' buffers hold batch b's blocks, so the run applies; the invariant lends the
    body its accumulator and takes it back at whatever the body left in it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  rw [show (dat1 V c).Φ t.castSucc = Pipeline.ΦA spec1 c from rfl, inv1_eq]
  unfold outAt1
  unfold out1
  iintro ⟨⟨⟨HR0, HR1, HR2, HR3, HR4, HR5, HS⟩, Hg⟩, Ho, ⟨%d0, H0⟩, ⟨%d1, H1⟩, ⟨%d2, H2⟩⟩
  iapply ((kernelRun1 c (grid1.coords t) _ _ _ _ _ _ (blk1 V c 0 t) (blk1 V c 1 t)).2 _)
  isplitl [H0]; · iexact H0
  isplitl [H1]; · iexact H1
  isplitl [H2]; · iexists _; iexact H2
  isplitl [HS]; · iexact HS
  iintro ⟨H0, H1, ⟨%e2, H2⟩, HS⟩
  isplitl [HR0 HR1 HR2 HR3 HR4 HR5 HS Hg]
  · isplitl [HR0 HR1 HR2 HR3 HR4 HR5 HS]
    · isplitl [HR0]; · iexact HR0
      isplitl [HR1]; · iexact HR1
      isplitl [HR2]; · iexact HR2
      isplitl [HR3]; · iexact HR3
      isplitl [HR4]; · iexact HR4
      isplitl [HR5]; · iexact HR5
      iexact HS
    iexact Hg
  isplitl [Ho]; · iexact Ho
  isplitl [H0]; · iexact H0
  isplitl [H1]; · iexact H1
  unfold owns; iexists _; isplitr
  swap; · iexact H2
  ipureintro; exact View.read_writes_of_cover _ _ _ _ _ (cover1 c _ _ _ _ _ _ _ _ _)

/-- The pipeline's obligation for the second region, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Frm1

end
-- ==== Proof.Run.lean ====
/-
  The whole program as a chain of four items — the first region, six host operations (the features cast, the row of
  ones, the rows of zeros, their concatenation), the second region, eight host operations (the two slices, the
  clamp of the counts at one, the quotient, the reshape) — and what every buffer of the core holds at each of the
  five boundaries between them, as a fold from the launch memory: a region replaces its windows' arrays by what
  its write-backs leave, a host stretch applies its operations. The run: from any memory with all counters at zero
  every weakly fair execution ends, nothing faults, and the final memory holds every unscoped buffer at the last
  boundary's contents. The frame (the two arguments end as launched) and the two results are read off that.
  For an arbitrary float instance.
-/
import proofs.«111114_j62749472195254_1_alg».proof.Proof.Gen.KernelIdeal.Launch
import proofs.«111114_j62749472195254_1_alg».proof.Proof.Gen.KernelIdeal.Skeleton
import proofs.«111114_j62749472195254_1_alg».proof.Proof.Gen.KernelIdeal.Points
import proofs.«111114_j62749472195254_1_alg».proof.Proof.Gen.KernelIdeal.Loops
import proofs.«111114_j62749472195254_1_alg».proof.Proof.Region0
import proofs.«111114_j62749472195254_1_alg».proof.Proof.Region1
import proofs.«111114_j62749472195254_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Frm Cert.KernelIdeal.Frm1
open Idealize.ShloMosaic.Pipeline (HostSeg RegionSeg Seg)

variable (m : (ℓ : Loc nD τ sig) → Buf (Elt F) ℓ) (ρ : Dev nD → PrngReg)

/-! ## The contents of the core's buffers at the five boundaries -/

/-- At launch. -/
abbrev B0 : Dev nD → Valuation τ sig (Elt F) := fun c b => m ((c : Dev nD), b)
abbrev C0 : (c : Dev nD) → (b : Ref sig .tc) → Buf (Elt F) ((c : Thread nD τ).loc b) := fun c b => B0 m c b
/-- After the first region: the normalized coordinates and the voxel ids are in place. -/
def B1 (c : Dev nD) : Valuation τ sig (Elt F) :=
  Pipeline.withArrays spec0 c (B0 m c) fun w => (dat0 (C0 m) c).arrAt w cfg0.N
abbrev C1 : (c : Dev nD) → (b : Ref sig .tc) → Buf (Elt F) ((c : Thread nD τ).loc b) := fun c b => B1 m c b
/-- After the first host stretch: the extended features are in place. -/
def B2 (c : Dev nD) : Valuation τ sig (Elt F) := StableHlo.after hostOps1 (B1 m c)
abbrev C2 : (c : Dev nD) → (b : Ref sig .tc) → Buf (Elt F) ((c : Thread nD τ).loc b) := fun c b => B2 m c b
/-- After the second region: the per-voxel sums and counts are in place. -/
def B3 (c : Dev nD) : Valuation τ sig (Elt F) :=
  Pipeline.withArrays spec1 c (B2 m c) fun w => (dat1 (C2 m) c).arrAt w cfg1.N
abbrev C3 : (c : Dev nD) → (b : Ref sig .tc) → Buf (Elt F) ((c : Thread nD τ).loc b) := fun c b => B3 m c b
/-- At the end: the averages, reshaped. -/
def B4 (c : Dev nD) : Valuation τ sig (Elt F) := StableHlo.after hostOps2 (B3 m c)

theorem B1_arr (c : Dev nD) (w : Fin cfg0.W) :
    B1 m c (Proc.devRef .tc (Pipeline.arrRef spec0 w)) = (dat0 (C0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
theorem B3_arr (c : Dev nD) (w : Fin cfg1.W) :
    B3 m c (Proc.devRef .tc (Pipeline.arrRef spec1 w)) = (dat1 (C2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb

theorem exit0_arr (c : Dev nD) (w : Fin cfg0.W) : (dat0 (C0 m) c).arrAt w cfg0.N = C1 m c (Pipeline.arrRef spec0 w) :=
  (B1_arr m c w).symm
theorem exit0_rest (c : Dev nD) : ∀ b, b ∉ Finset.univ.image (Pipeline.arrRef spec0) → C1 m c b = C0 m c b :=
  fun b hb => B1_of_ne m c b fun w e => hb (Finset.mem_image.mpr ⟨w, Finset.mem_univ _, e⟩)
theorem exit1_arr (c : Dev nD) (w : Fin cfg1.W) : (dat1 (C2 m) c).arrAt w cfg1.N = C3 m c (Pipeline.arrRef spec1 w) :=
  (B3_arr m c w).symm
theorem exit1_rest (c : Dev nD) : ∀ b, b ∉ Finset.univ.image (Pipeline.arrRef spec1) → C3 m c b = C2 m c b :=
  fun b hb => B3_of_ne m c b fun w e => hb (Finset.mem_image.mpr ⟨w, Finset.mem_univ _, e⟩)

/-! ## The proof data of both regions, and what rides along -/

abbrev adm : (p : Fin 2) → (pcfgs (F := F) p).Adm := fun p => (cfgs p).toPCfg_adm
/-- Each region's proof data at the contents it is entered from. -/
def pdats : (p : Fin 2) → (c : Dev nD) → Dat τ (Elt F) Unit ℕ (UR sig nD τ) ℕ (Pipeline.pin (pcfgs (F := F)) adm p) c
  | ⟨0, _⟩ => fun c => dat0 (C0 m) c
  | ⟨1, _⟩ => fun c => dat1 (C2 m) c
abbrev 𝒱₀ : Variants := Variants.none
abbrev L : GSem nD τ sig → Finset Unit := fun _ => ∅
abbrev lv : GSem nD τ sig → Unit → ℕ := fun _ _ => 0
/-- Beside the buffers, through every item: the generator register at some state, and nothing owed. -/
abbrev R (c : Dev nD) : sProp 𝕄 := iprop((∃ r, prngReg c r) ∗ ∃ W, owes (c : Thread nD τ) (0 : CellTallies nD τ sig Unit) W)
/-- A host stretch run from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions -/

set_option backward.isDefEq.respectTransparency.types false in
/-- The first region between the launch contents and `B1`: its three arrays are taken out of the core's buffers and
    put back at what the write-backs left; the generator register passes through the region's invariant. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (C0 m) c).loose
  hwaits := Pipeline.hwaits_of_owed_zero _ _ _ _ L lv 0 fun _ _ => rfl
  pre c := iprop(StableHlo.held (c : Thread nD τ) (Pipeline.ucRefs τ sig) (B0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec0 c (C0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (C0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (C0 m c) (C1 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region between `B2` and `B3`, in the same way. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (C2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := UR sig nD τ) (Lvl := ℕ) spec1 c (C2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (C2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (C2 m c) (C3 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its four items, and the run -/

abbrev segs : List (Seg (pcfgs (F := F)) adm (pdats m) () defs₀ 𝒱₀ L lv) :=
  [ .region (reg0 m),
    .host (hseg hostOps1 hostOps1_sub hostOps1_fresh (B1 m)),
    .region (reg1 m),
    .host (hseg hostOps2 hostOps2_sub hostOps2_fresh (B3 m)) ]

theorem main_run (c : Dev nD) : main (F := F) c = Seg.run (segs m) := (main_chain c).trans (by chain_rfl)

/-- The last boundary without the `owes`. -/
abbrev Tend (c : Dev nD) : sProp 𝕄 := iprop(StableHlo.held (c : Thread nD τ) (Pipeline.ucRefs τ sig) (B4 m c) ∗ ∃ r, prngReg c r)

set_option backward.isDefEq.respectTransparency.types false in
/-- THE RUN: every weakly fair execution from `m` with zero counters ends, nothing faulting, with every unscoped buffer
    of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tend m)
    (hch := ⟨fun _ => .rfl, fun _ => .rfl, fun _ => .rfl, fun _ => .rfl, fun c => by
      show iprop(StableHlo.held (c : Thread nD τ) (Pipeline.ucRefs τ sig) (StableHlo.after hostOps2 (B3 m c)) ∗ R c)
        ⊢ iprop(iprop(StableHlo.held (c : Thread nD τ) (Pipeline.ucRefs τ sig) (StableHlo.after hostOps2 (B3 m c)) ∗ ∃ r, prngReg c r)
            ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

end Cert.KernelIdeal.Run

end
-- ==== Proof.Kept.lean ====
/-
  The two arguments end as launched: the features are no window of the first region, are written by no host
  operation, and are no window of the second region; the coordinates are an input window of the first region, which
  leaves an input's array as it found it, and nothing later writes them. With the run, that is the frame.
  For an arbitrary float instance.
-/
import proofs.«111114_j62749472195254_1_alg».proof.Proof.Gen.KernelIdeal.Launch
import proofs.«111114_j62749472195254_1_alg».proof.Proof.Gen.KernelIdeal.Skeleton
import proofs.«111114_j62749472195254_1_alg».proof.Proof.Gen.KernelIdeal.Points
import proofs.«111114_j62749472195254_1_alg».proof.Proof.Gen.KernelIdeal.Loops
import proofs.«111114_j62749472195254_1_alg».proof.Proof.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Frm Cert.KernelIdeal.Frm1

variable (m : (ℓ : Loc nD τ sig) → Buf (Elt F) ℓ) (ρ : Dev nD → PrngReg)

theorem B4_features (c : Dev nD) : B4 m c (Proc.devRef .tc main_arg0) = m ((c : Thread nD τ).loc main_arg0) :=
  calc B4 m c (Proc.devRef .tc main_arg0)
    _ = B3 m c (Proc.devRef .tc main_arg0) := StableHlo.after_of_writes_sub hostOps2 _ hostOps2_writes (by decide)
    _ = B2 m c (Proc.devRef .tc main_arg0) := B3_of_ne m c main_arg0 (by decide)
    _ = B1 m c (Proc.devRef .tc main_arg0) := StableHlo.after_of_writes_sub hostOps1 _ hostOps1_writes (by decide)
    _ = B0 m c (Proc.devRef .tc main_arg0) := B1_of_ne m c main_arg0 (by decide)
    _ = m ((c : Thread nD τ).loc main_arg0) := rfl

theorem B4_coords (c : Dev nD) : B4 m c (Proc.devRef .tc main_arg1) = m ((c : Thread nD τ).loc main_arg1) :=
  calc B4 m c (Proc.devRef .tc main_arg1)
    _ = B3 m c (Proc.devRef .tc main_arg1) := StableHlo.after_of_writes_sub hostOps2 _ hostOps2_writes (by decide)
    _ = B2 m c (Proc.devRef .tc main_arg1) := B3_of_ne m c main_arg1 (by decide)
    _ = B1 m c (Proc.devRef .tc main_arg1) := StableHlo.after_of_writes_sub hostOps1 _ hostOps1_writes (by decide)
    _ = B0 m c (Proc.devRef .tc main_arg1) := (B1_arr m c 0).trans (((dat0 (C0 m) c).arrAt_in 0 rfl _).trans (A_eq0 (C0 m) c 0))
    _ = m ((c : Thread nD τ).loc main_arg1) := rfl

/-- Every weakly fair execution ends, nothing faults, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (B4_features m c),
     (h c _ (mem_uc main_arg1 (by decide))).trans (B4_coords m c)⟩) (run_all m ρ)

end Cert.KernelIdeal.Run

end
-- ==== Proof.WRegion0.lean ====
/-
  Nothing below depends on what a float is: every statement holds of the program whose floats are machine words
  exactly as of the one whose floats are extended reals.
  The first kernel region: per batch, one block of the coordinates is centred on its row means, divided by twice
  the largest point norm, shifted by one half, scaled by 32 and clipped to [0, 31]; that block is the second result,
  and its entries rounded to integers v0, v1, v2 give the voxel id v0·1024 + v1·32 + v2 of each point.
  Here: what the region leaves in its two output blocks as a function of the input block, the proof that the
  body computes exactly that on any staging buffers, and the per-point obligation of the pipeline.
  Everything is stated for an arbitrary float instance.
-/
import proofs.«111114_j62749472195254_1_alg».proof.Proof.Gen.Kernel.Launch
import proofs.«111114_j62749472195254_1_alg».proof.Proof.Gen.Kernel.Skeleton
import proofs.«111114_j62749472195254_1_alg».proof.Proof.Gen.Kernel.Points
import proofs.«111114_j62749472195254_1_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the contents of the core's buffers when the region is entered
variable (V : (c : Dev nD) → (b : Ref sig .tc) → Buf (Elt F) ((c : Thread nD τ).loc b))

/-- The block of window `w` at grid point `t`, cut out of the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The coordinates' staging buffer holds the batch's block whenever the body runs: the window is fetched at
    every point and the body leaves it as it found it. -/
theorem before0_in {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The whole block of coordinates, and the whole block of voxel ids. -/
abbrev rXYZ : Rect S1x3x65536 := Rect.unit (s := S1x3x65536) ![0, 0, 0] S1x3x65536.size inb_S1x3x65536_S1x3x65536_0_0_0
abbrev rId : Rect S1x1x65536 := Rect.unit (s := S1x1x65536) ![0, 0, 0] S1x1x65536.size inb_S1x1x65536_S1x1x65536_0_0_0

/-- The normalized, clipped coordinates of a block: what the body stores into the first output block. -/
def ncOf (x0 : Vec F S1x3x65536 .f32) : Vec F S1x3x65536 .f32 :=
  View.canon [⟨rXYZ, k0_pay1 (View.ld x0 rXYZ)⟩]
/-- The voxel ids of a block: what the body stores into the second output block. -/
def idOf (x0 : Vec F S1x3x65536 .f32) : Vec F S1x1x65536 .i32 :=
  View.canon [⟨rId, k0_pay2 (View.ld x0 rXYZ)⟩]

/-- One store of the whole block covers the block. -/
theorem cover_nc (p0 : Vec F S1x3x65536 .f32) (y : S1x3x65536.Idx) :
    ∃ pc ∈ ([⟨rXYZ, p0⟩] : List (View.Piece (Elt F) S1x3x65536 .f32)), y ∈ pc.1.set :=
  View.cover_of_tiled [⟨rXYZ, p0⟩] S1x3x65536.size (by rfl) y
theorem cover_id (p0 : Vec F S1x1x65536 .i32) (y : S1x1x65536.Idx) :
    ∃ pc ∈ ([⟨rId, p0⟩] : List (View.Piece (Elt F) S1x1x65536 .i32)), y ∈ pc.1.set :=
  View.cover_of_tiled [⟨rId, p0⟩] S1x1x65536.size (by rfl) y

set_option maxHeartbeats 1000000 in
/-- On whole staging buffers, the coordinates' at `x0` and the two outputs' at anything, the body ends with the
    coordinates untouched, the first output at `ncOf x0` and the second at `idOf x0` (what it reads from the output
    buffers before overwriting them is never used). -/
theorem sound_kernel0 (c : Dev nD) (E : Set ℕ) (i : grid0.Coords)
    (arg1 : Memref sig .tc .vmem S1x3x65536 .f32) (harg1 : arg1.IsWhole) (arg2 : Memref sig .tc .vmem S1x3x65536 .f32) (harg2 : arg2.IsWhole)
    (arg3 : Memref sig .tc .vmem S1x1x65536 .i32) (harg3 : arg3.IsWhole)
    (x0 : Vec F S1x3x65536 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (ncOf x0) ∗ owns (c : Thread nD τ) arg3 fullShare (idOf x0)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  simp only [k0_part1_eq_skeleton]; unfold k0_part1_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover_nc _)
  iexists _; isplitr
  swap; · iexact H2
  ipureintro
  exact View.read_writes_eq_canon _ _ _ (cover_id _)

/-- The region's proof data on core `c`: the arrays as the region finds them; after the body at point `t` the
    coordinates' buffer still at the batch's block, the two outputs' at `ncOf` and `idOf` of it; between points only the
    buffers the region does not use and the generator register; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => ncOf (blk0 V c 0 t)
    | ⟨2, _⟩ => idOf (blk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = ncOf (blk0 V c 0 t) := by dsimp only [dat0]
theorem after0_2 (c : Dev nD) (t : Fin cfg0.N) : (dat0 V c).after 2 t = idOf (blk0 V c 0 t) := by dsimp only [dat0]
theorem before0_0 (c : Dev nD) (t : Fin cfg0.N) (d) : (dat0 V c).before 0 t d = blk0 V c 0 t :=
  before0_in V (dat0 V c) (A_eq0 V c 0) (after0_0 V c) t d

/-- What the pipeline hands the body at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))
/-- and what it takes back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (blk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation for the first region, at every point. -/
theorem body_obligation0 (c : Dev nD) : BodyObligation (dat0 (F := F) V c) (defs₀ (F := F)) Variants.none () Set.univ := fun t => by
  rw [bigSep_W0, bigSep_W0]
  exact sound_body0 V c t

end

end Cert.Kernel.Frm

end
-- ==== Proof.WRegion1.lean ====
/-
  Nothing below depends on what a float is: every statement holds of the program whose floats are machine words
  exactly as of the one whose floats are extended reals.
  The second kernel region: at grid point (b, vi) the body clears an 80 × 1024 accumulator, then for each of the 64
  chunks of 1024 points adds to it the product of the extended features of batch b on that chunk (80 rows: the 64
  channels, a row of ones, fifteen rows of zeros) with the indicator matrix "point n lies in voxel vi·1024 + v", and
  finally copies the accumulator into the output block. So entry (c, v) of the block is the sum over the batch's
  points lying in voxel vi·1024 + v of row c.
  Here: the body's run on any staging buffers (the 64 trips through the loop's invariant, one symbolic trip), the
  pieces that run leaves in the output block, the region's proof data and the per-point obligation of the pipeline —
  for an arbitrary float instance. What the pieces ARE, as numbers, is read off elsewhere.
-/
import proofs.«111114_j62749472195254_1_alg».proof.Proof.Gen.Kernel.Launch
import proofs.«111114_j62749472195254_1_alg».proof.Proof.Gen.Kernel.Skeleton
import proofs.«111114_j62749472195254_1_alg».proof.Proof.Gen.Kernel.Points
import proofs.«111114_j62749472195254_1_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the contents of the core's buffers when the region is entered
variable (V : (c : Dev nD) → (b : Ref sig .tc) → Buf (Elt F) ((c : Thread nD τ).loc b))

/-- The block of window `w` at grid point `t`, cut out of the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The features' and the voxel ids' staging buffers hold batch b's blocks whenever the body runs — they are fetched
    only when b changes, and the body leaves them as it found them. -/
theorem before1_in0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_in1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The accumulator. -/
abbrev accM : Memref sig .tc .vmem S80x1024 .f32 := Memref.whole cc1_scratch0
/-- A view of the output block's shape, to read a list of pieces back over arbitrary contents. -/
abbrev outV : View sig .tc .vmem S1x80x1024 .f32 := (Memref.whole cc1_stg2_0 : Memref sig .tc .vmem S1x80x1024 .f32).view

/-- The current staging buffers at point `t`. -/
abbrev ms1_0 (t : Fin cfg1.N) : Memref sig .tc .vmem S1x80x65536 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x65536 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x80x1024 .f32 := win1_2.stage (cfg1.slots t 2)
abbrev hs1_2 (t : Fin cfg1.N) : (ms1_2 t).IsWhole := hstage1_2 ((cfg1.slots t 2).cast nbuf1_2)

/-- Between points the region holds the scoped buffers it does not stage — among them the accumulator, at
    anything — and the generator register. -/
theorem inv1_eq (c : Dev nD) :
    (Pipeline.ΦA (Val := Elt F) (U := UR sig nD τ) spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) accM fullShare d)) ∗ (∃ r, prngReg c r)) := by
  unfold Pipeline.ΦA; rw [scopedRest1_eq]; simp only [accM, owns_whole]; try rfl

set_option maxHeartbeats 4000000 in
/-- The pieces the body's stores leave in the output block (last first), WITH the proof that on whole staging
    buffers — the features' and the ids' at their contents, the output's and the accumulator at anything — the body
    runs to the end with the inputs as they were, the output block with those pieces written, the accumulator at
    something. The list is what the run finds. -/
noncomputable def kernelRun1 (c : Dev nD) (i : grid1.Coords)
    (arg2 : Memref sig .tc .vmem S1x80x65536 .bf16) (harg2 : arg2.IsWhole) (arg3 : Memref sig .tc .vmem S1x1x65536 .i32) (harg3 : arg3.IsWhole)
    (arg4 : Memref sig .tc .vmem S1x80x1024 .f32) (harg4 : arg4.IsWhole)
    (x0 : Vec F S1x80x65536 .bf16) (x1 : Vec F S1x1x65536 .i32) :
    { L : List (View.Piece (Elt F) S1x80x1024 .f32) //
      ∀ (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) accM fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L) ∗ (∃ d, owns (c : Thread nD τ) accM fullShare d)) -∗ K ⟨⟩))
          ⊢ wp frame (wpE (defs₀ (F := F)) Variants.none c none) Set.univ (cc1__scatter_kernel i arg2 harg2 arg3 harg3 arg4 harg4 accM (Memref.isWhole_whole _)) K } := by
  refine ⟨?_, fun K => ?run⟩
  case run =>
    simp only [cc1__scatter_kernel_eq_skeleton]; unfold cc1__scatter_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0
    obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _, _; isplitr; swap; · iexact HS
    ipureintro; rfl

/-- The run's pieces for the output block tile it (one store of the whole block), so they cover it. -/
theorem cover1 (c : Dev nD) (i : grid1.Coords)
    (arg2 : Memref sig .tc .vmem S1x80x65536 .bf16) (harg2 : arg2.IsWhole) (arg3 : Memref sig .tc .vmem S1x1x65536 .i32) (harg3 : arg3.IsWhole)
    (arg4 : Memref sig .tc .vmem S1x80x1024 .f32) (harg4 : arg4.IsWhole)
    (x0 : Vec F S1x80x65536 .bf16) (x1 : Vec F S1x1x65536 .i32) (y : S1x80x1024.Idx) :
    ∃ pc ∈ (kernelRun1 c i arg2 harg2 arg3 harg3 arg4 harg4 x0 x1).1, y ∈ pc.1.set :=
  View.cover_of_tiledL (kernelRun1 c i arg2 harg2 arg3 harg3 arg4 harg4 x0 x1).1 S1x80x1024.size (by sl_kernel_rfl) y

/-- What the run leaves in the output block: its pieces read back (they cover the block, so over anything). -/
def out1 (c : Dev nD) (i : grid1.Coords)
    (arg2 : Memref sig .tc .vmem S1x80x65536 .bf16) (harg2 : arg2.IsWhole) (arg3 : Memref sig .tc .vmem S1x1x65536 .i32) (harg3 : arg3.IsWhole)
    (arg4 : Memref sig .tc .vmem S1x80x1024 .f32) (harg4 : arg4.IsWhole)
    (x0 : Vec F S1x80x65536 .bf16) (x1 : Vec F S1x1x65536 .i32) : Vec F S1x80x1024 .f32 :=
  outV.read (Elt F) (outV.writes (Elt F) outV.junk (kernelRun1 c i arg2 harg2 arg3 harg3 arg4 harg4 x0 x1).1)

/-- The output block after the body at point `t`: the run's block at the point's buffers and input blocks. -/
def outAt1 (c : Dev nD) (t : Fin cfg1.N) : Vec F S1x80x1024 .f32 :=
  out1 c (grid1.coords t) (ms1_0 t) (hs1_0 t) (ms1_1 t) (hs1_1 t) (ms1_2 t) (hs1_2 t) (blk1 V c 0 t) (blk1 V c 1 t)

/-- The region's proof data on core `c`: the arrays as the region finds them; after the body at point `t` the two
    inputs' buffers still at batch b's blocks, the output's at `outAt1`; between points the buffers the region does
    not stage (the accumulator among them) and the generator register; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = outAt1 V c t := by dsimp only [dat1]
theorem before1_0 (c : Dev nD) (t : Fin cfg1.N) (d) : (dat1 V c).before 0 t d = blk1 V c 0 t :=
  before1_in0 V (dat1 V c) (A_eq1 V c 0) (after1_0 V c) t d
theorem before1_1 (c : Dev nD) (t : Fin cfg1.N) (d) : (dat1 V c).before 1 t d = blk1 V c 1 t :=
  before1_in1 V (dat1 V c) (A_eq1 V c 1) (after1_1 V c) t d

/-- What the pipeline hands the body at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))
/-- and what it takes back. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

/-- The body at any point: the inputs' buffers hold batch b's blocks, so the run applies; the invariant lends the
    body its accumulator and takes it back at whatever the body left in it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  rw [show (dat1 V c).Φ t.castSucc = Pipeline.ΦA spec1 c from rfl, inv1_eq]
  unfold outAt1
  unfold out1
  iintro ⟨⟨⟨HR0, HR1, HR2, HR3, HR4, HR5, HS⟩, Hg⟩, Ho, ⟨%d0, H0⟩, ⟨%d1, H1⟩, ⟨%d2, H2⟩⟩
  iapply ((kernelRun1 c (grid1.coords t) _ _ _ _ _ _ (blk1 V c 0 t) (blk1 V c 1 t)).2 _)
  isplitl [H0]; · iexact H0
  isplitl [H1]; · iexact H1
  isplitl [H2]; · iexists _; iexact H2
  isplitl [HS]; · iexact HS
  iintro ⟨H0, H1, ⟨%e2, H2⟩, HS⟩
  isplitl [HR0 HR1 HR2 HR3 HR4 HR5 HS Hg]
  · isplitl [HR0 HR1 HR2 HR3 HR4 HR5 HS]
    · isplitl [HR0]; · iexact HR0
      isplitl [HR1]; · iexact HR1
      isplitl [HR2]; · iexact HR2
      isplitl [HR3]; · iexact HR3
      isplitl [HR4]; · iexact HR4
      isplitl [HR5]; · iexact HR5
      iexact HS
    iexact Hg
  isplitl [Ho]; · iexact Ho
  isplitl [H0]; · iexact H0
  isplitl [H1]; · iexact H1
  unfold owns; iexists _; isplitr
  swap; · iexact H2
  ipureintro; exact View.read_writes_of_cover _ _ _ _ _ (cover1 c _ _ _ _ _ _ _ _ _)

/-- The pipeline's obligation for the second region, at every point. -/
theorem body_obligation1 (c : Dev nD) : BodyObligation (dat1 (F := F) V c) (defs₀ (F := F)) Variants.none () Set.univ := fun t => by
  rw [bigSep_W1, bigSep_W1]
  exact sound_body1 V c t

end

end Cert.Kernel.Frm1

end
-- ==== Proof.WRun.lean ====
/-
  Nothing below depends on what a float is: every statement holds of the program whose floats are machine words
  exactly as of the one whose floats are extended reals.
  The whole program as a chain of four items — the first region, six host operations (the features cast, the row of
  ones, the rows of zeros, their concatenation), the second region, eight host operations (the two slices, the
  clamp of the counts at one, the quotient, the reshape) — and what every buffer of the core holds at each of the
  five boundaries between them, as a fold from the launch memory: a region replaces its windows' arrays by what
  its write-backs leave, a host stretch applies its operations. The run: from any memory with all counters at zero
  every weakly fair execution ends, nothing faults, and the final memory holds every unscoped buffer at the last
  boundary's contents. The frame (the two arguments end as launched) and the two results are read off that.
  For an arbitrary float instance.
-/
import proofs.«111114_j62749472195254_1_alg».proof.Proof.Gen.Kernel.Launch
import proofs.«111114_j62749472195254_1_alg».proof.Proof.Gen.Kernel.Skeleton
import proofs.«111114_j62749472195254_1_alg».proof.Proof.Gen.Kernel.Points
import proofs.«111114_j62749472195254_1_alg».proof.Proof.Gen.Kernel.Loops
import proofs.«111114_j62749472195254_1_alg».proof.Proof.WRegion0
import proofs.«111114_j62749472195254_1_alg».proof.Proof.WRegion1
import proofs.«111114_j62749472195254_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Frm Cert.Kernel.Frm1
open Idealize.ShloMosaic.Pipeline (HostSeg RegionSeg Seg)

variable (m : (ℓ : Loc nD τ sig) → Buf (Elt F) ℓ) (ρ : Dev nD → PrngReg)

/-! ## The contents of the core's buffers at the five boundaries -/

/-- At launch. -/
abbrev B0 : Dev nD → Valuation τ sig (Elt F) := fun c b => m ((c : Dev nD), b)
abbrev C0 : (c : Dev nD) → (b : Ref sig .tc) → Buf (Elt F) ((c : Thread nD τ).loc b) := fun c b => B0 m c b
/-- After the first region: the normalized coordinates and the voxel ids are in place. -/
def B1 (c : Dev nD) : Valuation τ sig (Elt F) :=
  Pipeline.withArrays spec0 c (B0 m c) fun w => (dat0 (C0 m) c).arrAt w cfg0.N
abbrev C1 : (c : Dev nD) → (b : Ref sig .tc) → Buf (Elt F) ((c : Thread nD τ).loc b) := fun c b => B1 m c b
/-- After the first host stretch: the extended features are in place. -/
def B2 (c : Dev nD) : Valuation τ sig (Elt F) := StableHlo.after hostOps1 (B1 m c)
abbrev C2 : (c : Dev nD) → (b : Ref sig .tc) → Buf (Elt F) ((c : Thread nD τ).loc b) := fun c b => B2 m c b
/-- After the second region: the per-voxel sums and counts are in place. -/
def B3 (c : Dev nD) : Valuation τ sig (Elt F) :=
  Pipeline.withArrays spec1 c (B2 m c) fun w => (dat1 (C2 m) c).arrAt w cfg1.N
abbrev C3 : (c : Dev nD) → (b : Ref sig .tc) → Buf (Elt F) ((c : Thread nD τ).loc b) := fun c b => B3 m c b
/-- At the end: the averages, reshaped. -/
def B4 (c : Dev nD) : Valuation τ sig (Elt F) := StableHlo.after hostOps2 (B3 m c)

theorem B1_arr (c : Dev nD) (w : Fin cfg0.W) :
    B1 m c (Proc.devRef .tc (Pipeline.arrRef spec0 w)) = (dat0 (C0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
theorem B3_arr (c : Dev nD) (w : Fin cfg1.W) :
    B3 m c (Proc.devRef .tc (Pipeline.arrRef spec1 w)) = (dat1 (C2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb

theorem exit0_arr (c : Dev nD) (w : Fin cfg0.W) : (dat0 (C0 m) c).arrAt w cfg0.N = C1 m c (Pipeline.arrRef spec0 w) :=
  (B1_arr m c w).symm
theorem exit0_rest (c : Dev nD) : ∀ b, b ∉ Finset.univ.image (Pipeline.arrRef spec0) → C1 m c b = C0 m c b :=
  fun b hb => B1_of_ne m c b fun w e => hb (Finset.mem_image.mpr ⟨w, Finset.mem_univ _, e⟩)
theorem exit1_arr (c : Dev nD) (w : Fin cfg1.W) : (dat1 (C2 m) c).arrAt w cfg1.N = C3 m c (Pipeline.arrRef spec1 w) :=
  (B3_arr m c w).symm
theorem exit1_rest (c : Dev nD) : ∀ b, b ∉ Finset.univ.image (Pipeline.arrRef spec1) → C3 m c b = C2 m c b :=
  fun b hb => B3_of_ne m c b fun w e => hb (Finset.mem_image.mpr ⟨w, Finset.mem_univ _, e⟩)

/-! ## The proof data of both regions, and what rides along -/

abbrev adm : (p : Fin 2) → (pcfgs (F := F) p).Adm := fun p => (cfgs p).toPCfg_adm
/-- Each region's proof data at the contents it is entered from. -/
def pdats : (p : Fin 2) → (c : Dev nD) → Dat τ (Elt F) Unit ℕ (UR sig nD τ) ℕ (Pipeline.pin (pcfgs (F := F)) adm p) c
  | ⟨0, _⟩ => fun c => dat0 (C0 m) c
  | ⟨1, _⟩ => fun c => dat1 (C2 m) c
abbrev 𝒱₀ : Variants := Variants.none
abbrev L : GSem nD τ sig → Finset Unit := fun _ => ∅
abbrev lv : GSem nD τ sig → Unit → ℕ := fun _ _ => 0
/-- Beside the buffers, through every item: the generator register at some state, and nothing owed. -/
abbrev R (c : Dev nD) : sProp 𝕄 := iprop((∃ r, prngReg c r) ∗ ∃ W, owes (c : Thread nD τ) (0 : CellTallies nD τ sig Unit) W)
/-- A host stretch run from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions -/

set_option backward.isDefEq.respectTransparency.types false in
/-- The first region between the launch contents and `B1`: its three arrays are taken out of the core's buffers and
    put back at what the write-backs left; the generator register passes through the region's invariant. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (C0 m) c).loose
  hwaits := Pipeline.hwaits_of_owed_zero _ _ _ _ L lv 0 fun _ _ => rfl
  pre c := iprop(StableHlo.held (c : Thread nD τ) (Pipeline.ucRefs τ sig) (B0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec0 c (C0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (C0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (C0 m c) (C1 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region between `B2` and `B3`, in the same way. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (C2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := UR sig nD τ) (Lvl := ℕ) spec1 c (C2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (C2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (C2 m c) (C3 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its four items, and the run -/

abbrev segs : List (Seg (pcfgs (F := F)) adm (pdats m) () defs₀ 𝒱₀ L lv) :=
  [ .region (reg0 m),
    .host (hseg hostOps1 hostOps1_sub hostOps1_fresh (B1 m)),
    .region (reg1 m),
    .host (hseg hostOps2 hostOps2_sub hostOps2_fresh (B3 m)) ]

theorem main_run (c : Dev nD) : main (F := F) c = Seg.run (segs m) := (main_chain c).trans (by chain_rfl)

/-- The last boundary without the `owes`. -/
abbrev Tend (c : Dev nD) : sProp 𝕄 := iprop(StableHlo.held (c : Thread nD τ) (Pipeline.ucRefs τ sig) (B4 m c) ∗ ∃ r, prngReg c r)

set_option backward.isDefEq.respectTransparency.types false in
/-- THE RUN: every weakly fair execution from `m` with zero counters ends, nothing faulting, with every unscoped buffer
    of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tend m)
    (hch := ⟨fun _ => .rfl, fun _ => .rfl, fun _ => .rfl, fun _ => .rfl, fun c => by
      show iprop(StableHlo.held (c : Thread nD τ) (Pipeline.ucRefs τ sig) (StableHlo.after hostOps2 (B3 m c)) ∗ R c)
        ⊢ iprop(iprop(StableHlo.held (c : Thread nD τ) (Pipeline.ucRefs τ sig) (StableHlo.after hostOps2 (B3 m c)) ∗ ∃ r, prngReg c r)
            ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

end Cert.Kernel.Run

end
-- ==== Proof.WKept.lean ====
/-
  Nothing below depends on what a float is: every statement holds of the program whose floats are machine words
  exactly as of the one whose floats are extended reals.
  The two arguments end as launched: the features are no window of the first region, are written by no host
  operation, and are no window of the second region; the coordinates are an input window of the first region, which
  leaves an input's array as it found it, and nothing later writes them. With the run, that is the frame.
  For an arbitrary float instance.
-/
import proofs.«111114_j62749472195254_1_alg».proof.Proof.Gen.Kernel.Launch
import proofs.«111114_j62749472195254_1_alg».proof.Proof.Gen.Kernel.Skeleton
import proofs.«111114_j62749472195254_1_alg».proof.Proof.Gen.Kernel.Points
import proofs.«111114_j62749472195254_1_alg».proof.Proof.Gen.Kernel.Loops
import proofs.«111114_j62749472195254_1_alg».proof.Proof.WRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Frm Cert.Kernel.Frm1

variable (m : (ℓ : Loc nD τ sig) → Buf (Elt F) ℓ) (ρ : Dev nD → PrngReg)

theorem B4_features (c : Dev nD) : B4 m c (Proc.devRef .tc main_arg0) = m ((c : Thread nD τ).loc main_arg0) :=
  calc B4 m c (Proc.devRef .tc main_arg0)
    _ = B3 m c (Proc.devRef .tc main_arg0) := StableHlo.after_of_writes_sub hostOps2 _ hostOps2_writes (by decide)
    _ = B2 m c (Proc.devRef .tc main_arg0) := B3_of_ne m c main_arg0 (by decide)
    _ = B1 m c (Proc.devRef .tc main_arg0) := StableHlo.after_of_writes_sub hostOps1 _ hostOps1_writes (by decide)
    _ = B0 m c (Proc.devRef .tc main_arg0) := B1_of_ne m c main_arg0 (by decide)
    _ = m ((c : Thread nD τ).loc main_arg0) := rfl

theorem B4_coords (c : Dev nD) : B4 m c (Proc.devRef .tc main_arg1) = m ((c : Thread nD τ).loc main_arg1) :=
  calc B4 m c (Proc.devRef .tc main_arg1)
    _ = B3 m c (Proc.devRef .tc main_arg1) := StableHlo.after_of_writes_sub hostOps2 _ hostOps2_writes (by decide)
    _ = B2 m c (Proc.devRef .tc main_arg1) := B3_of_ne m c main_arg1 (by decide)
    _ = B1 m c (Proc.devRef .tc main_arg1) := StableHlo.after_of_writes_sub hostOps1 _ hostOps1_writes (by decide)
    _ = B0 m c (Proc.devRef .tc main_arg1) := (B1_arr m c 0).trans (((dat0 (C0 m) c).arrAt_in 0 rfl _).trans (A_eq0 (C0 m) c 0))
    _ = m ((c : Thread nD τ).loc main_arg1) := rfl

/-- Every weakly fair execution ends, nothing faults, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (B4_features m c),
     (h c _ (mem_uc main_arg1 (by decide))).trans (B4_coords m c)⟩) (run_all m ρ)

end Cert.Kernel.Run

end
-- ==== Proof.NormArrays.lean ====
/-
  What the first region leaves, as whole arrays over the extended reals. The grid has one point per batch; point b
  reads the batch's block of the coordinates and writes back the block's normalized, clipped coordinates into rows
  (b, ·, ·) of the second result and the block's voxel ids into row (b, 0, ·) of the id array. The eight blocks tile
  both arrays, so entry (b, k, n) of the second result is the normalization of batch b's block at (k, n), and id
  (b, n) is the block's id at n.
-/
import proofs.«111114_j62749472195254_1_alg».proof.Proof.Gen.KernelIdeal.Launch
import proofs.«111114_j62749472195254_1_alg».proof.Proof.Gen.KernelIdeal.Skeleton
import proofs.«111114_j62749472195254_1_alg».proof.Proof.Gen.KernelIdeal.Points
import proofs.«111114_j62749472195254_1_alg».proof.Proof.Gen.KernelIdeal.Loops
import proofs.«111114_j62749472195254_1_alg».proof.Proof.Kept
import Idealize.ShloMosaic.Lib.Pipeline.Value
import Idealize.ShloMosaic.Lib.ValueIdx
import Idealize.ShloMosaic.PureOps.Ideal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Frm Cert.KernelIdeal.Frm1 Cert.KernelIdeal.Run
open Idealize.ShloMosaic.ValueIdx

variable (m : (ℓ : Loc nD τ sig) → Buf (Elt Ideal) ℓ)

theorem hz3 : (![0, 0, 0] : Fin 3 → Nat) = fun _ => 0 := funext fun a => by fin_cases a <;> rfl

/-- Batch `b`'s block of a [8, 3, 65536] array. -/
def batchBlk (a1 : S8x3x65536.Idx → EReal) (b : Fin 8) : Vec Ideal S1x3x65536 .f32 :=
  fun y => a1 (ix3 b (⟨(y 1).val, (y 1).isLt⟩ : Fin 3) (⟨(y 2).val, (y 2).isLt⟩ : Fin 65536))

/-- The whole array of normalized coordinates, batch by batch. -/
def ncArr (a1 : S8x3x65536.Idx → EReal) : S8x3x65536.Idx → EReal :=
  fun i => k0_pay1 (F := Ideal) (batchBlk a1 ⟨(i 0).val, (i 0).isLt⟩) (ix3 (0 : Fin 1) (⟨(i 1).val, (i 1).isLt⟩ : Fin 3) (⟨(i 2).val, (i 2).isLt⟩ : Fin 65536))
/-- The whole array of voxel ids, batch by batch. -/
def idArr (a1 : S8x3x65536.Idx → EReal) : S8x1x65536.Idx → BitVec 32 :=
  fun i => k0_pay2 (F := Ideal) (batchBlk a1 ⟨(i 0).val, (i 0).isLt⟩) (ix3 (0 : Fin 1) (0 : Fin 1) (⟨(i 2).val, (i 2).isLt⟩ : Fin 65536))

theorem ncArr_apply (a1 : S8x3x65536.Idx → EReal) (i : S8x3x65536.Idx) :
    ncArr a1 i = k0_pay1 (F := Ideal) (batchBlk a1 ⟨(i 0).val, (i 0).isLt⟩) (ix3 (0 : Fin 1) (⟨(i 1).val, (i 1).isLt⟩ : Fin 3) (⟨(i 2).val, (i 2).isLt⟩ : Fin 65536)) := rfl
theorem idArr_apply (a1 : S8x3x65536.Idx → EReal) (i : S8x1x65536.Idx) :
    idArr a1 i = k0_pay2 (F := Ideal) (batchBlk a1 ⟨(i 0).val, (i 0).isLt⟩) (ix3 (0 : Fin 1) (0 : Fin 1) (⟨(i 2).val, (i 2).isLt⟩ : Fin 65536)) := rfl

/-- The same block at the same index gives the same value. -/
theorem pay1_congr {X X' : Vec Ideal S1x3x65536 .f32} {j j' : S1x3x65536.Idx} (hX : X = X') (hj : j = j') :
    k0_pay1 (F := Ideal) X j = k0_pay1 (F := Ideal) X' j' := by subst hX; subst hj; rfl
theorem pay2_congr {X X' : Vec Ideal S1x3x65536 .f32} {j j' : S1x1x65536.Idx} (hX : X = X') (hj : j = j') :
    k0_pay2 (F := Ideal) X j = k0_pay2 (F := Ideal) X' j' := by subst hX; subst hj; rfl

/-- At point `t` all three windows sit at block (t, 0, 0). -/
theorem idx0 : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The block of coordinates point `t` reads is batch t's. -/
theorem blk0_eq (c : Dev nD) (t : Fin cfg0.N) :
    blk0 (C0 m) c 0 t = batchBlk (m ((c : Thread nD τ).loc main_arg1)) ⟨t.val, by have := t.isLt; have h8 : cfg0.N = 8 := N_0; omega⟩ := by
  obtain ⟨e0, e1, e2, -⟩ := idx0 t
  funext y
  show m ((c : Thread nD τ).loc main_arg1) (((cfg0.win 0).blk t).view.emb y) = _
  unfold batchBlk
  refine congrArg _ (funext fun a => Fin.ext ?_)
  match a with
  | ⟨0, _⟩ => show win0_0.index t (0 : Fin 3) * 1 + 1 * (y 0).val = t.val; have hy : (y 0).val < 1 := (y 0).isLt; omega
  | ⟨1, _⟩ => show win0_0.index t (1 : Fin 3) * 3 + 1 * (y 1).val = (y 1).val; omega
  | ⟨2, _⟩ => show win0_0.index t (2 : Fin 3) * 65536 + 1 * (y 2).val = (y 2).val; omega

end Cert.KernelIdeal.Val

end
-- ==== Proof.NormBlocks.lean ====
/-
  The eight blocks of the first region put together: point t writes back block t of the array of normalized
  coordinates and block t of the array of voxel ids, the blocks tile both arrays, so after the region the arrays hold
  the normalization and the ids of every batch; the coordinates' array then reaches the end untouched and the ids'
  array is what the second region finds.
-/
import proofs.«111114_j62749472195254_1_alg».proof.Proof.Gen.KernelIdeal.Launch
import proofs.«111114_j62749472195254_1_alg».proof.Proof.Gen.KernelIdeal.Skeleton
import proofs.«111114_j62749472195254_1_alg».proof.Proof.Gen.KernelIdeal.Points
import proofs.«111114_j62749472195254_1_alg».proof.Proof.Gen.KernelIdeal.Loops
import proofs.«111114_j62749472195254_1_alg».proof.Proof.NormArrays
import Idealize.ShloMosaic.Lib.Pipeline.Value
import Idealize.ShloMosaic.Lib.ValueIdx
import Idealize.ShloMosaic.PureOps.Ideal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Frm Cert.KernelIdeal.Frm1 Cert.KernelIdeal.Run
open Idealize.ShloMosaic.ValueIdx

variable (m : (ℓ : Loc nD τ sig) → Buf (Elt Ideal) ℓ)

/-- Block t of an array whose row (t, k, n) is `P (0, k, n)` is `P`: the block/array step for the coordinates'
    shape, over arbitrary functions. -/
theorem block_of_rows1 (t : Fin cfg0.N) (P : Vec Ideal S1x3x65536 .f32) (G : S8x3x65536.Idx → EReal)
    (h : ∀ (k : Fin 3) (n : Fin 65536), G (ix3 (⟨t.val, by have := t.isLt; have h8 : cfg0.N = 8 := N_0; omega⟩ : Fin 8) k n) = P (ix3 (0 : Fin 1) k n)) :
    (cfg0.win 1).cut (grid0.coords t) P = ((cfg0.win 1).blk t).view.read (Elt Ideal) G := by
  obtain ⟨-, -, -, e0, e1, e2, -⟩ := idx0 t
  funext j
  show P ((cfg0.win 1).xinj (grid0.coords t) j) = G (((cfg0.win 1).blk t).view.emb j)
  have hj0 : (j 0).val < 1 := (j 0).isLt
  have hj1 : (j 1).val < 3 := (j 1).isLt
  have hj2 : (j 2).val < 65536 := (j 2).isLt
  have hx : (cfg0.win 1).xinj (grid0.coords t) j = ix3 (0 : Fin 1) (⟨(j 1).val, hj1⟩ : Fin 3) (⟨(j 2).val, hj2⟩ : Fin 65536) := by
    funext a
    match a with
    | ⟨0, _⟩ => exact Fin.ext (by show (j 0).val = 0; omega)
    | ⟨1, _⟩ => exact Fin.ext rfl
    | ⟨2, _⟩ => exact Fin.ext rfl
  have he : ((cfg0.win 1).blk t).view.emb j
      = ix3 (⟨t.val, by have := t.isLt; have h8 : cfg0.N = 8 := N_0; omega⟩ : Fin 8) (⟨(j 1).val, hj1⟩ : Fin 3) (⟨(j 2).val, hj2⟩ : Fin 65536) := by
    funext a
    match a with
    | ⟨0, _⟩ => exact Fin.ext (by show win0_1.index t (0 : Fin 3) * 1 + 1 * (j 0).val = t.val; omega)
    | ⟨1, _⟩ => exact Fin.ext (by show win0_1.index t (1 : Fin 3) * 3 + 1 * (j 1).val = (j 1).val; omega)
    | ⟨2, _⟩ => exact Fin.ext (by show win0_1.index t (2 : Fin 3) * 65536 + 1 * (j 2).val = (j 2).val; omega)
  rw [hx, he]
  exact (h _ _).symm

/-- The same for the ids' shape. -/
theorem block_of_rows2 (t : Fin cfg0.N) (P : Vec Ideal S1x1x65536 .i32) (G : S8x1x65536.Idx → BitVec 32)
    (h : ∀ (n : Fin 65536), G (ix3 (⟨t.val, by have := t.isLt; have h8 : cfg0.N = 8 := N_0; omega⟩ : Fin 8) (0 : Fin 1) n) = P (ix3 (0 : Fin 1) (0 : Fin 1) n)) :
    (cfg0.win 2).cut (grid0.coords t) P = ((cfg0.win 2).blk t).view.read (Elt Ideal) G := by
  obtain ⟨-, -, -, -, -, -, e0, e1, e2⟩ := idx0 t
  funext j
  show P ((cfg0.win 2).xinj (grid0.coords t) j) = G (((cfg0.win 2).blk t).view.emb j)
  have hj0 : (j 0).val < 1 := (j 0).isLt
  have hj1 : (j 1).val < 1 := (j 1).isLt
  have hj2 : (j 2).val < 65536 := (j 2).isLt
  have hx : (cfg0.win 2).xinj (grid0.coords t) j = ix3 (0 : Fin 1) (0 : Fin 1) (⟨(j 2).val, hj2⟩ : Fin 65536) := by
    funext a
    match a with
    | ⟨0, _⟩ => exact Fin.ext (by show (j 0).val = 0; omega)
    | ⟨1, _⟩ => exact Fin.ext (by show (j 1).val = 0; omega)
    | ⟨2, _⟩ => exact Fin.ext rfl
  have he : ((cfg0.win 2).blk t).view.emb j
      = ix3 (⟨t.val, by have := t.isLt; have h8 : cfg0.N = 8 := N_0; omega⟩ : Fin 8) (0 : Fin 1) (⟨(j 2).val, hj2⟩ : Fin 65536) := by
    funext a
    match a with
    | ⟨0, _⟩ => exact Fin.ext (by show win0_2.index t (0 : Fin 3) * 1 + 1 * (j 0).val = t.val; omega)
    | ⟨1, _⟩ => exact Fin.ext (by show win0_2.index t (1 : Fin 3) * 1 + 1 * (j 1).val = 0; omega)
    | ⟨2, _⟩ => exact Fin.ext (by show win0_2.index t (2 : Fin 3) * 65536 + 1 * (j 2).val = (j 2).val; omega)
  rw [hx, he]
  exact (h _).symm

theorem ncArr_row (a1 : S8x3x65536.Idx → EReal) (b : Fin 8) (k : Fin 3) (n : Fin 65536) :
    ncArr a1 (ix3 b k n) = k0_pay1 (F := Ideal) (batchBlk a1 b) (ix3 (0 : Fin 1) k n) :=
  (ncArr_apply a1 (ix3 b k n)).trans (pay1_congr (congrArg (batchBlk a1) (Fin.ext rfl))
    (by funext a; match a with | ⟨0, _⟩ => rfl | ⟨1, _⟩ => rfl | ⟨2, _⟩ => rfl))
theorem idArr_row (a1 : S8x3x65536.Idx → EReal) (b : Fin 8) (n : Fin 65536) :
    idArr a1 (ix3 b (0 : Fin 1) n) = k0_pay2 (F := Ideal) (batchBlk a1 b) (ix3 (0 : Fin 1) (0 : Fin 1) n) :=
  (idArr_apply a1 (ix3 b (0 : Fin 1) n)).trans (pay2_congr (congrArg (batchBlk a1) (Fin.ext rfl))
    (by funext a; match a with | ⟨0, _⟩ => rfl | ⟨1, _⟩ => rfl | ⟨2, _⟩ => rfl))

/-- Point `t` writes back block t of the array of normalized coordinates. -/
theorem nc_flushed (c : Dev nD) (t : Fin cfg0.N) :
    (dat0 (C0 m) c).flushed 1 t = ((cfg0.win 1).blk t).view.read (Elt Ideal) (ncArr (m ((c : Thread nD τ).loc main_arg1))) := by
  show (cfg0.win 1).cut (grid0.coords t) ((dat0 (C0 m) c).after 1 t) = _
  rw [after0_1]
  unfold ncOf
  rw [View.canon_unit_zero hz3]
  simp only [View.ld_unit_zero (S := S1x3x65536) hz3]
  rw [blk0_eq]
  exact block_of_rows1 t _ _ (fun k n => ncArr_row _ _ k n)

/-- Point `t` writes back block t of the array of voxel ids. -/
theorem id_flushed (c : Dev nD) (t : Fin cfg0.N) :
    (dat0 (C0 m) c).flushed 2 t = ((cfg0.win 2).blk t).view.read (Elt Ideal) (idArr (m ((c : Thread nD τ).loc main_arg1))) := by
  show (cfg0.win 2).cut (grid0.coords t) ((dat0 (C0 m) c).after 2 t) = _
  rw [after0_2]
  unfold idOf
  rw [View.canon_unit_zero hz3]
  simp only [View.ld_unit_zero (S := S1x3x65536) hz3]
  rw [blk0_eq]
  exact block_of_rows2 t _ _ (fun n => idArr_row _ _ n)

/-- An index lies in point `t`'s block iff each coordinate lies in the block's range on its axis. -/
theorem mem_blk_nc (t : Fin cfg0.N) (i : S8x3x65536.Idx) :
    i ∈ ((cfg0.win 1).blk t).view.set ↔ ∀ a : Fin 3, win0_1.index t a * S1x3x65536.size a ≤ (i a).val ∧ (i a).val < win0_1.index t a * S1x3x65536.size a + S1x3x65536.size a := by
  show i ∈ ((View.whole main_v0_0).slice (win0_1.rect t)).set ↔ _
  rw [View.set_slice_whole, Rect.mem_set_unit]
  exact Iff.rfl
theorem mem_blk_id (t : Fin cfg0.N) (i : S8x1x65536.Idx) :
    i ∈ ((cfg0.win 2).blk t).view.set ↔ ∀ a : Fin 3, win0_2.index t a * S1x1x65536.size a ≤ (i a).val ∧ (i a).val < win0_2.index t a * S1x1x65536.size a + S1x1x65536.size a := by
  show i ∈ ((View.whole main_v0_1).slice (win0_2.rect t)).set ↔ _
  rw [View.set_slice_whole, Rect.mem_set_unit]
  exact Iff.rfl

/-- The eight blocks tile both arrays: index (b, ·, ·) lies in point b's block. -/
theorem cover_ncArr (i : S8x3x65536.Idx) : ∃ t : Fin cfg0.N, (cfg0.win 1).flush t = true ∧ i ∈ ((cfg0.win 1).blk t).view.set := by
  have hi0 : (i 0).val < 8 := (i 0).isLt
  have hi1 : (i 1).val < 3 := (i 1).isLt
  have hi2 : (i 2).val < 65536 := (i 2).isLt
  have h8 : cfg0.N = 8 := N_0
  refine ⟨⟨(i 0).val, by omega⟩, flush0_1 _, ?_⟩
  rw [mem_blk_nc]
  obtain ⟨-, -, -, e0, e1, e2, -⟩ := idx0 ⟨(i 0).val, by omega⟩
  intro a
  match a with
  | ⟨0, _⟩ => show win0_1.index _ (0 : Fin 3) * 1 ≤ (i 0).val ∧ (i 0).val < win0_1.index _ (0 : Fin 3) * 1 + 1; rw [e0]; show (i 0).val * 1 ≤ (i 0).val ∧ (i 0).val < (i 0).val * 1 + 1; omega
  | ⟨1, _⟩ => show win0_1.index _ (1 : Fin 3) * 3 ≤ (i 1).val ∧ (i 1).val < win0_1.index _ (1 : Fin 3) * 3 + 3; rw [e1]; omega
  | ⟨2, _⟩ => show win0_1.index _ (2 : Fin 3) * 65536 ≤ (i 2).val ∧ (i 2).val < win0_1.index _ (2 : Fin 3) * 65536 + 65536; rw [e2]; omega
theorem cover_idArr (i : S8x1x65536.Idx) : ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 65536 := (i 2).isLt
  have h8 : cfg0.N = 8 := N_0
  refine ⟨⟨(i 0).val, by omega⟩, flush0_2 _, ?_⟩
  rw [mem_blk_id]
  obtain ⟨-, -, -, -, -, -, e0, e1, e2⟩ := idx0 ⟨(i 0).val, by omega⟩
  intro a
  match a with
  | ⟨0, _⟩ => show win0_2.index _ (0 : Fin 3) * 1 ≤ (i 0).val ∧ (i 0).val < win0_2.index _ (0 : Fin 3) * 1 + 1; rw [e0]; show (i 0).val * 1 ≤ (i 0).val ∧ (i 0).val < (i 0).val * 1 + 1; omega
  | ⟨1, _⟩ => show win0_2.index _ (1 : Fin 3) * 1 ≤ (i 1).val ∧ (i 1).val < win0_2.index _ (1 : Fin 3) * 1 + 1; rw [e1]; omega
  | ⟨2, _⟩ => show win0_2.index _ (2 : Fin 3) * 65536 ≤ (i 2).val ∧ (i 2).val < win0_2.index _ (2 : Fin 3) * 65536 + 65536; rw [e2]; omega

/-- After the region the two arrays hold the normalized coordinates and the voxel ids of every batch. -/
theorem nc_final (c : Dev nD) : (dat0 (C0 m) c).arrAt 1 cfg0.N = ncArr (m ((c : Thread nD τ).loc main_arg1)) :=
  (dat0 (C0 m) c).arrAt_eq_of_cover 1 (ncArr (m ((c : Thread nD τ).loc main_arg1))) (fun t _ => nc_flushed m c t) cover_ncArr
theorem id_final (c : Dev nD) : (dat0 (C0 m) c).arrAt 2 cfg0.N = idArr (m ((c : Thread nD τ).loc main_arg1)) :=
  (dat0 (C0 m) c).arrAt_eq_of_cover 2 (idArr (m ((c : Thread nD τ).loc main_arg1))) (fun t _ => id_flushed m c t) cover_idArr

/-- The normalized coordinates reach the end untouched: no host operation writes them, the second region does not
    stage them. -/
theorem B4_nc (c : Dev nD) : B4 (F := Ideal) m c (Proc.devRef .tc main_v0_0) = ncArr (m ((c : Thread nD τ).loc main_arg1)) :=
  calc B4 (F := Ideal) m c (Proc.devRef .tc main_v0_0)
    _ = B3 m c (Proc.devRef .tc main_v0_0) := StableHlo.after_of_writes_sub hostOps2 _ hostOps2_writes (by decide)
    _ = B2 m c (Proc.devRef .tc main_v0_0) := B3_of_ne m c main_v0_0 (by decide)
    _ = B1 m c (Proc.devRef .tc main_v0_0) := StableHlo.after_of_writes_sub hostOps1 _ hostOps1_writes (by decide)
    _ = ncArr (m ((c : Thread nD τ).loc main_arg1)) := (B1_arr m c 1).trans (nc_final m c)
/-- The voxel ids are what the second region finds. -/
theorem B2_id (c : Dev nD) : B2 (F := Ideal) m c (Proc.devRef .tc main_v0_1) = idArr (m ((c : Thread nD τ).loc main_arg1)) :=
  calc B2 (F := Ideal) m c (Proc.devRef .tc main_v0_1)
    _ = B1 m c (Proc.devRef .tc main_v0_1) := StableHlo.after_of_writes_sub hostOps1 _ hostOps1_writes (by decide)
    _ = idArr (m ((c : Thread nD τ).loc main_arg1)) := (B1_arr m c 2).trans (id_final m c)

end Cert.KernelIdeal.Val

end
-- ==== Proof.LibNary.lean ====
/-
  A host operation with three operands, read at its own result: the function applied to the three operands' contents,
  each at its own reference (the form in which the contents of the operands can in turn be read one by one).
-/
import Idealize.ShloMosaic.Lib.StableHlo.Run

noncomputable section

namespace Idealize.ShloMosaic.StableHlo

open Idealize.SL.Sem

variable {τ : Topo} {sig : RefSig} {Val : EltTy → Type}

/-- The result of an operation on three operands `x`, `a`, `b` is its function of the contents found at `x`, at `a`
    and at `b`. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.HostRead.lean ====
/-
  The two host stretches over the extended reals, read index by index.
  After the first: the extended features — row r of batch b is channel r of the features for r < 64, constantly one
  for r = 64, constantly zero for 64 < r < 80 (the cast to the shorter float format changes nothing here).
  After the second: entry (b, c, r0, r1, r2) of the first result is the quotient of row c by the larger of row 64 and
  one, both of the second region's output, at voxel r0·1024 + r1·32 + r2.
-/
import proofs.«111114_j62749472195254_1_alg».proof.Proof.Gen.KernelIdeal.Launch
import proofs.«111114_j62749472195254_1_alg».proof.Proof.Gen.KernelIdeal.Skeleton
import proofs.«111114_j62749472195254_1_alg».proof.Proof.Gen.KernelIdeal.Points
import proofs.«111114_j62749472195254_1_alg».proof.Proof.Gen.KernelIdeal.Loops
import proofs.«111114_j62749472195254_1_alg».proof.Proof.Kept
import proofs.«111114_j62749472195254_1_alg».proof.Proof.LibNary
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Frm Cert.KernelIdeal.Frm1 Cert.KernelIdeal.Run
open Idealize.ShloMosaic.StableHlo Idealize.ShloMosaic.ValueIdx

variable (m : (ℓ : Loc nD τ sig) → Buf (Elt Ideal) ℓ)

/-- The voxel with coordinates (r0, r1, r2). -/
def cellOf3 (r0 r1 r2 : Fin 32) : Fin 32768 := ⟨r0.val * 1024 + r1.val * 32 + r2.val, by omega⟩

/-- The extended features as one concatenation of the features, a block of ones and a block of zeros. -/
theorem ext_eq (c : Dev nD) :
    B2 (F := Ideal) m c (Proc.devRef .tc main_v4)
      = concatenate S8x80x65536 1
          [⟨S8x64x65536, truncf .bf16 (B1 (F := Ideal) m c (Proc.devRef .tc main_arg0)) bitsLt_bf16_f32⟩,
           ⟨S8x1x65536, broadcastInDim S8x1x65536 ![] bcast_S_S8x1x65536 (constant (F := Ideal) S_ .bf16 0x3F80#16)⟩,
           ⟨S8x15x65536, broadcastInDim S8x15x65536 ![] bcast_S_S8x15x65536 (constant (F := Ideal) S_ .bf16 0x0000#16)⟩]
          concatenates_S8x64x65536_S8x1x65536_S8x15x65536_S8x80x65536_d1 := by
  unfold B2
  simp only [after_cons, after_nil]
  rw [nary3_result]
  repeat (first
    | rw [nullary_result] | rw [unary_result]
    | (rw [nullary_result_ne]; rotate_left; decide)
    | (rw [unary_result_ne]; rotate_left; decide))
  rfl

/-- Row `r` of batch `b` of the extended features at point `n`: the feature channel for r < 64, one for r = 64, zero
    beyond. -/
theorem ext_apply (c : Dev nD) (b : Fin 8) (r : Fin 80) (n : Fin 65536) :
    B2 (F := Ideal) m c (Proc.devRef .tc main_v4) (ix3 b r n)
      = (if h : r.val < 64 then (m ((c : Thread nD τ).loc main_arg0) (ix3 b (⟨r.val, h⟩ : Fin 64) n) : EReal)
        else if r.val = 64 then (1 : EReal) else (0 : EReal)) := by
  rw [ext_eq]
  by_cases h : r.val < 64
  · rw [dif_pos h]
    refine (concatenate_apply_piece (1 : Fin 3) _ _ (ix3 b r n) 0 ?hk0 S8x64x65536 (truncf (F := Ideal) .bf16 (B1 (F := Ideal) m c (Proc.devRef .tc main_arg0)) bitsLt_bf16_f32) ?hxk0 rfl 0 ?hpre0
      (ix3 b (⟨r.val, h⟩ : Fin 64) n) (fun a ha => ?_) ?_).trans ?_
    case hk0 => show 0 < 3; omega
    case hxk0 => rfl
    case hpre0 => rfl
    · match a with
      | ⟨0, _⟩ => rfl
      | ⟨1, _⟩ => exact absurd rfl ha
      | ⟨2, _⟩ => rfl
    · show 0 + r.val = r.val; omega
    · show B1 (F := Ideal) m c (Proc.devRef .tc main_arg0) _ = _
      rw [B1_of_ne m c main_arg0 (by decide)]
  · rw [dif_neg h]
    by_cases h64 : r.val = 64
    · rw [if_pos h64]
      refine (concatenate_apply_piece (1 : Fin 3) _ _ (ix3 b r n) 1 ?hk1 S8x1x65536 (broadcastInDim S8x1x65536 ![] bcast_S_S8x1x65536 (constant (F := Ideal) S_ .bf16 0x3F80#16)) ?hxk1 rfl 64 ?hpre1
        (ix3 b (0 : Fin 1) n) (fun a ha => ?_) ?_).trans ?_
      case hk1 => show 1 < 3; omega
      case hxk1 => rfl
      case hpre1 => rfl
      · match a with
        | ⟨0, _⟩ => rfl
        | ⟨1, _⟩ => exact absurd rfl ha
        | ⟨2, _⟩ => rfl
      · show 64 + 0 = r.val; omega
      · rw [broadcastInDim_scalar_apply]
        exact Ideal.ofBits_one_bf16
    · rw [if_neg h64]
      have hr : r.val < 80 := r.isLt
      refine (concatenate_apply_piece (1 : Fin 3) _ _ (ix3 b r n) 2 ?hk2 S8x15x65536 (broadcastInDim S8x15x65536 ![] bcast_S_S8x15x65536 (constant (F := Ideal) S_ .bf16 0x0000#16)) ?hxk2 rfl 65 ?hpre2
        (ix3 b (⟨r.val - 65, by omega⟩ : Fin 15) n) (fun a ha => ?_) ?_).trans ?_
      case hk2 => show 2 < 3; omega
      case hxk2 => rfl
      case hpre2 => rfl
      · match a with
        | ⟨0, _⟩ => rfl
        | ⟨1, _⟩ => exact absurd rfl ha
        | ⟨2, _⟩ => rfl
      · show 65 + (r.val - 65) = r.val; omega
      · rw [broadcastInDim_scalar_apply]
        exact Ideal.ofBits_zero_bf16

/-- Entry (b, c, r0, r1, r2) of the first result: row c over the larger of row 64 and one, at the voxel. -/
theorem tail_apply (c : Dev nD) (b : Fin 8) (ch : Fin 64) (r0 r1 r2 : Fin 32) :
    B4 (F := Ideal) m c (Proc.devRef .tc main_v12) (ix5 b ch r0 r1 r2)
      = Ideal.div (B3 (F := Ideal) m c (Proc.devRef .tc main_v5) (ix3 b (⟨ch.val, by omega⟩ : Fin 80) (cellOf3 r0 r1 r2)))
          (max (B3 (F := Ideal) m c (Proc.devRef .tc main_v5) (ix3 b (⟨64, by decide⟩ : Fin 80) (cellOf3 r0 r1 r2)))
            (Ideal.ofBits .f32 0x3F800000#32)) := by
  unfold B4
  after_results
  show shapeCast S8x64x32x32x32 (Host.divf
      (extractStridedSlice S8x64x32768 ![0, 0, 0] (B3 (F := Ideal) m c (Proc.devRef .tc main_v5)) slices_S8x80x32768_S8x64x32768_0_0_0)
      (broadcastInDim S8x64x32768 ![0, 1, 2] bcast_S8x1x32768_S8x64x32768_0_1_2
        (maximumf (extractStridedSlice S8x1x32768 ![0, 64, 0] (B3 (F := Ideal) m c (Proc.devRef .tc main_v5)) slices_S8x80x32768_S8x1x32768_0_64_0)
          (broadcastInDim S8x1x32768 ![] bcast_S_S8x1x32768 (constant (F := Ideal) S_ .f32 0x3F800000#32)))))
      shapeCasts_S8x64x32768_S8x64x32x32x32 (ix5 b ch r0 r1 r2) = _
  rw [shapeCast_apply _ _ (ix5 b ch r0 r1 r2) (ix3 b ch (cellOf3 r0 r1 r2)) (by
    rw [Shape.rowMajor_val_three, Shape.rowMajor_val_five]
    show ((b.val * 64 + ch.val) * 32768 + (r0.val * 1024 + r1.val * 32 + r2.val)) = ((((b.val * 64 + ch.val) * 32 + r0.val) * 32 + r1.val) * 32 + r2.val)
    omega)]
  show Ideal.div
      (extractStridedSlice S8x64x32768 ![0, 0, 0] (B3 (F := Ideal) m c (Proc.devRef .tc main_v5)) slices_S8x80x32768_S8x64x32768_0_0_0 (ix3 b ch (cellOf3 r0 r1 r2)))
      (broadcastInDim S8x64x32768 ![0, 1, 2] bcast_S8x1x32768_S8x64x32768_0_1_2
        (maximumf (extractStridedSlice S8x1x32768 ![0, 64, 0] (B3 (F := Ideal) m c (Proc.devRef .tc main_v5)) slices_S8x80x32768_S8x1x32768_0_64_0)
          (broadcastInDim S8x1x32768 ![] bcast_S_S8x1x32768 (constant (F := Ideal) S_ .f32 0x3F800000#32))) (ix3 b ch (cellOf3 r0 r1 r2))) = _
  rw [extractStridedSlice_apply _ _ _ (ix3 b ch (cellOf3 r0 r1 r2)) (ix3 b (⟨ch.val, by omega⟩ : Fin 80) (cellOf3 r0 r1 r2)) (fun a => by
      match a with
      | ⟨0, _⟩ => show b.val = 0 + b.val; omega
      | ⟨1, _⟩ => show ch.val = 0 + ch.val; omega
      | ⟨2, _⟩ => show (cellOf3 r0 r1 r2).val = 0 + (cellOf3 r0 r1 r2).val; omega),
    broadcastInDim_apply _ _ _ (ix3 b ch (cellOf3 r0 r1 r2)) (ix3 b (0 : Fin 1) (cellOf3 r0 r1 r2)) (fun a => by
      match a with
      | ⟨0, _⟩ => rfl
      | ⟨1, _⟩ => rfl
      | ⟨2, _⟩ => rfl)]
  show Ideal.div _ (max
      (extractStridedSlice S8x1x32768 ![0, 64, 0] (B3 (F := Ideal) m c (Proc.devRef .tc main_v5)) slices_S8x80x32768_S8x1x32768_0_64_0 (ix3 b (0 : Fin 1) (cellOf3 r0 r1 r2)))
      (broadcastInDim S8x1x32768 ![] bcast_S_S8x1x32768 (constant (F := Ideal) S_ .f32 0x3F800000#32) (ix3 b (0 : Fin 1) (cellOf3 r0 r1 r2)))) = _
  rw [extractStridedSlice_apply _ _ _ (ix3 b (0 : Fin 1) (cellOf3 r0 r1 r2)) (ix3 b (⟨64, by decide⟩ : Fin 80) (cellOf3 r0 r1 r2)) (fun a => by
      match a with
      | ⟨0, _⟩ => show b.val = 0 + b.val; omega
      | ⟨1, _⟩ => rfl
      | ⟨2, _⟩ => show (cellOf3 r0 r1 r2).val = 0 + (cellOf3 r0 r1 r2).val; omega),
    broadcastInDim_scalar_apply]
  rfl

end Cert.KernelIdeal.Val

end
-- ==== Proof.LibLayout.lean ====
/-
  Two reads of a broadcast at an index, over literal two-axis shapes.
  A column of shape [a, 1] broadcast along the second axis to [a, b] holds, at (p, c), the column's entry of row p: the
  second coordinate is forgotten. This is the companion of the row case (a [1, b] row broadcast to [a, b] holds at (p, c)
  the row's entry c), which the library states.
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.OneHot.lean ====
/-
  One trip of the accumulation, read at one entry.

  A trip takes a block of 1024 points: their features `A` (80 channels × 1024 points) and their cell numbers
  `w` (1024 words). For the 1024 cells `base + 0, …, base + 1023` of the current cell block it builds the
  indicator matrix `E` (cell × point), `E v n = 1` when point `n` lies in cell `base + v` and `0` otherwise,
  multiplies `A` by the transpose of `E` and adds the product to the running totals. So entry (channel c, cell v)
  grows by the sum, over the block's points, of the feature of the points that lie in cell `base + v`.

  The steps: the product of an 80×1024 by a 1024×1024 matrix contracted over the second axis of both, read at an
  entry, is a sum over the shared axis; an entry of the indicator matrix is the comparison of a broadcast row with
  a broadcast column, the column being the cell numbers `base + v`; the comparison's bit, widened and converted, is
  the real number one or zero; a change of float format is the identity on extended reals.
-/
import proofs.«111114_j62749472195254_1_alg».proof.Proof.Gen.KernelIdeal.Skeleton
import proofs.«111114_j62749472195254_1_alg».proof.Proof.LibLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Acc

open Idealize.ShloMosaic Idealize.ShloMosaic.ValueIdx Cert.KernelIdeal Cert.KernelIdeal.Gen

/-! ## The comparison bit as a number -/

/-- The bit of "x = y", widened to 32 bits and converted to a float, is the number one when the two words are
    equal and zero when they are not. -/
theorem indicator_word (x y : BitVec 32) :
    (FloatOps.sitofp (F := Ideal) .f32 ((IntOp.cmpi .eq x y).setWidth 32) : EReal) = if x = y then 1 else 0 := by
  show (((((IntOp.cmpi .eq x y).setWidth 32).toInt : ℝ)) : EReal) = _
  by_cases h : x = y
  · subst h; simp [IntOp.cmpi]
  · have hb : (x == y) = false := by simpa using h
    simp [IntOp.cmpi, hb, h]

/-- A cell number split into its block and its place in the block: as 32-bit words,
    `a · 1024 + b` is the word of `a` times 1024 plus the word of `b`. -/
theorem ofNat_block (a b : ℕ) :
    BitVec.ofNat 32 (a * 1024 + b) = BitVec.ofNat 32 a * 1024#32 + BitVec.ofNat 32 b := by
  rw [BitVec.ofNat_add, BitVec.ofNat_mul]

/-! ## The product read at an entry -/

/-- The dimension numbers of the trip's product: both operands contracted over their second axis. -/
abbrev D : DotDims S80x1024 S1024x1024 S80x1024 := dot_S80x1024_S1024x1024_S80x1024_1_1_0_0_n_n

theorem lhs_0 (j : S80x1024.Idx) (q : D.contr.Idx) : (D.lhsIdx j q 0).val = (j 0).val := by
  unfold DotDims.lhsIdx
  rw [dif_neg (show ¬(0 : Fin S80x1024.rank) ∈ D.lhsBatch by decide),
    dif_pos (show (0 : Fin S80x1024.rank) ∈ D.lhsNonContracting by decide)]
  rfl

theorem lhs_1 (j : S80x1024.Idx) (q : D.contr.Idx) : (D.lhsIdx j q 1).val = (q ⟨0, by decide⟩).val :=
  D.lhsIdx_val_of_single rfl j q

theorem rhs_0 (j : S80x1024.Idx) (q : D.contr.Idx) : (D.rhsIdx j q 0).val = (j 1).val := by
  unfold DotDims.rhsIdx
  rw [dif_neg (show ¬(0 : Fin S1024x1024.rank) ∈ D.rhsBatch by decide),
    dif_pos (show (0 : Fin S1024x1024.rank) ∈ D.rhsNonContracting by decide)]
  rfl

theorem rhs_1 (j : S80x1024.Idx) (q : D.contr.Idx) : (D.rhsIdx j q 1).val = (q ⟨0, by decide⟩).val :=
  D.rhsIdx_val_of_single rfl j q

/-- The product `A · Bᵀ` into the zero accumulator, at entry (c, v): the sum over the shared axis of
    `A (c, k) · B (v, k)`. -/
theorem matmul_zero_apply (A : FVec Ideal S80x1024 .bf16) (B : FVec Ideal S1024x1024 .bf16) (c : Fin 80) (v : Fin 1024) :
    matmul D none A B (constant (F := Ideal) S80x1024 .f32 0x00000000#32) (ix2 c v)
      = ∑ k : Fin 1024, A (ix2 c k) * B (ix2 v k) := by
  refine (Ideal.matmul_constant_zero_apply D none A B (ix2 c v)).trans ?_
  rw [← Equiv.sum_comp (contrEquiv1 D 1024 rfl rfl).symm]
  refine Finset.sum_congr rfl fun k _ => ?_
  have hk := contrEquiv1_symm_val D 1024 rfl rfl k
  have el : D.lhsIdx (ix2 c v) ((contrEquiv1 D 1024 rfl rfl).symm k) = ix2 c k := funext fun a => Fin.ext (by
    match a with
    | ⟨0, _⟩ => exact lhs_0 _ _
    | ⟨1, _⟩ => exact (lhs_1 _ _).trans hk)
  have er : D.rhsIdx (ix2 c v) ((contrEquiv1 D 1024 rfl rfl).symm k) = ix2 v k := funext fun a => Fin.ext (by
    match a with
    | ⟨0, _⟩ => exact rhs_0 _ _
    | ⟨1, _⟩ => exact (rhs_1 _ _).trans hk)
  rw [el, er]

/-! ## An entry of the indicator matrix -/

/-- Entry (cell v, point k) of the indicator matrix built from the block's cell numbers `w` and the first cell
    `base` of the cell block: one when point `k`'s cell number is `base + v`, zero otherwise. -/
theorem onehot_apply (base : BitVec 32) (w : Vec Ideal S1x1x1024 .i32) (v k : Fin 1024) :
    (truncf .bf16 (sitofp (F := Ideal) .f32 (extui 32 (cmpi .eq
        (broadcastTo S1024x1024 (shapeCast S1x1024 w shapeCasts_S1x1x1024_S1x1024) broadcasts_S1x1024_S1024x1024)
        (broadcastTo S1024x1024 (addi (broadcast S1024x1 base) (iota .tc S1024x1 32 [0] iota_S1024x1_d0_w32))
          broadcasts_S1024x1_S1024x1024))
        natLt_1_32)) bitsLt_bf16_f32 : FVec Ideal S1024x1024 .bf16) (ix2 v k)
      = if w (ix3 0 0 k) = base + BitVec.ofNat 32 v.val then (1 : EReal) else 0 := by
  refine (indicator_word _ _).trans ?_
  have e1 : broadcastTo S1024x1024 (shapeCast S1x1024 w shapeCasts_S1x1x1024_S1x1024) broadcasts_S1x1024_S1024x1024 (ix2 v k)
      = w (ix3 0 0 k) :=
    (broadcastTo_1b_ab_apply _ _ v k).trans (shapeCast_1ab_ab_apply w _ 0 k)
  have e2 : broadcastTo S1024x1024 (addi (broadcast S1024x1 base) (iota .tc S1024x1 32 [0] iota_S1024x1_d0_w32))
        broadcasts_S1024x1_S1024x1024 (ix2 v k) = base + BitVec.ofNat 32 v.val :=
    (Cert.LibLayout.broadcastTo_a1_ab_apply _ _ v k).trans (by
      show IntOp.addi base (iota .tc S1024x1 32 [0] iota_S1024x1_d0_w32 (ix2 v 0)) = _
      rw [iota_single_apply]; rfl)
  rw [e1, e2]

/-! ## One trip at an entry -/

/-- ONE TRIP. With `A` the block's features, `w` its cell numbers and `T` the running totals, the trip leaves at
    entry (channel c, cell v) the total there plus the sum, over the block's 1024 points, of the feature of the points
    whose cell number is the cell block's number times 1024 plus `v`. -/
theorem pay2_apply (i : grid1.Coords) (A : Vec Ideal S1x80x1024 .bf16) (w : Vec Ideal S1x1x1024 .i32)
    (T : Vec Ideal S80x1024 .f32) (c : Fin 80) (v : Fin 1024) :
    k1_pay2 (F := Ideal) i A w T (ix2 c v)
      = T (ix2 c v) + ∑ k : Fin 1024,
          if w (ix3 0 0 k) = BitVec.ofNat 32 (i 1).val * 1024#32 + BitVec.ofNat 32 v.val then A (ix3 0 c k) else 0 := by
  unfold k1_pay2
  dsimp only
  refine (congrFun (shapeCast_self _ shapeCasts_S80x1024_S80x1024) (ix2 c v)).trans ?_
  refine (addf_apply T _ (ix2 c v)).trans ?_
  refine congrArg (T (ix2 c v) + ·) ?_
  refine (matmul_zero_apply _ _ c v).trans ?_
  refine Finset.sum_congr rfl fun k _ => ?_
  refine (congrArg₂ (· * ·) (shapeCast_1ab_ab_apply A shapeCasts_S1x80x1024_S80x1024 c k)
    (onehot_apply (Scalar.muli (BitVec.ofNat 32 (i 1).val) 1024#32) w v k)).trans ?_
  show A (ix3 0 c k) * (if w (ix3 0 0 k) = BitVec.ofNat 32 (i 1).val * 1024#32 + BitVec.ofNat 32 v.val then (1 : EReal) else 0) = _
  split
  · exact mul_one _
  · exact mul_zero _

/-- The last step of the kernel hands the totals on under a leading unit axis: entry (0, c, v) is entry (c, v). -/
theorem pay3_apply (T : Vec Ideal S80x1024 .f32) (c : Fin 80) (v : Fin 1024) :
    k1_pay3 (F := Ideal) T (ix3 0 c v) = T (ix2 c v) := by
  unfold k1_pay3
  exact shapeCast_ab_1ab_apply T shapeCasts_S80x1024_S1x80x1024 0 c v

/-- Before the first trip the totals are zero everywhere. -/
theorem pay1_apply (j : S80x1024.Idx) : k1_pay1 (F := Ideal) j = 0 := by
  unfold k1_pay1
  refine (congrFun (shapeCast_self _ shapeCasts_S80x1024_S80x1024) j).trans ?_
  exact Ideal.ofBits_zero_f32

end Cert.KernelIdeal.Acc

end
-- ==== Proof.Accum.lean ====
/-
  The sixty-four trips.

  The 65536 points of a batch are taken in 64 blocks of 1024. The totals start at zero; trip `j` adds, at entry
  (channel c, cell v), the features of the points of block `j` that lie in cell `base + v`. After the last trip the
  entry holds the sum over ALL the points of the batch of the feature of those lying in that cell: a sum over blocks
  of sums inside a block is the sum over the whole range, because every point `n` is `j · 1024 + k` for exactly one
  block `j` and one place `k` in it. Only the commutative-monoid laws of addition are used, so nothing here asks the
  values to be finite.
-/
import proofs.«111114_j62749472195254_1_alg».proof.Proof.OneHot

noncomputable section

open scoped BigOperators

namespace Cert.KernelIdeal.Acc

open Idealize.ShloMosaic Idealize.ShloMosaic.ValueIdx Cert.KernelIdeal Cert.KernelIdeal.Gen

/-! ## A sum over blocks of sums inside a block -/

/-- Over any commutative monoid: summing a function of `a · b` places block by block — block `m` holds the places
    `m · b + 0, …, m · b + (b − 1)` — is summing it over all the places. -/
theorem sum_blocks {M : Type*} [AddCommMonoid M] (a b : ℕ) (g : Fin (a * b) → M) :
    ∑ m : Fin a, ∑ k : Fin b, g ⟨m.val * b + k.val,
        Nat.lt_of_lt_of_le (Nat.add_lt_add_left k.isLt _) (by rw [← Nat.succ_mul]; exact Nat.mul_le_mul_right _ m.isLt)⟩
      = ∑ n : Fin (a * b), g n := by
  rw [← Equiv.sum_comp finProdFinEquiv g, Fintype.sum_prod_type]
  refine Finset.sum_congr rfl fun m _ => Finset.sum_congr rfl fun k _ => congrArg g (Fin.ext ?_)
  show m.val * b + k.val = k.val + b * m.val
  rw [Nat.mul_comm, Nat.add_comm]

/-! ## The blocks and the running totals -/

/-- Block `j` of a batch's features: the points `j · 1024 + 0, …, j · 1024 + 1023`, every channel. -/
def chunk0 (x0 : Vec Ideal S1x80x65536 .bf16) (j : Fin 64) : Vec Ideal S1x80x1024 .bf16 :=
  fun y => x0 (ix3 (0 : Fin 1) (⟨(y 1).val, (y 1).isLt⟩ : Fin 80)
    (⟨j.val * 1024 + (y 2).val, by have h2 : (y 2).val < 1024 := (y 2).isLt; have := j.isLt; omega⟩ : Fin 65536))

/-- Block `j` of a batch's cell numbers. -/
def chunk1 (x1 : Vec Ideal S1x1x65536 .i32) (j : Fin 64) : Vec Ideal S1x1x1024 .i32 :=
  fun y => x1 (ix3 (0 : Fin 1) (0 : Fin 1)
    (⟨j.val * 1024 + (y 2).val, by have h2 : (y 2).val < 1024 := (y 2).isLt; have := j.isLt; omega⟩ : Fin 65536))

theorem chunk0_apply (x0 : Vec Ideal S1x80x65536 .bf16) (j : Fin 64) (c : Fin 80) (k : Fin 1024) :
    chunk0 x0 j (ix3 0 c k) = x0 (ix3 0 c ⟨j.val * 1024 + k.val, by have := j.isLt; have := k.isLt; omega⟩) := rfl

theorem chunk1_apply (x1 : Vec Ideal S1x1x65536 .i32) (j : Fin 64) (k : Fin 1024) :
    chunk1 x1 j (ix3 0 0 k) = x1 (ix3 0 0 ⟨j.val * 1024 + k.val, by have := j.isLt; have := k.isLt; omega⟩) := rfl

/-- The running totals before trip `j`: zero before the first trip; each trip `j < 64` applies the kernel's one-trip
    function to block `j` and the totals so far (past the last trip nothing changes). -/
def acc (i : grid1.Coords) (x0 : Vec Ideal S1x80x65536 .bf16) (x1 : Vec Ideal S1x1x65536 .i32) :
    ℕ → Vec Ideal S80x1024 .f32
  | 0 => k1_pay1 (F := Ideal)
  | j + 1 => if h : j < 64 then k1_pay2 (F := Ideal) i (chunk0 x0 ⟨j, h⟩) (chunk1 x1 ⟨j, h⟩) (acc i x0 x1 j) else acc i x0 x1 j

theorem acc_zero (i : grid1.Coords) (x0 : Vec Ideal S1x80x65536 .bf16) (x1 : Vec Ideal S1x1x65536 .i32) :
    acc i x0 x1 0 = k1_pay1 (F := Ideal) := rfl

theorem acc_succ (i : grid1.Coords) (x0 : Vec Ideal S1x80x65536 .bf16) (x1 : Vec Ideal S1x1x65536 .i32) (j : ℕ) (h : j < 64) :
    acc i x0 x1 (j + 1) = k1_pay2 (F := Ideal) i (chunk0 x0 ⟨j, h⟩) (chunk1 x1 ⟨j, h⟩) (acc i x0 x1 j) := by
  rw [acc, dif_pos h]

/-- Before the first trip every total is zero. -/
theorem acc_zero_apply (i : grid1.Coords) (x0 : Vec Ideal S1x80x65536 .bf16) (x1 : Vec Ideal S1x1x65536 .i32) (y : S80x1024.Idx) :
    acc i x0 x1 0 y = 0 := pay1_apply y

/-! ## The totals after the trips -/

/-- What point `n` of the batch contributes to entry (channel c, cell v) of cell block `i 1`: its feature if its cell
    number is the block's number times 1024 plus `v`, nothing otherwise. -/
def summand (i : grid1.Coords) (x0 : Vec Ideal S1x80x65536 .bf16) (x1 : Vec Ideal S1x1x65536 .i32) (c : Fin 80) (v : Fin 1024)
    (n : Fin 65536) : EReal :=
  if x1 (ix3 0 0 n) = BitVec.ofNat 32 (i 1).val * 1024#32 + BitVec.ofNat 32 v.val then x0 (ix3 0 c n) else 0

/-- Before trip `j` the entry holds the contributions of the points of the blocks before `j`. -/
theorem acc_partial (i : grid1.Coords) (x0 : Vec Ideal S1x80x65536 .bf16) (x1 : Vec Ideal S1x1x65536 .i32) (c : Fin 80) (v : Fin 1024) :
    ∀ (j : ℕ) (hj : j ≤ 64), acc i x0 x1 j (ix2 c v)
      = ∑ m : Fin j, ∑ k : Fin 1024, summand i x0 x1 c v
          ⟨m.val * 1024 + k.val, by have := m.isLt; have := k.isLt; omega⟩ := by
  intro j
  induction j with
  | zero => intro _; rw [acc_zero_apply]; exact (Finset.sum_empty).symm
  | succ j ih =>
    intro hj
    have h : j < 64 := hj
    rw [acc_succ i x0 x1 j h, pay2_apply, ih (Nat.le_of_lt h)]
    conv_rhs => rw [Fin.sum_univ_castSucc]
    rfl

/-- AFTER THE SIXTY-FOUR TRIPS the entry (channel c, cell v) holds the sum, over all 65536 points of the batch, of the
    feature of the points whose cell number is the cell block's number times 1024 plus `v`. -/
theorem acc_total (i : grid1.Coords) (x0 : Vec Ideal S1x80x65536 .bf16) (x1 : Vec Ideal S1x1x65536 .i32) (c : Fin 80) (v : Fin 1024) :
    acc i x0 x1 64 (ix2 c v)
      = ∑ n : Fin 65536, if x1 (ix3 0 0 n) = BitVec.ofNat 32 (i 1).val * 1024#32 + BitVec.ofNat 32 v.val
          then x0 (ix3 0 c n) else 0 := by
  rw [acc_partial i x0 x1 c v 64 (Nat.le_refl 64)]
  exact sum_blocks 64 1024 (summand i x0 x1 c v)

end Cert.KernelIdeal.Acc

end
-- ==== Proof.BlockValue.lean ====
/-
  The value of one output block of the voxel sums.

  At a grid point the body clears an 80 × 1024 accumulator, makes sixty-four trips, each replacing the accumulator by
  the one-trip function of block `k` of the batch's features, block `k` of its cell numbers and the accumulator's
  contents, and finally copies the accumulator into the output block under a leading unit axis. Every store in this
  history writes a WHOLE buffer, so after each store the buffer reads as the value just stored, whatever was there
  before; and the two loads of trip `k` read, through rectangles whose last offset is `1024 · k`, exactly block `k` of
  the two inputs. By induction on the number of trips the accumulator before trip `k` holds the running totals
  `acc k`, so the output block holds `acc 64`: at entry (0, r, v) the sum over the batch's 65536 points of row `r`'s
  feature of the points lying in cell `1024 · (cell block) + v`.
-/
import proofs.«111114_j62749472195254_1_alg».proof.Proof.Region1
import proofs.«111114_j62749472195254_1_alg».proof.Proof.Accum
import Idealize.ShloMosaic.Lib.Pipeline.Value
import Idealize.ShloMosaic.Lib.Pipeline.FrameBody
import Idealize.ShloMosaic.Lib.Writes
import Idealize.ShloMosaic.Lib.Tactic

set_option maxRecDepth 16384

noncomputable section

namespace Cert.KernelIdeal.Acc

open Cert.KernelIdeal Cert.KernelIdeal.Gen Cert.KernelIdeal.Frm1
open Idealize.ShloMosaic Idealize.ShloMosaic.ValueIdx Idealize.ShloMosaic.TcCoe Idealize.ShloMosaic.Tactic
open Idealize.SL.Sem

variable {F : FTy → Type} [FloatOps F]

/-! ## Whole-buffer reads and writes -/

theorem hz2 : (![0, 0] : Fin 2 → Nat) = fun _ => 0 := funext fun a => by fin_cases a <;> rfl
theorem hz3 : (![0, 0, 0] : Fin 3 → Nat) = fun _ => 0 := funext fun a => by fin_cases a <;> rfl

/-- The loop makes sixty-four trips. -/
theorem trips64 : k1_t1_loop.trips = 64 := by decide

/-- After a store of a whole buffer, made last, the buffer reads as that store's value, whatever was written before. -/
theorem read_writes_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load of a whole buffer reads its contents. -/
theorem readAt_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-! ## The pieces the run found -/

/-- The store that clears the accumulator. -/
abbrev zpiece : View.Piece (Elt F) S80x1024 .f32 :=
  ⟨Rect.unit (s := S80x1024) ![0, 0] S80x1024.size inb_S80x1024_S80x1024_0_0, k1_pay1 (F := F)⟩

/-- One trip leaves one piece: the whole accumulator, holding the one-trip function of the two blocks it loads and of
    what it finds in the accumulator. -/
theorem tripL_eq (𝒱 : Variants) (c : Dev nD) (bd : Option 𝒱.V) (i : grid1.Coords)
    (arg2 : Memref sig .tc .vmem S1x80x65536 .bf16) (harg2 : arg2.IsWhole) (arg3 : Memref sig .tc .vmem S1x1x65536 .i32) (harg3 : arg3.IsWhole)
    (arg4 : Memref sig .tc .vmem S1x80x1024 .f32) (harg4 : arg4.IsWhole) (arg5 : Memref sig .tc .vmem S80x1024 .f32) (harg5 : arg5.IsWhole)
    (X2 : BufTy.Contents (Elt F) arg2.view.ty) (X3 : BufTy.Contents (Elt F) arg3.view.ty) (k : Fin k1_t1_loop.trips)
    (f : BufTy.Contents (Elt F) arg5.view.ty) :
    tripL_k1_t1 (F := F) 𝒱 c bd i arg2 harg2 arg3 harg3 arg4 harg4 arg5 harg5 X2 X3 k f
      = [(⟨Rect.unit (s := S80x1024) ![0, 0] S80x1024.size inb_S80x1024_S80x1024_0_0,
          k1_pay2 i
            (View.readAt (Elt F) arg2.view (Rect.unit (s := S1x80x65536) (k1_off1 k) S1x80x1024.size (k1_off1_inb k)).toLoadRect X2)
            (View.readAt (Elt F) arg3.view (Rect.unit (s := S1x1x65536) (k1_off2 k) S1x1x1024.size (k1_off2_inb k)).toLoadRect X3)
            (View.readAt (Elt F) arg5.view (Rect.unit (s := S80x1024) ![0, 0] S80x1024.size inb_S80x1024_S80x1024_0_0).toLoadRect f)⟩ :
          View.Piece (Elt F) S80x1024 .f32)] := by
  unfold tripL_k1_t1 trip_k1_t1
  rfl

/-- The pieces the whole body leaves in the output block: one store of the whole block, holding the accumulator as
    the sixty-four trips left it, under a leading unit axis. -/
theorem kernelRun1_pieces (c : Dev nD) (i : grid1.Coords)
    (arg2 : Memref sig .tc .vmem S1x80x65536 .bf16) (harg2 : arg2.IsWhole) (arg3 : Memref sig .tc .vmem S1x1x65536 .i32) (harg3 : arg3.IsWhole)
    (arg4 : Memref sig .tc .vmem S1x80x1024 .f32) (harg4 : arg4.IsWhole)
    (x0 : Vec F S1x80x65536 .bf16) (x1 : Vec F S1x1x65536 .i32) :
    (kernelRun1 c i arg2 harg2 arg3 harg3 arg4 harg4 x0 x1).1
      = [(⟨Rect.unit (s := S1x80x1024) ![0, 0, 0] S1x80x1024.size inb_S1x80x1024_S1x80x1024_0_0_0,
          k1_pay3 (View.readAt (Elt F) accM.view (Rect.unit (s := S80x1024) ![0, 0] S80x1024.size inb_S80x1024_S80x1024_0_0).toLoadRect
            (accM.view.writes (Elt F) accM.view.junk
              (pb_k1_t1 (F := F) Variants.none c none i arg2 harg2 arg3 harg3 arg4 harg4 accM (Memref.isWhole_whole _)
                  (harg2.unread x0) (harg3.unread x1) (accM.view.writes (Elt F) accM.view.junk [zpiece (F := F)])
                  k1_t1_loop.trips
                ++ [zpiece (F := F)])))⟩ : View.Piece (Elt F) S1x80x1024 .f32)] := by
  unfold kernelRun1
  dsimp only
  sl_unfold_words
  rfl

/-! ## The loads of trip `k` read block `k` -/

/-- Through the rectangle of trip `k`'s first load — all 80 rows, the 1024 points from `1024 · k` — a batch's features
    read as their block `k`. -/
theorem ld_chunk0 (x0 : Vec Ideal S1x80x65536 .bf16) (k : Fin k1_t1_loop.trips) (hk : k.val < 64) :
    View.ld x0 (Rect.unit (s := S1x80x65536) (k1_off1 k) S1x80x1024.size (k1_off1_inb k)) = chunk0 x0 ⟨k.val, hk⟩ := by
  funext y
  refine congrArg x0 (funext fun a => Fin.ext ?_)
  have hoff := k1_off1_eq k
  have o0 : k1_off1 k 0 = 0 := congrFun hoff 0
  have o1 : k1_off1 k 1 = 0 := congrFun hoff 1
  have o2 : k1_off1 k 2 = 1024 * k.val := congrFun hoff 2
  match a with
  | ⟨0, _⟩ =>
    show k1_off1 k 0 + 1 * (y 0).val = 0
    have h0 : (y 0).val < 1 := (y 0).isLt
    omega
  | ⟨1, _⟩ =>
    show k1_off1 k 1 + 1 * (y 1).val = (y 1).val
    omega
  | ⟨2, _⟩ =>
    show k1_off1 k 2 + 1 * (y 2).val = k.val * 1024 + (y 2).val
    omega

/-- Likewise the cell numbers, through the rectangle of the trip's second load. -/
theorem ld_chunk1 (x1 : Vec Ideal S1x1x65536 .i32) (k : Fin k1_t1_loop.trips) (hk : k.val < 64) :
    View.ld x1 (Rect.unit (s := S1x1x65536) (k1_off2 k) S1x1x1024.size (k1_off2_inb k)) = chunk1 x1 ⟨k.val, hk⟩ := by
  funext y
  refine congrArg x1 (funext fun a => Fin.ext ?_)
  have hoff := k1_off2_eq k
  have o0 : k1_off2 k 0 = 0 := congrFun hoff 0
  have o1 : k1_off2 k 1 = 0 := congrFun hoff 1
  have o2 : k1_off2 k 2 = 1024 * k.val := congrFun hoff 2
  match a with
  | ⟨0, _⟩ =>
    show k1_off2 k 0 + 1 * (y 0).val = 0
    have h0 : (y 0).val < 1 := (y 0).isLt
    omega
  | ⟨1, _⟩ =>
    show k1_off2 k 1 + 1 * (y 1).val = 0
    have h1 : (y 1).val < 1 := (y 1).isLt
    omega
  | ⟨2, _⟩ =>
    show k1_off2 k 2 + 1 * (y 2).val = k.val * 1024 + (y 2).val
    omega

/-! ## The accumulator before trip `k` -/

/-- Before trip `k` the accumulator holds the running totals `acc k`: it is cleared, and each trip stores the one-trip
    function of block `k` of the inputs and of what the accumulator held. -/
theorem acc_read (c : Dev nD) (i : grid1.Coords)
    (arg2 : Memref sig .tc .vmem S1x80x65536 .bf16) (harg2 : arg2.IsWhole) (arg3 : Memref sig .tc .vmem S1x1x65536 .i32) (harg3 : arg3.IsWhole)
    (arg4 : Memref sig .tc .vmem S1x80x1024 .f32) (harg4 : arg4.IsWhole)
    (x0 : Vec Ideal S1x80x65536 .bf16) (x1 : Vec Ideal S1x1x65536 .i32) :
    ∀ (k : ℕ), k ≤ 64 →
      accM.view.read (Elt Ideal) (accM.view.writes (Elt Ideal) (accM.view.writes (Elt Ideal) accM.view.junk [zpiece (F := Ideal)])
        (pb_k1_t1 (F := Ideal) Variants.none c none i arg2 harg2 arg3 harg3 arg4 harg4 accM (Memref.isWhole_whole _)
          (harg2.unread x0) (harg3.unread x1) (accM.view.writes (Elt Ideal) accM.view.junk [zpiece (F := Ideal)]) k))
        = acc i x0 x1 k := by
  intro k
  induction k with
  | zero =>
    intro _
    show accM.view.read (Elt Ideal) (accM.view.writes (Elt Ideal) accM.view.junk [zpiece (F := Ideal)]) = _
    exact read_writes_whole (F := Ideal) accM.view _ hz2 inb_S80x1024_S80x1024_0_0 (k1_pay1 (F := Ideal)) []
  | succ k ih =>
    intro hk1
    have hk : k < 64 := hk1
    have hkt : k < k1_t1_loop.trips := by rw [trips64]; exact hk
    have hs := pb_k1_t1_succ (F := Ideal) Variants.none c none i arg2 harg2 arg3 harg3 arg4 harg4 accM (Memref.isWhole_whole _)
      (harg2.unread x0) (harg3.unread x1) (accM.view.writes (Elt Ideal) accM.view.junk [zpiece (F := Ideal)]) ⟨k, hkt⟩
    rw [show k + 1 = (⟨k, hkt⟩ : Fin k1_t1_loop.trips).val + 1 from rfl, hs, View.writes_append, tripL_eq,
      read_writes_whole (F := Ideal) _ _ hz2, readAt_whole (F := Ideal) _ _ hz2, ih (Nat.le_of_lt hk), View.readAt_eq_ld, View.readAt_eq_ld,
      harg2.read_unread, harg3.read_unread, ld_chunk0 x0 ⟨k, hkt⟩ hk, ld_chunk1 x1 ⟨k, hkt⟩ hk, acc_succ i x0 x1 k hk]

/-! ## The output block -/

/-- THE OUTPUT BLOCK. What the body leaves in the output block at a grid point reads, at entry (0, r, v), the running
    totals after the sixty-four trips at entry (r, v). -/
theorem out1_apply (c : Dev nD) (i : grid1.Coords)
    (arg2 : Memref sig .tc .vmem S1x80x65536 .bf16) (harg2 : arg2.IsWhole) (arg3 : Memref sig .tc .vmem S1x1x65536 .i32) (harg3 : arg3.IsWhole)
    (arg4 : Memref sig .tc .vmem S1x80x1024 .f32) (harg4 : arg4.IsWhole)
    (x0 : Vec Ideal S1x80x65536 .bf16) (x1 : Vec Ideal S1x1x65536 .i32) (r : Fin 80) (v : Fin 1024) :
    Cert.KernelIdeal.Frm1.out1 (F := Ideal) c i arg2 harg2 arg3 harg3 arg4 harg4 x0 x1 (ix3 0 r v) = acc i x0 x1 64 (ix2 r v) := by
  unfold Cert.KernelIdeal.Frm1.out1
  rw [kernelRun1_pieces, read_writes_whole (F := Ideal) _ _ hz3, pay3_apply, readAt_whole (F := Ideal) _ _ hz2, View.writes_append, trips64,
    acc_read c i arg2 harg2 arg3 harg3 arg4 harg4 x0 x1 64 (Nat.le_refl 64)]

/-- So entry (0, r, v) of the output block is the sum over the batch's points of row `r`'s feature of the points whose
    cell number is the cell block's number times 1024 plus `v`. -/
theorem out1_sum (c : Dev nD) (i : grid1.Coords)
    (arg2 : Memref sig .tc .vmem S1x80x65536 .bf16) (harg2 : arg2.IsWhole) (arg3 : Memref sig .tc .vmem S1x1x65536 .i32) (harg3 : arg3.IsWhole)
    (arg4 : Memref sig .tc .vmem S1x80x1024 .f32) (harg4 : arg4.IsWhole)
    (x0 : Vec Ideal S1x80x65536 .bf16) (x1 : Vec Ideal S1x1x65536 .i32) (r : Fin 80) (v : Fin 1024) :
    Cert.KernelIdeal.Frm1.out1 (F := Ideal) c i arg2 harg2 arg3 harg3 arg4 harg4 x0 x1 (ix3 0 r v)
      = ∑ n : Fin 65536, if x1 (ix3 0 0 n) = BitVec.ofNat 32 (i 1).val * 1024#32 + BitVec.ofNat 32 v.val
          then x0 (ix3 0 r n) else 0 :=
  (out1_apply c i arg2 harg2 arg3 harg3 arg4 harg4 x0 x1 r v).trans (acc_total i x0 x1 r v)

end Cert.KernelIdeal.Acc
end
-- ==== Proof.SumsArray.lean ====
/-
  The array of per-cell sums after the second region, as one function of the arrays the region is entered with.

  The region's grid has 8 × 32 points: point (b, vi) reads batch `b` of the extended features and of the cell numbers
  and writes block (b, ·, vi) — all 80 rows, the 1024 cells from `1024 · vi` — of the sums array. The body's block at
  a point, read at (0, r, v), is the sum over the batch's points of row `r`'s feature of the points whose cell number
  is `1024 · vi + v`; the input blocks at the point are batch `b` of the two input arrays; and `1024 · vi + v` is
  exactly the third coordinate of the element of the sums array the block's entry (0, r, v) lands on. So every block
  written back is the restriction of ONE function of the whole array's index: at (b, r, V), the sum over the points
  `n` of batch `b` with cell number `V` of the feature row `r`. The 256 blocks cover the array — element (b, r, V) lies
  in the block of point (b, V / 1024) — so the array ends holding that function everywhere.
-/
import proofs.«111114_j62749472195254_1_alg».proof.Proof.Kept
import proofs.«111114_j62749472195254_1_alg».proof.Proof.BlockValue
import Idealize.ShloMosaic.Lib.Pipeline.Value

set_option maxRecDepth 16384

noncomputable section

open scoped BigOperators

namespace Cert.KernelIdeal.Val

open Cert.KernelIdeal Cert.KernelIdeal.Gen Cert.KernelIdeal.Frm1 Cert.KernelIdeal.Run Cert.KernelIdeal.Acc
open Idealize.ShloMosaic Idealize.ShloMosaic.ValueIdx Idealize.ShloMosaic.TcCoe
open Idealize.SL.Sem
open Idealize.ShloMosaic.Pipeline (Dat)

variable (m : (ℓ : Loc nD τ sig) → Buf (Elt Ideal) ℓ)

/-- The sums array as one function of the region's input arrays: at (b, r, V), the sum over the points of batch `b`
    whose cell number is `V` of row `r` of the extended features. -/
def sumsG (c : Dev nD) : S8x80x32768.Idx → EReal := fun j =>
  ∑ n : Fin 65536,
    if C2 m c main_v0_1 (ix3 (⟨(j 0).val, (j 0).isLt⟩ : Fin 8) (0 : Fin 1) n) = BitVec.ofNat 32 (j 2).val
    then C2 m c main_v4 (ix3 (⟨(j 0).val, (j 0).isLt⟩ : Fin 8) (⟨(j 1).val, (j 1).isLt⟩ : Fin 80) n) else 0

/-- The function at an index, written out. -/
theorem sumsG_apply (c : Dev nD) (j : S8x80x32768.Idx) :
    sumsG m c j = ∑ n : Fin 65536,
      (if C2 m c main_v0_1 (ix3 (⟨(j 0).val, (j 0).isLt⟩ : Fin 8) (0 : Fin 1) n) = BitVec.ofNat 32 (j 2).val
      then C2 m c main_v4 (ix3 (⟨(j 0).val, (j 0).isLt⟩ : Fin 8) (⟨(j 1).val, (j 1).isLt⟩ : Fin 80) n) else 0 : EReal) := rfl

/-- The function at an index given by its coordinates. -/
theorem sumsG_ix3 (c : Dev nD) (b : Fin 8) (r : Fin 80) (V : Fin 32768) :
    sumsG m c (ix3 b r V) = ∑ n : Fin 65536,
      (if C2 m c main_v0_1 (ix3 b (0 : Fin 1) n) = BitVec.ofNat 32 V.val then C2 m c main_v4 (ix3 b r n) else 0 : EReal) := rfl

/-- A block of the sums array, read through the window, reads the array at the block's element (for any contents). -/
theorem read_blk (G : S8x80x32768.Idx → EReal) (t : Fin cfg1.N) (j : ((cfg1.win 2).xblock (grid1.coords t)).Idx) :
    ((cfg1.win 2).blk t).view.read (Elt Ideal) G j = G (((cfg1.win 2).blk t).view.emb j) := rfl

/-- The three windows' block numbers at a grid point, decided over the grid: the two inputs take batch `b` whole, the
    output takes batch `b`, all rows, cell block `vi`. -/
theorem idx_facts : ∀ t : Fin cfg1.N,
    win1_0.index t (0 : Fin 3) = (grid1.coords t 0).val ∧ win1_0.index t (1 : Fin 3) = 0 ∧ win1_0.index t (2 : Fin 3) = 0
    ∧ win1_1.index t (0 : Fin 3) = (grid1.coords t 0).val ∧ win1_1.index t (1 : Fin 3) = 0 ∧ win1_1.index t (2 : Fin 3) = 0
    ∧ win1_2.index t (0 : Fin 3) = (grid1.coords t 0).val ∧ win1_2.index t (1 : Fin 3) = 0
    ∧ win1_2.index t (2 : Fin 3) = (grid1.coords t 1).val :=
  (by decide +kernel : ∀ t : Fin grid1.N, _)

/-- Every (batch, cell block) is some grid point's output block. -/
theorem idx_onto : ∀ (q0 : Fin 8) (q2 : Fin 32), ∃ t : Fin cfg1.N, win1_2.index t = ![q0.val, 0, q2.val] :=
  (by decide +kernel : ∀ (q0 : Fin 8) (q2 : Fin 32), ∃ t : Fin grid1.N, win1_2.index t = ![q0.val, 0, q2.val])

/-- The body's block read at any entry. -/
theorem out1_at (c : Dev nD) (i : grid1.Coords)
    (arg2 : Memref sig .tc .vmem S1x80x65536 .bf16) (harg2 : arg2.IsWhole) (arg3 : Memref sig .tc .vmem S1x1x65536 .i32) (harg3 : arg3.IsWhole)
    (arg4 : Memref sig .tc .vmem S1x80x1024 .f32) (harg4 : arg4.IsWhole)
    (x0 : Vec Ideal S1x80x65536 .bf16) (x1 : Vec Ideal S1x1x65536 .i32) (y : S1x80x1024.Idx) :
    out1 (F := Ideal) c i arg2 harg2 arg3 harg3 arg4 harg4 x0 x1 y
      = ∑ n : Fin 65536, if x1 (ix3 0 0 n) = BitVec.ofNat 32 (i 1).val * 1024#32 + BitVec.ofNat 32 (y 2).val
          then x0 (ix3 0 (⟨(y 1).val, (y 1).isLt⟩ : Fin 80) n) else 0 := by
  obtain ⟨u, r, v, rfl⟩ : ∃ (u : Fin 1) (r : Fin 80) (v : Fin 1024), y = ix3 u r v := ⟨y 0, y 1, y 2, eq_ix3 y⟩
  obtain rfl : u = 0 := Subsingleton.elim _ _
  exact out1_sum c i arg2 harg2 arg3 harg3 arg4 harg4 x0 x1 r v

/-- The features' block at a point is batch `b` of the features array. -/
theorem blk_feat (c : Dev nD) (t : Fin cfg1.N) (r : Fin 80) (n : Fin 65536) :
    blk1 (C2 m) c 0 t (ix3 0 r n)
      = C2 m c main_v4 (ix3 (⟨(grid1.coords t 0).val, (grid1.coords t 0).isLt⟩ : Fin 8) r n) := by
  obtain ⟨e0, e1, e2, -⟩ := idx_facts t
  show C2 m c main_v4 (((cfg1.win 0).blk t).view.emb (ix3 0 r n)) = _
  refine congrArg (C2 m c main_v4) (funext fun a => Fin.ext ?_)
  match a with
  | ⟨0, _⟩ => show win1_0.index t (0 : Fin 3) * 1 + 1 * 0 = (grid1.coords t 0).val; omega
  | ⟨1, _⟩ => show win1_0.index t (1 : Fin 3) * 80 + 1 * r.val = r.val; omega
  | ⟨2, _⟩ => show win1_0.index t (2 : Fin 3) * 65536 + 1 * n.val = n.val; omega

/-- The cell numbers' block at a point is batch `b` of the cell numbers' array. -/
theorem blk_ids (c : Dev nD) (t : Fin cfg1.N) (n : Fin 65536) :
    blk1 (C2 m) c 1 t (ix3 0 0 n)
      = C2 m c main_v0_1 (ix3 (⟨(grid1.coords t 0).val, (grid1.coords t 0).isLt⟩ : Fin 8) (0 : Fin 1) n) := by
  obtain ⟨-, -, -, e0, e1, e2, -⟩ := idx_facts t
  show C2 m c main_v0_1 (((cfg1.win 1).blk t).view.emb (ix3 0 0 n)) = _
  refine congrArg (C2 m c main_v0_1) (funext fun a => Fin.ext ?_)
  match a with
  | ⟨0, _⟩ => show win1_1.index t (0 : Fin 3) * 1 + 1 * 0 = (grid1.coords t 0).val; omega
  | ⟨1, _⟩ => show win1_1.index t (1 : Fin 3) * 1 + 1 * 0 = 0; omega
  | ⟨2, _⟩ => show win1_1.index t (2 : Fin 3) * 65536 + 1 * n.val = n.val; omega

/-- WHAT POINT `t` WRITES BACK is block `t` of `sumsG`. -/
theorem flushed_eq (c : Dev nD) (t : Fin cfg1.N) :
    (dat1 (C2 m) c).flushed 2 t = ((cfg1.win 2).blk t).view.read (Elt Ideal) (sumsG m c) := by
  show (cfg1.win 2).cut (grid1.coords t) ((dat1 (C2 m) c).after 2 t) = _
  rw [after1_2]
  unfold outAt1
  funext j
  obtain ⟨-, -, -, -, -, -, e6, e7, e8⟩ := idx_facts t
  refine (out1_at c (grid1.coords t) (ms1_0 t) (hs1_0 t) (ms1_1 t) (hs1_1 t) (ms1_2 t) (hs1_2 t)
      (blk1 (C2 m) c 0 t) (blk1 (C2 m) c 1 t) ((cfg1.win 2).xinj (grid1.coords t) j)).trans ?_
  refine Eq.trans ?_ (read_blk (sumsG m c) t j).symm
  refine Eq.trans ?_ (sumsG_apply m c _).symm
  refine Finset.sum_congr rfl fun n _ => ?_
  have hj0 : (j 0).val < 1 := (j 0).isLt
  have h0 : (⟨((((cfg1.win 2).blk t).view.emb j) 0).val, ((((cfg1.win 2).blk t).view.emb j) 0).isLt⟩ : Fin 8)
      = ⟨(grid1.coords t 0).val, (grid1.coords t 0).isLt⟩ :=
    Fin.ext (by show win1_2.index t (0 : Fin 3) * 1 + 1 * (j 0).val = (grid1.coords t 0).val; omega)
  have h1 : (⟨((((cfg1.win 2).blk t).view.emb j) 1).val, ((((cfg1.win 2).blk t).view.emb j) 1).isLt⟩ : Fin 80)
      = ⟨(j 1).val, (j 1).isLt⟩ :=
    Fin.ext (by show win1_2.index t (1 : Fin 3) * 80 + 1 * (j 1).val = (j 1).val; omega)
  have h2 : BitVec.ofNat 32 ((((cfg1.win 2).blk t).view.emb j) 2).val
      = BitVec.ofNat 32 (grid1.coords t 1).val * 1024#32 + BitVec.ofNat 32 (j 2).val := by
    have e : ((((cfg1.win 2).blk t).view.emb j) 2).val = (grid1.coords t 1).val * 1024 + (j 2).val := by
      show win1_2.index t (2 : Fin 3) * 1024 + 1 * (j 2).val = _; omega
    rw [e, ofNat_block]
  rw [blk_feat, blk_ids, h0, h1, h2]

/-- An index of the array is in point `t`'s block iff each coordinate is in the block's range on its axis. -/
theorem mem_blk (t : Fin cfg1.N) (i : S8x80x32768.Idx) :
    i ∈ ((cfg1.win 2).blk t).view.set ↔ ∀ a : Fin 3, win1_2.index t a * S1x80x1024.size a ≤ (i a).val
      ∧ (i a).val < win1_2.index t a * S1x80x1024.size a + S1x80x1024.size a := by
  show i ∈ ((View.whole main_v5).slice (win1_2.rect t)).set ↔ _
  rw [View.set_slice_whole, Rect.mem_set_unit]
  exact Iff.rfl

/-- Every element of the array is in some point's block: (b, r, V) in the block of point (b, V / 1024). -/
theorem cover (i : S8x80x32768.Idx) :
    ∃ t : Fin cfg1.N, (cfg1.win 2).flush t = true ∧ i ∈ ((cfg1.win 2).blk t).view.set := by
  have hi0 : (i 0).val < 8 := (i 0).isLt
  have hi1 : (i 1).val < 80 := (i 1).isLt
  have hi2 : (i 2).val < 32768 := (i 2).isLt
  obtain ⟨t, ht⟩ := idx_onto ⟨(i 0).val, hi0⟩ ⟨(i 2).val / 1024, by omega⟩
  have q0 : win1_2.index t (0 : Fin 3) = (i 0).val := congrFun ht 0
  have q1 : win1_2.index t (1 : Fin 3) = 0 := congrFun ht 1
  have q2 : win1_2.index t (2 : Fin 3) = (i 2).val / 1024 := congrFun ht 2
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 80 ≤ (i 1).val ∧ (i 1).val < win1_2.index t (1 : Fin 3) * 80 + 80; omega
  | ⟨2, _⟩ => show win1_2.index t (2 : Fin 3) * 1024 ≤ (i 2).val ∧ (i 2).val < win1_2.index t (2 : Fin 3) * 1024 + 1024; omega

/-- THE ARRAY after the region: `sumsG` everywhere. -/
theorem sums_array (c : Dev nD) : (dat1 (C2 m) c).arrAt 2 cfg1.N = sumsG m c :=
  (dat1 (C2 m) c).arrAt_eq_of_cover 2 (sumsG m c) (fun t _ => flushed_eq m c t) (cover)

/-- THE SUMS: after the second region the sums array holds, at (b, r, V), the sum over the points of batch `b` whose
    cell number is `V` of row `r` of the extended features, both as the region was entered with them. -/
theorem sums_final (c : Dev nD) (b : Fin 8) (r : Fin 80) (V : Fin 32768) :
    (B3 (F := Ideal) m c (Proc.devRef .tc main_v5) (ix3 b r V) : EReal)
      = ∑ n : Fin 65536, (if B2 (F := Ideal) m c (Proc.devRef .tc main_v0_1) (ix3 b (0 : Fin 1) n) = BitVec.ofNat 32 V.val
          then B2 (F := Ideal) m c (Proc.devRef .tc main_v4) (ix3 b r n) else 0 : EReal) := by
  have h : B3 (F := Ideal) m c (Proc.devRef .tc main_v5) = sumsG m c := (B3_arr m c 2).trans (sums_array m c)
  exact (congrFun h (ix3 b r V)).trans (sumsG_ix3 m c b r V)

end Cert.KernelIdeal.Val
end
-- ==== Proof.Spec.lean ====
/-
  The specification of the two results, as functions of the two argument arrays read as extended reals,
  index by index, over literal shapes. No program is imported.

  A point cloud `x` (8 batches × 3 coordinates × 65536 points) is centred on its per-coordinate mean, scaled by
  twice the largest distance of a centred point from the origin, shifted by one half, scaled to the grid's
  resolution 32 and clipped into [0, 31]: that is the second result `nc`. Each clipped coordinate is rounded to
  the nearest integer (ties to even) and read as a 32-bit word; the three words of a point make its cell number
  `flat = v₀·1024 + v₁·32 + v₂`, one of 32768 cells. The first result `out` is, for every batch, channel and
  cell, the sum of the feature values `f` of the points of that cell divided by the larger of the number of
  such points and one.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The shape of the features: batch × channel × point. -/
abbrev SF : Shape := ⟨3, ![8, 64, 65536]⟩
/-- The shape of the coordinates and of the second result: batch × coordinate × point. -/
abbrev SX : Shape := ⟨3, ![8, 3, 65536]⟩
/-- The shape of the first result: batch × channel × 32 × 32 × 32 cells. -/
abbrev SO : Shape := ⟨5, ![8, 64, 32, 32, 32]⟩

section Normalize
variable (x : SX.Idx → EReal)

/-- The mean of coordinate `k` over the points of batch `b`: the sum (from zero) divided by 65536. -/
def mean (b : Fin 8) (k : Fin 3) : EReal :=
  Ideal.div (0 + ∑ n : Fin 65536, x (ix3 b k n)) (Ideal.ofBits .f32 0x47800000#32)

/-- The centred coordinate. -/
def d (b : Fin 8) (k : Fin 3) (n : Fin 65536) : EReal := x (ix3 b k n) - mean x b k

/-- The distance of the centred point `n` from the origin. -/
def nrm (b : Fin 8) (n : Fin 65536) : EReal := Ideal.sqrt (0 + ∑ k : Fin 3, d x b k n * d x b k n)

/-- The largest such distance in batch `b`: the maximum, from −∞, over the points. -/
def mx (b : Fin 8) : EReal :=
  (Finset.univ : Finset (Fin 65536)).fold max (Ideal.ofBits .f32 0xFF800000#32) (fun n => nrm x b n)

/-- The scale of batch `b`: twice the largest distance (plus zero). -/
def den (b : Fin 8) : EReal := mx x b * Ideal.ofBits .f32 0x40000000#32 + Ideal.ofBits .f32 0x00000000#32

/-- The normalized coordinate: `(d / den + 1/2) · 32` clipped into [0, 31]. -/
def ncAt (b : Fin 8) (k : Fin 3) (n : Fin 65536) : EReal :=
  min (Ideal.ofBits .f32 0x41F80000#32) (max (Ideal.ofBits .f32 0x00000000#32)
    ((Ideal.div (d x b k n) (den x b) + Ideal.ofBits .f32 0x3F000000#32) * Ideal.ofBits .f32 0x42000000#32))

/-- RESULT 2: the normalized coordinates as an array of shape [8, 3, 65536]. -/
def nc : SX.Idx → EReal := fun i => ncAt x ⟨(i 0).val, (i 0).isLt⟩ ⟨(i 1).val, (i 1).isLt⟩ ⟨(i 2).val, (i 2).isLt⟩

theorem nc_ix3 (b : Fin 8) (k : Fin 3) (n : Fin 65536) : nc x (ix3 b k n) = ncAt x b k n := rfl

/-- The grid coordinate of a point as a 32-bit word: the normalized coordinate rounded to the nearest integer, ties to even. -/
def vox (b : Fin 8) (k : Fin 3) (n : Fin 65536) : BitVec 32 :=
  Ideal.fptosi 32 (Ideal.liftRound Ideal.roundHalfEven (ncAt x b k n))

/-- The cell number of a point, as a 32-bit word. -/
def flat (b : Fin 8) (n : Fin 65536) : BitVec 32 := vox x b 0 n * 1024#32 + vox x b 1 n * 32#32 + vox x b 2 n

end Normalize

section Voxelize
variable (f : SF.Idx → EReal) (x : SX.Idx → EReal)

/-- The sum of channel `c`'s feature over the points of batch `b` that fall in cell `v`. -/
def sums (b : Fin 8) (c : Fin 64) (v : Fin 32768) : EReal :=
  ∑ n : Fin 65536, if flat x b n = BitVec.ofNat 32 v.val then f (ix3 b c n) else 0

/-- The number of points of batch `b` that fall in cell `v`. -/
def cnt (b : Fin 8) (v : Fin 32768) : EReal :=
  ∑ n : Fin 65536, if flat x b n = BitVec.ofNat 32 v.val then (1 : EReal) else 0

/-- The cell with grid coordinates `(r0, r1, r2)`. -/
def cell (r0 r1 r2 : Fin 32) : Fin 32768 := ⟨r0.val * 1024 + r1.val * 32 + r2.val, by omega⟩

/-- The mean feature of a cell: the sum divided by the larger of the count and one. -/
def outAt (b : Fin 8) (c : Fin 64) (r0 r1 r2 : Fin 32) : EReal :=
  Ideal.div (sums f x b c (cell r0 r1 r2)) (max (cnt x b (cell r0 r1 r2)) (Ideal.ofBits .f32 0x3F800000#32))

/-- RESULT 1: the mean features as an array of shape [8, 64, 32, 32, 32]. -/
def out : SO.Idx → EReal := fun i =>
  outAt f x ⟨(i 0).val, (i 0).isLt⟩ ⟨(i 1).val, (i 1).isLt⟩ ⟨(i 2).val, (i 2).isLt⟩ ⟨(i 3).val, (i 3).isLt⟩ ⟨(i 4).val, (i 4).isLt⟩

theorem out_ix5 (b : Fin 8) (c : Fin 64) (r0 r1 r2 : Fin 32) : out f x (ix5 b c r0 r1 r2) = outAt f x b c r0 r1 r2 := rfl

end Voxelize

end Cert.Spec

end
-- ==== Proof.NormPayload.lean ====
/-
  The first pass over one batch's block of points, read as extended reals, entry by entry.

  A block holds the three coordinates of 65536 points. Each coordinate's mean is its sum divided by 65536; the
  centred point's distance from the origin is the square root of the sum of its three squared centred
  coordinates; the scale is twice the largest distance (folded from minus infinity), plus zero; a normalized
  coordinate is the centred coordinate divided by the scale, plus one half, times 32, clipped into [0, 31].
  The stored value is exactly this function of the block: a lane sum is the sum over that axis's coordinates,
  a lane maximum the fold of the maximum over them, and the casts and broadcasts between the [1, 3], [1, 3, 1],
  [1, 65536], [1, 1, 65536], [1, 1], [1, 1, 1] and [1, 3, 65536] forms only rename indices. When the block is
  batch b of the whole array of coordinates, the value at (k, n) is the specification's normalized coordinate
  (b, k, n): the only algebra is that a sum started from zero is the sum.
-/
import proofs.«111114_j62749472195254_1_alg».proof.Proof.Gen.KernelIdeal.Skeleton
import proofs.«111114_j62749472195254_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Norm

open Idealize.ShloMosaic Idealize.ShloMosaic.ValueIdx

/-! ## Reductions and layout changes of three-axis arrays, read at an index -/

section Index
variable {α : Type}

/-- A sum over the last axis of an [n0, n1, n2] array reads, at (a, b), the sum over c of the entries (a, b, c). -/
theorem sum_axis2_apply {n0 n1 n2 : ℕ} (src : FVec Ideal ⟨3, ![n0, n1, n2]⟩ .f32) (acc : BitVec 32)
    (h : (⟨3, ![n0, n1, n2]⟩ : Shape).Reduces [2] ⟨2, ![n0, n1]⟩) (hφ : FKind.Formats .f32)
    (hacc : acc = FKind.add.neutral .f32 hφ) (a : Fin n0) (b : Fin n1) :
    multiReduction .add [2] ⟨2, ![n0, n1]⟩ src acc h hφ hacc (ix2 a b) = ∑ c : Fin n2, src (ix3 a b c) := by
  refine (Ideal.multiReduction_add_single src acc h hφ hacc (ix2 a b)).trans ?_
  refine Finset.sum_congr rfl fun c _ => congrArg src ?_
  funext ax
  match ax with
  | ⟨0, _⟩ => exact Fin.ext rfl
  | ⟨1, _⟩ => exact Fin.ext rfl
  | ⟨2, _⟩ => exact Fin.ext rfl

/-- A sum over the middle axis of an [n0, n1, n2] array reads, at (a, c), the sum over b of the entries (a, b, c). -/
theorem sum_axis1_apply {n0 n1 n2 : ℕ} (src : FVec Ideal ⟨3, ![n0, n1, n2]⟩ .f32) (acc : BitVec 32)
    (h : (⟨3, ![n0, n1, n2]⟩ : Shape).Reduces [1] ⟨2, ![n0, n2]⟩) (hφ : FKind.Formats .f32)
    (hacc : acc = FKind.add.neutral .f32 hφ) (a : Fin n0) (c : Fin n2) :
    multiReduction .add [1] ⟨2, ![n0, n2]⟩ src acc h hφ hacc (ix2 a c) = ∑ b : Fin n1, src (ix3 a b c) := by
  refine (Ideal.multiReduction_add_single src acc h hφ hacc (ix2 a c)).trans ?_
  refine Finset.sum_congr rfl fun b _ => congrArg src ?_
  funext ax
  match ax with
  | ⟨0, _⟩ => exact Fin.ext rfl
  | ⟨1, _⟩ => exact Fin.ext rfl
  | ⟨2, _⟩ => exact Fin.ext rfl

/-- A maximum over the last axis of an [n0, n1, n2] array reads, at (a, b), the fold of the maximum, from the
    starting word's value, over c of the entries (a, b, c). -/
theorem max_axis2_apply {n0 n1 n2 : ℕ} (src : FVec Ideal ⟨3, ![n0, n1, n2]⟩ .f32) (acc : BitVec 32)
    (h : (⟨3, ![n0, n1, n2]⟩ : Shape).Reduces [2] ⟨2, ![n0, n1]⟩) (hφ : FKind.Formats .f32)
    (hacc : acc = FKind.maximumf.neutral .f32 hφ) (a : Fin n0) (b : Fin n1) :
    multiReduction .maximumf [2] ⟨2, ![n0, n1]⟩ src acc h hφ hacc (ix2 a b)
      = (Finset.univ : Finset (Fin n2)).fold max (Ideal.ofBits .f32 acc) (fun c => src (ix3 a b c)) := by
  refine (Ideal.multiReduction_maximumf_single src acc h hφ hacc (ix2 a b)).trans ?_
  refine congrArg (fun f => (Finset.univ : Finset (Fin n2)).fold max (Ideal.ofBits .f32 acc) f) ?_
  funext c
  refine congrArg src ?_
  funext ax
  match ax with
  | ⟨0, _⟩ => exact Fin.ext rfl
  | ⟨1, _⟩ => exact Fin.ext rfl
  | ⟨2, _⟩ => exact Fin.ext rfl

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A [1, 1, 1] array broadcast to [a, b, c] reads its one entry everywhere. -/
theorem broadcastTo_111_abc_apply {a b c : ℕ} (v : (⟨3, ![1, 1, 1]⟩ : Shape).Idx → α)
    (h : (⟨3, ![1, 1, 1]⟩ : Shape).Broadcasts ⟨3, ![a, b, c]⟩) (i : Fin a) (j : Fin b) (k : Fin c) :
    broadcastTo ⟨3, ![a, b, c]⟩ v h (ix3 i j k) = v (ix3 (0 : Fin 1) (0 : Fin 1) (0 : Fin 1)) := by
  refine broadcastTo_apply v h (ix3 i j k) (ix3 (0 : Fin 1) (0 : Fin 1) (0 : Fin 1)) fun ax => ?_
  match ax with
  | ⟨0, _⟩ => rfl
  | ⟨1, _⟩ => rfl
  | ⟨2, _⟩ => rfl

/-- A square root at an index is the square root of the entry. -/
theorem sqrt_apply {s : Shape} {φ : FTy} (a : FVec Ideal s φ) (i : s.Idx) : sqrt a i = Ideal.sqrt (a i) := rfl

end Index

open Cert.KernelIdeal Cert.KernelIdeal.Gen

/-! ## The stages of the first pass, as the vectors the program holds -/

/-- The means, a [1, 3, 1] vector. -/
def meanV (x0 : FVec Ideal S1x3x65536 .f32) : FVec Ideal S1x3x1 .f32 :=
  divf (shapeCast S1x3x1 (multiReduction .add [2] S1x3 x0 0x00000000#32 reduces_S1x3x65536_S1x3 (.inl rfl) rfl) shapeCasts_S1x3_S1x3x1)
    (broadcast S1x3x1 (Scalar.ofBits .f32 0x47800000#32))

/-- The centred block. -/
def dV (x0 : FVec Ideal S1x3x65536 .f32) : FVec Ideal S1x3x65536 .f32 :=
  subf x0 (broadcastTo S1x3x65536 (meanV x0) broadcasts_S1x3x1_S1x3x65536)

/-- The distances from the origin, a [1, 1, 65536] vector. -/
def nrmV (x0 : FVec Ideal S1x3x65536 .f32) : FVec Ideal S1x1x65536 .f32 :=
  sqrt (shapeCast S1x1x65536 (multiReduction .add [1] S1x65536 (mulf (dV x0) (dV x0)) 0x00000000#32 reduces_S1x3x65536_S1x65536 (.inl rfl) rfl) shapeCasts_S1x65536_S1x1x65536)

/-- The scale, a [1, 1, 1] vector. -/
def denV (x0 : FVec Ideal S1x3x65536 .f32) : FVec Ideal S1x1x1 .f32 :=
  addf (mulf (shapeCast S1x1x1 (multiReduction .maximumf [2] S1x1 (nrmV x0) 0xFF800000#32 reduces_S1x1x65536_S1x1 (.inl rfl) rfl) shapeCasts_S1x1_S1x1x1)
      (broadcast S1x1x1 (Scalar.ofBits .f32 0x40000000#32)))
    (broadcast S1x1x1 (Scalar.ofBits .f32 0x00000000#32))

/-- The first stored value is the clip of the scaled, shifted quotient of these stages. -/
theorem k0_pay1_stages (x0 : FVec Ideal S1x3x65536 .f32) :
    k0_pay1 (F := Ideal) x0
      = minimumf (broadcast S1x3x65536 (Scalar.ofBits .f32 0x41F80000#32))
          (maximumf (broadcast S1x3x65536 (Scalar.ofBits .f32 0x00000000#32))
            (mulf (addf (divf (dV x0) (broadcastTo S1x3x65536 (denV x0) broadcasts_S1x1x1_S1x3x65536))
                (broadcast S1x3x65536 (Scalar.ofBits .f32 0x3F000000#32)))
              (broadcast S1x3x65536 (Scalar.ofBits .f32 0x42000000#32)))) := rfl

/-! ## Each stage at an index, when the block is batch b of the array x -/

section Batch
variable (x : Cert.Spec.SX.Idx → EReal) (b : Fin 8) (x0 : FVec Ideal S1x3x65536 .f32)
  (hx : ∀ (k : Fin 3) (n : Fin 65536), x0 (ix3 (0 : Fin 1) k n) = x (ix3 b k n))
include hx

/-- The block's mean of coordinate k is the specification's (whose sum starts from zero). -/
theorem meanV_apply (k : Fin 3) (u : Fin 1) : meanV x0 (ix3 (0 : Fin 1) k u) = Cert.Spec.mean x b k := by
  unfold Cert.Spec.mean
  rw [zero_add]
  unfold meanV
  refine (divf_apply _ _ _).trans ?_
  refine congrArg (fun t => Ideal.div t (Ideal.ofBits .f32 0x47800000#32)) ?_
  refine (shapeCast_ab_ab1_apply _ _ (0 : Fin 1) k u).trans ?_
  refine (sum_axis2_apply x0 _ _ _ _ (0 : Fin 1) k).trans ?_
  exact Finset.sum_congr rfl fun n _ => hx k n

/-- The centred block at (k, n) is the specification's centred coordinate. -/
theorem dV_apply (k : Fin 3) (n : Fin 65536) : dV x0 (ix3 (0 : Fin 1) k n) = Cert.Spec.d x b k n := by
  unfold Cert.Spec.d dV
  refine (subf_apply _ _ _).trans ?_
  exact congrArg₂ (fun s t : EReal => s - t) (hx k n)
    ((broadcastTo_ab1_abc_apply _ _ (0 : Fin 1) k n).trans (meanV_apply x b x0 hx k 0))

/-- The distance of point n is the specification's. -/
theorem nrmV_apply (u v : Fin 1) (n : Fin 65536) : nrmV x0 (ix3 u v n) = Cert.Spec.nrm x b n := by
  obtain rfl : v = 0 := Subsingleton.elim _ _
  unfold Cert.Spec.nrm
  rw [zero_add]
  unfold nrmV
  refine (sqrt_apply _ _).trans (congrArg Ideal.sqrt ?_)
  refine (shapeCast_ab_1ab_apply _ _ u (0 : Fin 1) n).trans ?_
  refine (sum_axis1_apply _ _ _ _ _ (0 : Fin 1) n).trans ?_
  refine Finset.sum_congr rfl fun k _ => ?_
  refine (mulf_apply _ _ _).trans ?_
  exact congrArg₂ (fun s t : EReal => s * t) (dV_apply x b x0 hx k n) (dV_apply x b x0 hx k n)

/-- The scale is the specification's. -/
theorem denV_apply (u v w : Fin 1) : denV x0 (ix3 u v w) = Cert.Spec.den x b := by
  unfold Cert.Spec.den Cert.Spec.mx denV
  refine (addf_apply _ _ _).trans ?_
  refine congrArg (fun t => t + Ideal.ofBits .f32 0x00000000#32) ?_
  refine (mulf_apply _ _ _).trans ?_
  refine congrArg (fun t => t * Ideal.ofBits .f32 0x40000000#32) ?_
  refine (shapeCast_ab_1ab_apply _ _ u v w).trans ?_
  refine (max_axis2_apply _ _ _ _ _ v w).trans ?_
  exact congrArg (fun f => (Finset.univ : Finset (Fin 65536)).fold max (Ideal.ofBits .f32 0xFF800000#32) f)
    (funext fun c => nrmV_apply x b x0 hx v w c)

/-- THE FIRST STORED VALUE: at coordinate k of point n it is the specification's normalized coordinate (b, k, n). -/
theorem pay1_eq (k : Fin 3) (n : Fin 65536) :
    k0_pay1 (F := Ideal) x0 (ix3 (0 : Fin 1) k n) = Cert.Spec.nc x (ix3 b k n) := by
  rw [Cert.Spec.nc_ix3]
  unfold Cert.Spec.ncAt
  refine (congrFun (k0_pay1_stages x0) _).trans ?_
  refine (minimumf_apply _ _ _).trans ?_
  refine congrArg (fun t => min (Ideal.ofBits .f32 0x41F80000#32) t) ?_
  refine (maximumf_apply _ _ _).trans ?_
  refine congrArg (fun t => max (Ideal.ofBits .f32 0x00000000#32) t) ?_
  refine (mulf_apply _ _ _).trans ?_
  refine congrArg (fun t => t * Ideal.ofBits .f32 0x42000000#32) ?_
  refine (addf_apply _ _ _).trans ?_
  refine congrArg (fun t => t + Ideal.ofBits .f32 0x3F000000#32) ?_
  refine (divf_apply _ _ _).trans ?_
  exact congrArg₂ Ideal.div (dV_apply x b x0 hx k n)
    ((broadcastTo_111_abc_apply _ _ (0 : Fin 1) k n).trans (denV_apply x b x0 hx 0 0 0))

end Batch

end Cert.KernelIdeal.Norm

end
-- ==== Proof.FlatPayload.lean ====
/-
  The second value the first pass stores for one batch's block of points: each point's cell number.

  Every normalized coordinate is rounded to the nearest integer, ties to even, and read as a 32-bit word; the
  words of a point's three coordinates are cut out of the [1, 3, 65536] array along the coordinate axis (a cut
  from row k reads row k) and combined as v₀ · 1024 + v₁ · 32 + v₂ in 32-bit arithmetic. When the block is
  batch b of the whole array of coordinates this is, point by point, the specification's cell number.
-/
import proofs.«111114_j62749472195254_1_alg».proof.Proof.NormPayload

noncomputable section

namespace Cert.KernelIdeal.Norm

open Idealize.ShloMosaic Idealize.ShloMosaic.ValueIdx
open Cert.KernelIdeal Cert.KernelIdeal.Gen

/-! ## The word operations at an index -/

/-- A conversion to a signed word at an index converts the entry. -/
theorem fptosi_apply {s : Shape} {φ : FTy} (w : ℕ) (a : FVec Ideal s φ) (i : s.Idx) :
    fptosi w a i = Ideal.fptosi w (a i) := rfl

/-- A rounding to the nearest integer, ties to even, at an index rounds the entry. -/
theorem roundeven_apply {s : Shape} {φ : FTy} (a : FVec Ideal s φ) (i : s.Idx) :
    roundeven a i = Ideal.liftRound Ideal.roundHalfEven (a i) := rfl

/-- A sum of words at an index is the sum of the entries. -/
theorem addi_apply {s : Shape} {w : ℕ} (a c : IVec s w) (i : s.Idx) : addi a c i = a i + c i := rfl

/-- A product of words at an index is the product of the entries. -/
theorem muli_apply {s : Shape} {w : ℕ} (a c : IVec s w) (i : s.Idx) : muli a c i = a i * c i := rfl

/-! ## The stages -/

/-- The grid coordinates of the block's points, as words: a [1, 3, 65536] vector. -/
def voxV (x0 : FVec Ideal S1x3x65536 .f32) : IVec S1x3x65536 32 := fptosi 32 (roundeven (k0_pay1 (F := Ideal) x0))

/-- The second stored value combines the three rows of the grid coordinates. -/
theorem k0_pay2_stages (x0 : FVec Ideal S1x3x65536 .f32) :
    k0_pay2 (F := Ideal) x0
      = addi (addi (muli (extractStridedSlice S1x1x65536 ![0, 0, 0] (voxV x0) slices_S1x3x65536_o0_0_0_S1x1x65536)
                (broadcast S1x1x65536 1024#32))
              (muli (extractStridedSlice S1x1x65536 ![0, 1, 0] (voxV x0) slices_S1x3x65536_o0_1_0_S1x1x65536)
                (broadcast S1x1x65536 32#32)))
          (extractStridedSlice S1x1x65536 ![0, 2, 0] (voxV x0) slices_S1x3x65536_o0_2_0_S1x1x65536) := rfl

section Batch
variable (x : Cert.Spec.SX.Idx → EReal) (b : Fin 8) (x0 : FVec Ideal S1x3x65536 .f32)
  (hx : ∀ (k : Fin 3) (n : Fin 65536), x0 (ix3 (0 : Fin 1) k n) = x (ix3 b k n))
include hx

/-- The grid coordinate k of point n is the specification's. -/
theorem voxV_apply (k : Fin 3) (n : Fin 65536) : voxV x0 (ix3 (0 : Fin 1) k n) = Cert.Spec.vox x b k n := by
  unfold Cert.Spec.vox voxV
  refine (fptosi_apply _ _ _).trans (congrArg (Ideal.fptosi 32) ?_)
  refine (roundeven_apply _ _).trans (congrArg (Ideal.liftRound Ideal.roundHalfEven) ?_)
  exact (pay1_eq x b x0 hx k n).trans (Cert.Spec.nc_ix3 x b k n)

/-- THE SECOND STORED VALUE: at point n it is the specification's cell number of point n of batch b. -/
theorem pay2_eq (n : Fin 65536) :
    k0_pay2 (F := Ideal) x0 (ix3 (0 : Fin 1) (0 : Fin 1) n) = Cert.Spec.flat x b n := by
  unfold Cert.Spec.flat
  refine (congrFun (k0_pay2_stages x0) _).trans ?_
  refine (addi_apply _ _ _).trans ?_
  refine congrArg₂ (fun s t : BitVec 32 => s + t) ?_ ?_
  · refine (addi_apply _ _ _).trans ?_
    refine congrArg₂ (fun s t : BitVec 32 => s + t) ?_ ?_
    · refine (muli_apply _ _ _).trans ?_
      refine congrArg (fun t : BitVec 32 => t * 1024#32) ?_
      exact (slice3_axis1_apply 0 _ _ (0 : Fin 1) (0 : Fin 1) n (0 : Fin 3) rfl).trans (voxV_apply x b x0 hx 0 n)
    · refine (muli_apply _ _ _).trans ?_
      refine congrArg (fun t : BitVec 32 => t * 32#32) ?_
      exact (slice3_axis1_apply 1 _ _ (0 : Fin 1) (0 : Fin 1) n (1 : Fin 3) rfl).trans (voxV_apply x b x0 hx 1 n)
  · exact (slice3_axis1_apply 2 _ _ (0 : Fin 1) (0 : Fin 1) n (2 : Fin 3) rfl).trans (voxV_apply x b x0 hx 2 n)

end Batch

end Cert.KernelIdeal.Norm

end
-- ==== Proof.SpecFacts.lean ====
/-
  Facts about the specification's grid coordinates: a clipped coordinate is a real number in [0, 31], its rounding to the
  nearest integer is an integer in [0, 31], so every grid coordinate is one of the words 0 … 31 and a cell number,
  read as a natural number, is below 32768 = 32³. Also: the two spellings of the clip's upper bound 31 (the integer
  31 converted to a float, and the float word 0x41F80000) are the same extended real.
-/
import proofs.«111114_j62749472195254_1_alg».proof.Proof.Spec

noncomputable section

open scoped BigOperators

namespace Cert.Spec

open Idealize.ShloMosaic Idealize.ShloMosaic.ValueIdx

/-- The float word 0x41F80000 is 31. -/
theorem ofBits_31 : Ideal.ofBits .f32 0x41F80000#32 = ((31 : ℝ) : EReal) := by
  simp [Ideal.ofBits, Ideal.ieee, -EReal.coe_mul]; norm_num

/-- The float word 0x3F800000 is 1. -/
theorem ofBits_one : Ideal.ofBits .f32 0x3F800000#32 = (1 : EReal) := by
  simp [Ideal.ofBits, Ideal.ieee, -EReal.coe_mul]; norm_num

/-- The integer 31 converted to a float is the float word 0x41F80000: the two programs' spellings of the clip's upper bound agree. -/
theorem sitofp_31 : FloatOps.sitofp (F := Ideal) .f32 (31#32 : BitVec 32) = Ideal.ofBits .f32 0x41F80000#32 := by
  rw [ofBits_31]
  show (((31#32 : BitVec 32).toInt : ℝ) : EReal) = _
  have : (31#32 : BitVec 32).toInt = 31 := by decide
  rw [this]; norm_num

variable (x : SX.Idx → EReal)

/-- A clipped coordinate is a real number between 0 and 31. -/
theorem ncAt_mem (b : Fin 8) (k : Fin 3) (n : Fin 65536) : ∃ r : ℝ, ncAt x b k n = (r : EReal) ∧ 0 ≤ r ∧ r ≤ 31 := by
  unfold ncAt
  rw [ofBits_31, Ideal.ofBits_zero_f32]
  generalize (Ideal.div (d x b k n) (den x b) + Ideal.ofBits .f32 0x3F000000#32) * Ideal.ofBits .f32 0x42000000#32 = y
  have h0 : (0 : EReal) ≤ min ((31 : ℝ) : EReal) (max 0 y) :=
    le_min (by exact_mod_cast (by norm_num : (0 : ℝ) ≤ 31)) (le_max_left _ _)
  have h1 : min ((31 : ℝ) : EReal) (max 0 y) ≤ ((31 : ℝ) : EReal) := min_le_left _ _
  generalize min ((31 : ℝ) : EReal) (max 0 y) = z at h0 h1
  induction z using EReal.rec with
  | bot => simp at h0
  | top => simp at h1
  | coe r => exact ⟨r, rfl, by exact_mod_cast h0, by exact_mod_cast h1⟩

/-- Rounding a real in [0, 31] to the nearest integer, ties to even, gives an integer in [0, 31]. -/
theorem roundHalfEven_mem {r : ℝ} (h0 : 0 ≤ r) (h1 : r ≤ 31) : 0 ≤ Ideal.roundHalfEven r ∧ Ideal.roundHalfEven r ≤ 31 := by
  have hf0 : 0 ≤ ⌊r⌋ := Int.floor_nonneg.2 h0
  have hf1 : ⌊r⌋ ≤ 31 := by
    have : ⌊r⌋ ≤ ⌊(31 : ℝ)⌋ := Int.floor_le_floor h1
    simpa using this
  unfold Ideal.roundHalfEven
  dsimp only
  by_cases hlt : ⌊r⌋ ≤ 30
  · split_ifs <;> constructor <;> omega
  · have he : ⌊r⌋ = 31 := by omega
    have hr : r = 31 := le_antisymm h1 (by have := Int.floor_le r; rw [he] at this; exact_mod_cast this)
    subst hr
    rw [if_pos (by simp)]
    constructor <;> omega

/-- Every grid coordinate is the word of a natural number below 32. -/
theorem vox_eq (b : Fin 8) (k : Fin 3) (n : Fin 65536) : ∃ z : ℕ, z < 32 ∧ vox x b k n = BitVec.ofNat 32 z := by
  obtain ⟨r, hr, h0, h1⟩ := ncAt_mem x b k n
  obtain ⟨hz0, hz1⟩ := roundHalfEven_mem h0 h1
  unfold vox
  rw [hr, Ideal.liftRound_coe]
  generalize Ideal.roundHalfEven r = z at hz0 hz1
  refine ⟨z.toNat, by omega, ?_⟩
  unfold Ideal.fptosi
  rw [Ideal.toIntClamped_coe]
  have hfl : (if (0 : ℝ) ≤ (z : ℝ) then ⌊(z : ℝ)⌋ else ⌈(z : ℝ)⌉) = z := by
    rw [if_pos (by exact_mod_cast hz0), Int.floor_intCast]
  rw [hfl]
  have : max (-((2 ^ (32 - 1) : ℕ) : ℤ)) (min (((2 ^ (32 - 1) : ℕ) : ℤ) - 1) z) = (z.toNat : ℤ) := by
    norm_num; omega
  rw [this]
  exact BitVec.ofInt_natCast 32 z.toNat

/-- Every grid coordinate, read as a natural number, is below 32. -/
theorem vox_lt (b : Fin 8) (k : Fin 3) (n : Fin 65536) : (vox x b k n).toNat < 32 := by
  obtain ⟨z, hz, he⟩ := vox_eq x b k n
  rw [he, BitVec.toNat_ofNat]
  omega

/-- A cell number, read as a natural number, is its three grid coordinates in base 32 … -/
theorem flat_toNat (b : Fin 8) (n : Fin 65536) :
    (flat x b n).toNat = (vox x b 0 n).toNat * 1024 + (vox x b 1 n).toNat * 32 + (vox x b 2 n).toNat := by
  have h0 := vox_lt x b 0 n
  have h1 := vox_lt x b 1 n
  have h2 := vox_lt x b 2 n
  unfold flat
  simp only [BitVec.toNat_add, BitVec.toNat_mul, BitVec.toNat_ofNat]
  omega

/-- … and so below 32768. -/
theorem flat_lt (b : Fin 8) (n : Fin 65536) : (flat x b n).toNat < 32768 := by
  have h0 := vox_lt x b 0 n
  have h1 := vox_lt x b 1 n
  have h2 := vox_lt x b 2 n
  rw [flat_toNat]
  omega

end Cert.Spec

end
-- ==== Proof.KernelGlue.lean ====
/-
  Four readings give the first result. Suppose an array `acc` of 80 rows per batch holds, in row `r` and cell `V`,
  the sum over the batch's points whose cell number is `V` of row `r` of an extended feature array `ext`; that
  `ext`'s first 64 rows are the features, its row 64 is the constant one and its other rows are zero; that the
  cell numbers `ids` are the specification's; and that the result is row `ch` of `acc` divided by the larger of row
  64 of `acc` and one. Then the result is the specification's: rows below 64 of `acc` are its per-cell feature
  sums and row 64 is its per-cell count.
-/
import proofs.«111114_j62749472195254_1_alg».proof.Proof.SpecFacts
import Idealize.ShloMosaic.Lib.ValueIdx

noncomputable section

open scoped BigOperators

namespace Cert.Spec

open Idealize.ShloMosaic Idealize.ShloMosaic.ValueIdx

/-- The shape of the accumulated sums: batch × extended channel × cell. -/
abbrev S5 : Shape := ⟨3, ![8, 80, 32768]⟩
/-- The shape of the extended features: batch × extended channel × point. -/
abbrev SE : Shape := ⟨3, ![8, 80, 65536]⟩
/-- The shape of the cell numbers: batch × 1 × point. -/
abbrev SI : Shape := ⟨3, ![8, 1, 65536]⟩

theorem out_of_parts (f : SF.Idx → EReal) (x : SX.Idx → EReal)
    (acc : S5.Idx → EReal) (ext : SE.Idx → EReal) (ids : SI.Idx → BitVec 32) (res : SO.Idx → EReal)
    (hacc : ∀ (b : Fin 8) (r : Fin 80) (V : Fin 32768), acc (ix3 b r V)
        = ∑ n : Fin 65536, if ids (ix3 b (0 : Fin 1) n) = BitVec.ofNat 32 V.val then ext (ix3 b r n) else 0)
    (hext : ∀ (b : Fin 8) (r : Fin 80) (n : Fin 65536), ext (ix3 b r n)
        = (if h : r.val < 64 then f (ix3 b (⟨r.val, h⟩ : Fin 64) n) else if r.val = 64 then (1 : EReal) else (0 : EReal)))
    (hids : ∀ (b : Fin 8) (n : Fin 65536), ids (ix3 b (0 : Fin 1) n) = Cert.Spec.flat x b n)
    (hres : ∀ (b : Fin 8) (ch : Fin 64) (r0 r1 r2 : Fin 32), res (ix5 b ch r0 r1 r2)
        = Ideal.div (acc (ix3 b (⟨ch.val, by omega⟩ : Fin 80) (Cert.Spec.cell r0 r1 r2)))
            (max (acc (ix3 b (⟨64, by decide⟩ : Fin 80) (Cert.Spec.cell r0 r1 r2))) (Ideal.ofBits .f32 0x3F800000#32))) :
    res = Cert.Spec.out f x := by
  funext i
  obtain ⟨b, ch, r0, r1, r2, rfl⟩ : ∃ (b : Fin 8) (ch : Fin 64) (r0 r1 r2 : Fin 32), i = ix5 b ch r0 r1 r2 :=
    ⟨i 0, i 1, i 2, i 3, i 4, eq_ix5 i⟩
  rw [hres, out_ix5, hacc, hacc]
  unfold outAt
  have hs : (∑ n : Fin 65536, if ids (ix3 b (0 : Fin 1) n) = BitVec.ofNat 32 (cell r0 r1 r2).val
        then ext (ix3 b (⟨ch.val, by omega⟩ : Fin 80) n) else 0) = sums f x b ch (cell r0 r1 r2) := by
    unfold sums
    refine Finset.sum_congr rfl fun n _ => ?_
    rw [hids, hext, dif_pos ch.isLt]
  have hc : (∑ n : Fin 65536, if ids (ix3 b (0 : Fin 1) n) = BitVec.ofNat 32 (cell r0 r1 r2).val
        then ext (ix3 b (⟨64, by decide⟩ : Fin 80) n) else 0) = cnt x b (cell r0 r1 r2) := by
    unfold cnt
    refine Finset.sum_congr rfl fun n _ => ?_
    rw [hids, hext, dif_neg (by decide), if_pos rfl]
  rw [hs, hc]

end Cert.Spec

end
-- ==== Proof.KernelSpec.lean ====
/-
  The kernel's two results over the extended reals are the specification's.
  The second result is the array the first region wrote: the normalization of each batch's block, which is the
  specification's normalized coordinates. The first result: the extended features' rows below 64 are the features,
  row 64 is constantly one; the ids the second region reads are the specification's voxel ids; so rows below 64 of
  the second region's output are the per-voxel sums of the features and row 64 the per-voxel counts, and the host
  tail divides the one by the other clamped at one — the specification's average.
-/
import proofs.«111114_j62749472195254_1_alg».proof.Proof.Gen.KernelIdeal.Launch
import proofs.«111114_j62749472195254_1_alg».proof.Proof.Gen.KernelIdeal.Skeleton
import proofs.«111114_j62749472195254_1_alg».proof.Proof.Gen.KernelIdeal.Points
import proofs.«111114_j62749472195254_1_alg».proof.Proof.Gen.KernelIdeal.Loops
import proofs.«111114_j62749472195254_1_alg».proof.Proof.NormBlocks
import proofs.«111114_j62749472195254_1_alg».proof.Proof.HostRead
import proofs.«111114_j62749472195254_1_alg».proof.Proof.SumsArray
import proofs.«111114_j62749472195254_1_alg».proof.Proof.NormPayload
import proofs.«111114_j62749472195254_1_alg».proof.Proof.FlatPayload
import proofs.«111114_j62749472195254_1_alg».proof.Proof.KernelGlue
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Frm Cert.KernelIdeal.Frm1 Cert.KernelIdeal.Run
open Idealize.ShloMosaic.ValueIdx

variable (m : (ℓ : Loc nD τ sig) → Buf (Elt Ideal) ℓ)

/-- The second result: the specification's normalized coordinates. -/
theorem nc_result (c : Dev nD) :
    B4 (F := Ideal) m c (Proc.devRef .tc main_v0_0) = Cert.Spec.nc (m ((c : Thread nD τ).loc main_arg1)) := by
  rw [B4_nc]
  funext i
  obtain ⟨b, k, n, rfl⟩ : ∃ (b : Fin 8) (k : Fin 3) (n : Fin 65536), i = ix3 b k n := ⟨i 0, i 1, i 2, eq_ix3 i⟩
  rw [ncArr_row]
  exact Cert.KernelIdeal.Norm.pay1_eq _ b _ (fun _ _ => rfl) k n

/-- The ids the second region reads are the specification's voxel ids. -/
theorem ids_spec (c : Dev nD) (b : Fin 8) (n : Fin 65536) :
    B2 (F := Ideal) m c (Proc.devRef .tc main_v0_1) (ix3 b (0 : Fin 1) n) = Cert.Spec.flat (m ((c : Thread nD τ).loc main_arg1)) b n := by
  rw [B2_id, idArr_row]
  exact Cert.KernelIdeal.Norm.pay2_eq _ b _ (fun _ _ => rfl) n

/-- The first result: the specification's per-voxel averages. -/
theorem out_result (c : Dev nD) :
    B4 (F := Ideal) m c (Proc.devRef .tc main_v12)
      = Cert.Spec.out (m ((c : Thread nD τ).loc main_arg0)) (m ((c : Thread nD τ).loc main_arg1)) :=
  Cert.Spec.out_of_parts (m ((c : Thread nD τ).loc main_arg0)) (m ((c : Thread nD τ).loc main_arg1))
    (B3 (F := Ideal) m c (Proc.devRef .tc main_v5)) (B2 (F := Ideal) m c (Proc.devRef .tc main_v4))
    (B2 (F := Ideal) m c (Proc.devRef .tc main_v0_1)) (B4 (F := Ideal) m c (Proc.devRef .tc main_v12))
    (fun b r V => sums_final m c b r V)
    (fun b r n => ext_apply m c b r n)
    (fun b n => ids_spec m c b n)
    (fun b ch r0 r1 r2 => tail_apply m c b ch r0 r1 r2)

end Cert.KernelIdeal.Val

end
-- ==== Proof.RefNorm.lean ====
/-
  The reference's normalization stages are the specification's, read at an index with explicit coordinates:
  the per-coordinate mean, the centred coordinate, a point's distance from the origin, the batch's largest
  distance (a maximum over the points, read as a fold of `max` from −∞), the scale, the clipped coordinate
  (the second result), its rounding to a grid coordinate, the cell number, and the segment number
  `cell + batch · 32768` in the flat order of the points.
-/
import proofs.«111114_j62749472195254_1_alg».proof.Proof.Gen.ReferenceIdeal.Read
import proofs.«111114_j62749472195254_1_alg».proof.Proof.SpecFacts

noncomputable section

open scoped BigOperators

namespace Cert.ReferenceIdeal.RefValue

open Cert.ReferenceIdeal Cert.ReferenceIdeal.Gen Cert.ReferenceIdeal.Read Idealize.ShloMosaic Idealize.ShloMosaic.ValueIdx

variable (x : (⟨S8x3x65536, .f32⟩ : BufTy).Contents (Elt Ideal))

/-- The sum over the points of one coordinate of one batch. -/
theorem v0_at (b : Fin 8) (k : Fin 3) :
    val_main_v0 (F := Ideal) x (ix2 b k) = 0 + ∑ n : Fin 65536, x (ix3 b k n) := by
  rw [val_main_v0_apply]
  refine congrArg₂ (· + ·) Ideal.ofBits_zero_f32 (Finset.sum_congr rfl fun n _ => congrArg x ?_)
  funext a
  match a with
  | ⟨0, _⟩ => rfl
  | ⟨1, _⟩ => rfl
  | ⟨2, _⟩ => rfl

/-- The mean. -/
theorem v3_at (b : Fin 8) (k : Fin 3) : val_main_v3 (F := Ideal) x (ix3 b k (0 : Fin 1)) = Spec.mean x b k := by
  rw [val_main_v3_apply, val_main_v1_apply]
  have e : idx_main_v1 (ix3 b k (0 : Fin 1)) = ix2 b k := funext fun a => by
    match a with
    | ⟨0, _⟩ => rfl
    | ⟨1, _⟩ => rfl
  rw [e, v0_at]
  rfl

theorem v4_at (b : Fin 8) (k : Fin 3) (n : Fin 65536) : val_main_v4 (F := Ideal) x (ix3 b k n) = Spec.mean x b k := by
  rw [val_main_v4_apply]
  have e : idx_main_v4 (ix3 b k n) = ix3 b k (0 : Fin 1) := funext fun a => by
    match a with
    | ⟨0, _⟩ => rfl
    | ⟨1, _⟩ => rfl
    | ⟨2, _⟩ => rfl
  rw [e, v3_at]

/-- The centred coordinate. -/
theorem v5_at (b : Fin 8) (k : Fin 3) (n : Fin 65536) : val_main_v5 (F := Ideal) x (ix3 b k n) = Spec.d x b k n := by
  rw [val_main_v5_apply, v4_at]
  rfl

/-- The squared distance of a centred point from the origin. -/
theorem call0_v1_at (b : Fin 8) (n : Fin 65536) :
    val_main_call0_v1 (F := Ideal) x (ix2 b n) = 0 + ∑ k : Fin 3, Spec.d x b k n * Spec.d x b k n := by
  rw [val_main_call0_v1_apply]
  refine congrArg₂ (· + ·) Ideal.ofBits_zero_f32 (Finset.sum_congr rfl fun k _ => ?_)
  have e : idx_main_call0_v1 (ix2 b n) k = ix3 b k n := funext fun a => by
    match a with
    | ⟨0, _⟩ => rfl
    | ⟨1, _⟩ => rfl
    | ⟨2, _⟩ => rfl
  rw [e, val_main_call0_v0_apply, v5_at]
  rfl

/-- The distance. -/
theorem v6_at (b : Fin 8) (n : Fin 65536) : val_main_v6 (F := Ideal) x (ix3 b (0 : Fin 1) n) = Spec.nrm x b n := by
  rw [val_main_v6_apply, val_main_call0_v2_apply]
  have e : idx_main_call0_v2 (ix3 b (0 : Fin 1) n) = ix2 b n := funext fun a => by
    match a with
    | ⟨0, _⟩ => rfl
    | ⟨1, _⟩ => rfl
  rw [e, call0_v1_at]
  rfl

/-- The batch's largest distance: the host's maximum-reduce over the points is the fold of `max` from −∞. -/
theorem v7_at (b : Fin 8) : val_main_v7 (F := Ideal) x (ix2 b (0 : Fin 1)) = Spec.mx x b := by
  have h : Shape.Reduces S8x1x65536 [2] S8x1 := by decide
  unfold val_main_v7
  refine (Host.reduce_eq_fold_single (α := Ideal .f32) (s := S8x1x65536) (t := S8x1) (a := 2) (u := S_)
    (FloatOps.maximumf (F := Ideal) (φ := .f32)) (val_main_v6 (F := Ideal) x) (val_main_cst_1 (F := Ideal))
    reducesTo_S8x1x65536_S8x1_d2 h h_S_ (ix2 b (0 : Fin 1))).trans ?_
  unfold Spec.mx
  show Finset.fold max (Ideal.ofBits .f32 0xFF800000#32)
      (fun n : Fin 65536 => val_main_v6 (F := Ideal) x (h.lift (ix2 b (0 : Fin 1)) n)) Finset.univ = _
  refine Finset.fold_congr fun n _ => ?_
  have e : h.lift (ix2 b (0 : Fin 1)) n = ix3 b (0 : Fin 1) n := funext fun a => Fin.ext (by
    match a with
    | ⟨0, _⟩ => rfl
    | ⟨1, _⟩ => rfl
    | ⟨2, _⟩ => rfl)
  rw [e, v6_at]

/-- The scale. -/
theorem v12_at (b : Fin 8) : val_main_v12 (F := Ideal) x (ix3 b (0 : Fin 1) (0 : Fin 1)) = Spec.den x b := by
  rw [val_main_v12_apply, val_main_v10_apply, val_main_v8_apply]
  have e : idx_main_v8 (ix3 b (0 : Fin 1) (0 : Fin 1)) = ix2 b (0 : Fin 1) := funext fun a => by
    match a with
    | ⟨0, _⟩ => rfl
    | ⟨1, _⟩ => rfl
  rw [e, v7_at, val_main_v9_apply, val_main_v11_apply]
  rfl

/-- THE SECOND RESULT at an index: the clipped coordinate. -/
theorem v19_at (b : Fin 8) (k : Fin 3) (n : Fin 65536) : val_main_v19 (F := Ideal) x (ix3 b k n) = Spec.ncAt x b k n := by
  rw [val_main_v19_apply, val_main_call1_v4_apply, val_main_call1_v3_apply, val_main_c_apply, Spec.sitofp_31,
    val_main_call1_v2_apply, val_main_call1_v1_apply, val_main_call1_v0_apply, val_main_v18_apply, val_main_v17_apply,
    val_main_v16_apply, val_main_v15_apply, val_main_v14_apply, v5_at, val_main_v13_apply]
  have e : idx_main_v13 (ix3 b k n) = ix3 b (0 : Fin 1) (0 : Fin 1) := funext fun a => by
    match a with
    | ⟨0, _⟩ => rfl
    | ⟨1, _⟩ => rfl
    | ⟨2, _⟩ => rfl
  rw [e, v12_at]
  rfl

/-- The grid coordinate. -/
theorem v21_at (b : Fin 8) (k : Fin 3) (n : Fin 65536) : val_main_v21 (F := Ideal) x (ix3 b k n) = Spec.vox x b k n := by
  rw [val_main_v21_apply, val_main_v20_apply, v19_at, Ideal.hostUnary_roundeven_def]
  show Ideal.fptosi 32 (Ideal.liftRound Ideal.roundHalfEven (Spec.ncAt x b k n)) = Spec.vox x b k n
  rfl

theorem v23_at (b : Fin 8) (n : Fin 65536) : val_main_v23 (F := Ideal) x (ix2 b n) = Spec.vox x b 0 n := by
  rw [val_main_v23_apply, val_main_v22_apply]
  have hb := b.isLt
  have hn := n.isLt
  have e : idx_main_v22 (idx_main_v23 (ix2 b n)) = ix3 b (0 : Fin 3) n := funext fun a => Fin.ext (by
    match a with
    | ⟨0, _⟩ => show (b.val * 65536 + n.val) / 65536 = b.val; omega
    | ⟨1, _⟩ => rfl
    | ⟨2, _⟩ => show (b.val * 65536 + n.val) % 65536 = n.val; omega)
  rw [e, v21_at]

theorem v27_at (b : Fin 8) (n : Fin 65536) : val_main_v27 (F := Ideal) x (ix2 b n) = Spec.vox x b 1 n := by
  rw [val_main_v27_apply, val_main_v26_apply]
  have hb := b.isLt
  have hn := n.isLt
  have e : idx_main_v26 (idx_main_v27 (ix2 b n)) = ix3 b (1 : Fin 3) n := funext fun a => Fin.ext (by
    match a with
    | ⟨0, _⟩ => show (b.val * 65536 + n.val) / 65536 = b.val; omega
    | ⟨1, _⟩ => rfl
    | ⟨2, _⟩ => show (b.val * 65536 + n.val) % 65536 = n.val; omega)
  rw [e, v21_at]

theorem v32_at (b : Fin 8) (n : Fin 65536) : val_main_v32 (F := Ideal) x (ix2 b n) = Spec.vox x b 2 n := by
  rw [val_main_v32_apply, val_main_v31_apply]
  have hb := b.isLt
  have hn := n.isLt
  have e : idx_main_v31 (idx_main_v32 (ix2 b n)) = ix3 b (2 : Fin 3) n := funext fun a => Fin.ext (by
    match a with
    | ⟨0, _⟩ => show (b.val * 65536 + n.val) / 65536 = b.val; omega
    | ⟨1, _⟩ => rfl
    | ⟨2, _⟩ => show (b.val * 65536 + n.val) % 65536 = n.val; omega)
  rw [e, v21_at]

/-- The cell number. -/
theorem v33_at (b : Fin 8) (n : Fin 65536) : val_main_v33 (F := Ideal) x (ix2 b n) = Spec.flat x b n := by
  rw [val_main_v33_apply, val_main_v30_apply, val_main_v25_apply, val_main_v29_apply, v23_at, v27_at, v32_at,
    val_main_v24_apply, val_main_v28_apply]
  rfl

/-- The segment number of point `n` of batch `b`: its cell number plus `b · 32768`, as a 32-bit word. -/
def seg (b : Fin 8) (n : Fin 65536) : BitVec 32 := Spec.flat x b n + BitVec.ofNat 32 b.val * 32768#32

theorem v39_at (b : Fin 8) (n : Fin 65536) : val_main_v39 (F := Ideal) x (ix2 b n) = seg x b n := by
  rw [val_main_v39_apply, v33_at, val_main_v38_apply, val_main_v37_apply, val_main_v35_apply, val_main_v36_apply,
    val_main_v34_apply]
  rfl

/-- The segment numbers in the flat order of the points: point `u` of 524288 is point `u % 65536` of batch `u / 65536`. -/
theorem v40_at (u : Fin 524288) :
    val_main_v40 (F := Ideal) x (ix1 u)
      = seg x ⟨u.val / 65536, by have := u.isLt; omega⟩ ⟨u.val % 65536, by have := u.isLt; omega⟩ := by
  rw [val_main_v40_apply]
  have e : idx_main_v40 (ix1 u) = ix2 (⟨u.val / 65536, by have := u.isLt; omega⟩ : Fin 8) (⟨u.val % 65536, by have := u.isLt; omega⟩ : Fin 65536) :=
    funext fun a => by
      match a with
      | ⟨0, _⟩ => rfl
      | ⟨1, _⟩ => rfl
  rw [e, v39_at]

/-- The segment number read as an integer: no wrap-around, `cell + b · 32768 < 262144`. -/
theorem seg_toInt (b : Fin 8) (n : Fin 65536) : (seg x b n).toInt = ((Spec.flat x b n).toNat + b.val * 32768 : ℕ) := by
  have hf := Spec.flat_lt x b n
  have hb := b.isLt
  unfold seg
  rw [BitVec.toInt_eq_toNat_of_lt]
  · simp only [BitVec.toNat_add, BitVec.toNat_mul, BitVec.toNat_ofNat]
    congr 1
    omega
  · simp only [BitVec.toNat_add, BitVec.toNat_mul, BitVec.toNat_ofNat]
    omega

end Cert.ReferenceIdeal.RefValue

end
-- ==== Proof.LibScatterAdd.lean ====
/-
  The host's accumulating float scatter with ONE scattered operand axis, read at an operand index at the ideal
  values. The scatter indices are a column [U, 1] of integer words, one per update row; update row `u` is added
  into operand row `idx[u, 0]` (read as a signed integer), and is dropped when that is no row of the operand.
  So the result at row `r` is the operand's element plus the sum, over the update rows `u` whose index word is
  `r`, of the update's element (in the same column, when the rows have columns).

  Two layouts: an operand [S, C] with updates [U, C] (whole rows are scattered: the update's second axis is the
  window axis), and an operand [S] with updates [U] (single elements are scattered: no window axis).
-/
import Idealize.ShloMosaic.PureOps.Ideal
import Idealize.ShloMosaic.Lib.ValueIdx

noncomputable section

open scoped BigOperators

namespace Idealize.ShloMosaic

open ValueIdx

/-- An update index lands on the operand index `i` exactly when, on every operand axis, its window's start plus
    its window coordinate is `i`'s coordinate. -/
theorem ScatterDims.resultIdx?_eq_some_iff {s si u : Shape} (d : ScatterDims s si u) {w : ℕ} (j : u.Idx) (idx : IVec si w)
    (i : s.Idx) : d.resultIdx? j idx = some i ↔ ∀ a, d.start j idx a + (d.window j a : ℤ) = ((i a).val : ℤ) := by
  unfold ScatterDims.resultIdx?
  constructor
  · intro h a
    split at h
    · next hall =>
      have e := congrFun (Option.some.inj h) a
      have ev : (d.start j idx a + (d.window j a : ℤ)).toNat = (i a).val := congrArg Fin.val e
      have := (hall a).1
      omega
    · exact absurd h (by simp)
  · intro h
    have hall : ∀ a, 0 ≤ d.start j idx a + (d.window j a : ℤ) ∧ d.start j idx a + (d.window j a : ℤ) < s.size a := by
      intro a
      have := (i a).isLt
      rw [h a]
      exact ⟨Int.natCast_nonneg _, by exact_mod_cast this⟩
    rw [dif_pos hall]
    refine congrArg some (funext fun a => Fin.ext ?_)
    show (d.start j idx a + (d.window j a : ℤ)).toNat = (i a).val
    rw [h a, Int.toNat_natCast]

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-! ## Whole rows scattered: operand [S, C], indices [U, 1], updates [U, C] -/

section Rows
variable {S C U w : ℕ}

private theorem rows_sKept (wf) :
    (ScatterDims.mk (s := ⟨2, ![S, C]⟩) (si := ⟨2, ![U, 1]⟩) (u := ⟨2, ![U, C]⟩) [1] [0] [0] 1 wf).sKept = [1] := rfl

private theorem rows_start0 (wf) (idx : IVec ⟨2, ![U, 1]⟩ w) (u : Fin U) (c : Fin C) :
    (ScatterDims.mk (s := ⟨2, ![S, C]⟩) (si := ⟨2, ![U, 1]⟩) (u := ⟨2, ![U, C]⟩) [1] [0] [0] 1 wf).start (ix2 u c) idx 0
      = (idx (ix2 u 0)).toInt := by
  unfold ScatterDims.start
  rw [dif_pos (List.mem_singleton.mpr rfl)]
  refine congrArg (fun k => (idx k).toInt) ?_
  funext b
  refine Fin.ext ?_
  match b with
  | ⟨0, _⟩ => rfl
  | ⟨1, _⟩ => rfl

private theorem rows_start1 (wf) (idx : IVec ⟨2, ![U, 1]⟩ w) (u : Fin U) (c : Fin C) :
    (ScatterDims.mk (s := ⟨2, ![S, C]⟩) (si := ⟨2, ![U, 1]⟩) (u := ⟨2, ![U, C]⟩) [1] [0] [0] 1 wf).start (ix2 u c) idx 1 = 0 := by
  unfold ScatterDims.start
  rw [dif_neg (fun h => absurd (congrArg Fin.val (List.mem_singleton.mp h)) Nat.one_ne_zero)]

private theorem rows_window0 (wf) (u : Fin U) (c : Fin C) :
    (ScatterDims.mk (s := ⟨2, ![S, C]⟩) (si := ⟨2, ![U, 1]⟩) (u := ⟨2, ![U, C]⟩) [1] [0] [0] 1 wf).window (ix2 u c) 0 = 0 := by
  unfold ScatterDims.window
  rw [dif_neg (by rw [rows_sKept]; exact fun h => absurd (congrArg Fin.val (List.mem_singleton.mp h)) Nat.zero_ne_one)]

private theorem rows_window1 (wf) (u : Fin U) (c : Fin C) :
    (ScatterDims.mk (s := ⟨2, ![S, C]⟩) (si := ⟨2, ![U, 1]⟩) (u := ⟨2, ![U, C]⟩) [1] [0] [0] 1 wf).window (ix2 u c) 1 = c.val := by
  unfold ScatterDims.window
  rw [dif_pos (by rw [rows_sKept]; exact List.mem_singleton.mpr rfl)]
  rfl

/-- Update element `(u, c)` lands on operand element `(r, c')` exactly when row `u`'s index word is `r` and the columns agree. -/
theorem ScatterDims.rows_resultIdx?_eq_some_iff (d : ScatterDims ⟨2, ![S, C]⟩ ⟨2, ![U, 1]⟩ ⟨2, ![U, C]⟩)
    (huw : d.updateWindowDims = [1]) (hiw : d.insertedWindowDims = [0]) (hsd : d.scatterDimsToOperandDims = [0])
    (hiv : d.indexVectorDim = 1) (idx : IVec ⟨2, ![U, 1]⟩ w) (u : Fin U) (c : Fin C) (r : Fin S) (c' : Fin C) :
    d.resultIdx? (ix2 u c) idx = some (ix2 r c') ↔ (idx (ix2 u 0)).toInt = (r.val : ℤ) ∧ c = c' := by
  obtain ⟨uw, iw, sd, iv, wf⟩ := d
  dsimp only at huw hiw hsd hiv
  subst huw hiw hsd hiv
  rw [ScatterDims.resultIdx?_eq_some_iff, Fin.forall_fin_two, rows_start0, rows_start1, rows_window0, rows_window1]
  show (idx (ix2 u 0)).toInt + ((0 : ℕ) : ℤ) = (r.val : ℤ) ∧ (0 : ℤ) + (c.val : ℤ) = (c'.val : ℤ) ↔ _
  constructor
  · rintro ⟨h0, h1⟩
    exact ⟨by omega, Fin.ext (by omega)⟩
  · rintro ⟨h0, rfl⟩
    exact ⟨by omega, by omega⟩

/-- THE ROW SCATTER READ AT `(r, c)`: the operand's element plus the sum over the update rows whose index word is `r`
    of the update's element in column `c`. -/
theorem Host.scatterAdd_rows_apply {φ : FTy} (d : ScatterDims ⟨2, ![S, C]⟩ ⟨2, ![U, 1]⟩ ⟨2, ![U, C]⟩)
    (huw : d.updateWindowDims = [1]) (hiw : d.insertedWindowDims = [0]) (hsd : d.scatterDimsToOperandDims = [0])
    (hiv : d.indexVectorDim = 1) (x : FVec Ideal ⟨2, ![S, C]⟩ φ) (idx : IVec ⟨2, ![U, 1]⟩ w)
    (upd : FVec Ideal ⟨2, ![U, C]⟩ φ) (r : Fin S) (c : Fin C) :
    Host.scatterAdd d x idx upd (ix2 r c)
      = x (ix2 r c) + ∑ u : Fin U, if (idx (ix2 u 0)).toInt = (r.val : ℤ) then upd (ix2 u c) else 0 := by
  unfold Host.scatterAdd
  rw [Ideal.hostScatterAdd_def]
  unfold Ideal.hostScatterAdd
  refine congrArg (x (ix2 r c) + ·) ?_
  rw [Finset.sum_filter, sum_idx2]
  refine Finset.sum_congr rfl fun u _ => ?_
  by_cases hu : (idx (ix2 u 0)).toInt = (r.val : ℤ)
  · rw [if_pos hu]
    rw [Finset.sum_eq_single c]
    · rw [if_pos ((ScatterDims.rows_resultIdx?_eq_some_iff d huw hiw hsd hiv idx u c r c).2 ⟨hu, rfl⟩)]
    · intro c' _ hc'
      rw [if_neg fun h => hc' ((ScatterDims.rows_resultIdx?_eq_some_iff d huw hiw hsd hiv idx u c' r c).1 h).2]
    · intro h; exact absurd (Finset.mem_univ c) h
  · rw [if_neg hu]
    refine Finset.sum_eq_zero fun c' _ => ?_
    rw [if_neg fun h => hu ((ScatterDims.rows_resultIdx?_eq_some_iff d huw hiw hsd hiv idx u c' r c).1 h).1]

end Rows

/-! ## Single elements scattered: operand [S], indices [U, 1], updates [U] -/

section Elements
variable {S U w : ℕ}

private theorem elts_sKept (wf) :
    (ScatterDims.mk (s := ⟨1, ![S]⟩) (si := ⟨2, ![U, 1]⟩) (u := ⟨1, ![U]⟩) [] [0] [0] 1 wf).sKept = [] := rfl

private theorem elts_start0 (wf) (idx : IVec ⟨2, ![U, 1]⟩ w) (u : Fin U) :
    (ScatterDims.mk (s := ⟨1, ![S]⟩) (si := ⟨2, ![U, 1]⟩) (u := ⟨1, ![U]⟩) [] [0] [0] 1 wf).start (ix1 u) idx 0
      = (idx (ix2 u 0)).toInt := by
  unfold ScatterDims.start
  rw [dif_pos (List.mem_singleton.mpr rfl)]
  refine congrArg (fun k => (idx k).toInt) ?_
  funext b
  refine Fin.ext ?_
  match b with
  | ⟨0, _⟩ => rfl
  | ⟨1, _⟩ => rfl

private theorem elts_window0 (wf) (u : Fin U) :
    (ScatterDims.mk (s := ⟨1, ![S]⟩) (si := ⟨2, ![U, 1]⟩) (u := ⟨1, ![U]⟩) [] [0] [0] 1 wf).window (ix1 u) 0 = 0 := by
  unfold ScatterDims.window
  rw [dif_neg (by rw [elts_sKept]; exact List.not_mem_nil)]

/-- Update element `u` lands on operand element `r` exactly when its index word is `r`. -/
theorem ScatterDims.elts_resultIdx?_eq_some_iff (d : ScatterDims ⟨1, ![S]⟩ ⟨2, ![U, 1]⟩ ⟨1, ![U]⟩)
    (huw : d.updateWindowDims = []) (hiw : d.insertedWindowDims = [0]) (hsd : d.scatterDimsToOperandDims = [0])
    (hiv : d.indexVectorDim = 1) (idx : IVec ⟨2, ![U, 1]⟩ w) (u : Fin U) (r : Fin S) :
    d.resultIdx? (ix1 u) idx = some (ix1 r) ↔ (idx (ix2 u 0)).toInt = (r.val : ℤ) := by
  obtain ⟨uw, iw, sd, iv, wf⟩ := d
  dsimp only at huw hiw hsd hiv
  subst huw hiw hsd hiv
  rw [ScatterDims.resultIdx?_eq_some_iff]
  constructor
  · intro h
    have h0 := h 0
    rw [elts_start0, elts_window0] at h0
    have : ((ix1 r : (⟨1, ![S]⟩ : Shape).Idx) 0).val = r.val := rfl
    omega
  · intro h a
    obtain rfl : a = 0 := Subsingleton.elim _ _
    rw [elts_start0, elts_window0]
    have : ((ix1 r : (⟨1, ![S]⟩ : Shape).Idx) 0).val = r.val := rfl
    omega

/-- THE ELEMENT SCATTER READ AT `r`: the operand's element plus the sum of the updates whose index word is `r`. -/
theorem Host.scatterAdd_elts_apply {φ : FTy} (d : ScatterDims ⟨1, ![S]⟩ ⟨2, ![U, 1]⟩ ⟨1, ![U]⟩)
    (huw : d.updateWindowDims = []) (hiw : d.insertedWindowDims = [0]) (hsd : d.scatterDimsToOperandDims = [0])
    (hiv : d.indexVectorDim = 1) (x : FVec Ideal ⟨1, ![S]⟩ φ) (idx : IVec ⟨2, ![U, 1]⟩ w)
    (upd : FVec Ideal ⟨1, ![U]⟩ φ) (r : Fin S) :
    Host.scatterAdd d x idx upd (ix1 r)
      = x (ix1 r) + ∑ u : Fin U, if (idx (ix2 u 0)).toInt = (r.val : ℤ) then upd (ix1 u) else 0 := by
  unfold Host.scatterAdd
  rw [Ideal.hostScatterAdd_def]
  unfold Ideal.hostScatterAdd
  refine congrArg (x (ix1 r) + ·) ?_
  rw [Finset.sum_filter, sum_idx1]
  refine Finset.sum_congr rfl fun u _ => ?_
  by_cases hu : (idx (ix2 u 0)).toInt = (r.val : ℤ)
  · rw [if_pos hu, if_pos ((ScatterDims.elts_resultIdx?_eq_some_iff d huw hiw hsd hiv idx u r).2 hu)]
  · rw [if_neg hu, if_neg fun h => hu ((ScatterDims.elts_resultIdx?_eq_some_iff d huw hiw hsd hiv idx u r).1 h)]

end Elements

end Idealize.ShloMosaic

end
-- ==== Proof.RefScatter.lean ====
/-
  The reference's two scatter-adds are the specification's per-cell sums. The points are laid out in one flat
  order, point `n` of batch `b` at position `b · 65536 + n`, and scattered by their segment number
  `cell + b · 32768` into 8 · 32768 rows. A cell number is below 32768, so segment `b' · 32768 + v` receives exactly
  the points of batch `b'` whose cell number is `v`: the row sum is the specification's sum over the batch's points
  of the feature where the cell number is `v`, and the scattered ones count those points.
-/
import proofs.«111114_j62749472195254_1_alg».proof.Proof.RefNorm
import proofs.«111114_j62749472195254_1_alg».proof.Proof.LibScatterAdd

noncomputable section

open scoped BigOperators

namespace Cert.ReferenceIdeal.RefValue

open Cert.ReferenceIdeal Cert.ReferenceIdeal.Gen Cert.ReferenceIdeal.Read Idealize.ShloMosaic Idealize.ShloMosaic.ValueIdx

/-- The flat order of the points: position `b · 65536 + n` is point `n` of batch `b`. -/
def pointEquiv : Fin 8 × Fin 65536 ≃ Fin 524288 where
  toFun p := ⟨p.1.val * 65536 + p.2.val, by have := p.1.isLt; have := p.2.isLt; omega⟩
  invFun u := (⟨u.val / 65536, by have := u.isLt; omega⟩, ⟨u.val % 65536, by have := u.isLt; omega⟩)
  left_inv p := by
    have h1 := p.1.isLt
    have h2 := p.2.isLt
    refine Prod.ext (Fin.ext ?_) (Fin.ext ?_)
    · show (p.1.val * 65536 + p.2.val) / 65536 = p.1.val
      omega
    · show (p.1.val * 65536 + p.2.val) % 65536 = p.2.val
      omega
  right_inv u := Fin.ext (by
    show u.val / 65536 * 65536 + u.val % 65536 = u.val
    omega)

/-- A sum over the flat positions is the double sum over batches and points. -/
theorem sum_points {M : Type*} [AddCommMonoid M] (g : Fin 524288 → M) :
    ∑ u, g u = ∑ b : Fin 8, ∑ n : Fin 65536, g (pointEquiv (b, n)) := by
  rw [← Equiv.sum_comp pointEquiv g, Fintype.sum_prod_type]

variable (f : (⟨S8x64x65536, .f32⟩ : BufTy).Contents (Elt Ideal)) (x : (⟨S8x3x65536, .f32⟩ : BufTy).Contents (Elt Ideal))

/-- The scatter index of position `b · 65536 + n` is the segment number of point `n` of batch `b`. -/
theorem v44_at (b : Fin 8) (n : Fin 65536) :
    val_main_v44 (F := Ideal) x (ix2 (pointEquiv (b, n)) (0 : Fin 1)) = seg x b n := by
  rw [val_main_v44_apply]
  have e : idx_main_v44 (ix2 (pointEquiv (b, n)) (0 : Fin 1)) = ix1 (pointEquiv (b, n)) := funext fun a => by
    match a with
    | ⟨0, _⟩ => rfl
  rw [e, v40_at]
  have hb := b.isLt
  have hn := n.isLt
  congr 1
  · exact Fin.ext (by show (b.val * 65536 + n.val) / 65536 = b.val; omega)
  · exact Fin.ext (by show (b.val * 65536 + n.val) % 65536 = n.val; omega)

theorem v48_at (b : Fin 8) (n : Fin 65536) :
    val_main_v48 (F := Ideal) x (ix2 (pointEquiv (b, n)) (0 : Fin 1)) = seg x b n := v44_at x b n

/-- The update row at position `b · 65536 + n` is the features of point `n` of batch `b`, channel by channel. -/
theorem v42_at (b : Fin 8) (n : Fin 65536) (c : Fin 64) :
    val_main_v42 (F := Ideal) f (ix2 (pointEquiv (b, n)) c) = f (ix3 b c n) := by
  rw [val_main_v42_apply, val_main_v41_apply]
  have hb := b.isLt
  have hn := n.isLt
  have hc := c.isLt
  refine congrArg f (funext fun a => Fin.ext ?_)
  match a with
  | ⟨0, _⟩ => show ((b.val * 65536 + n.val) * 64 + c.val) / 4194304 = b.val; omega
  | ⟨1, _⟩ => show ((b.val * 65536 + n.val) * 64 + c.val) % 64 = c.val; omega
  | ⟨2, _⟩ => show ((b.val * 65536 + n.val) * 64 + c.val) / 64 % 65536 = n.val; omega

/-- Segment `b' · 32768 + v` is the segment number of point `n` of batch `b` exactly when `b = b'` and the point's cell number is `v`. -/
theorem seg_hit_iff (b b' : Fin 8) (n : Fin 65536) (v : Fin 32768) :
    (seg x b n).toInt = ((b'.val * 32768 + v.val : ℕ) : ℤ) ↔ b = b' ∧ Spec.flat x b n = BitVec.ofNat 32 v.val := by
  have hf := Spec.flat_lt x b n
  have hv := v.isLt
  rw [seg_toInt]
  constructor
  · intro h
    have h' : (Spec.flat x b n).toNat + b.val * 32768 = b'.val * 32768 + v.val := by exact_mod_cast h
    refine ⟨Fin.ext (by omega), BitVec.eq_of_toNat_eq ?_⟩
    rw [BitVec.toNat_ofNat]
    omega
  · rintro ⟨rfl, h⟩
    have : (Spec.flat x b n).toNat = v.val := by rw [h, BitVec.toNat_ofNat]; omega
    rw [this]
    push_cast
    ring

/-- A sum over all points of all batches of terms that vanish off batch `b'` is the sum over batch `b'`'s points. -/
theorem sum_hit {M : Type*} [AddCommMonoid M] (b' : Fin 8) (v : Fin 32768) (g : Fin 8 → Fin 65536 → M) :
    (∑ b : Fin 8, ∑ n : Fin 65536, if (seg x b n).toInt = ((b'.val * 32768 + v.val : ℕ) : ℤ) then g b n else 0)
      = ∑ n : Fin 65536, if Spec.flat x b' n = BitVec.ofNat 32 v.val then g b' n else 0 := by
  rw [Finset.sum_eq_single b']
  · refine Finset.sum_congr rfl fun n _ => ?_
    by_cases h : Spec.flat x b' n = BitVec.ofNat 32 v.val
    · rw [if_pos h, if_pos ((seg_hit_iff x b' b' n v).2 ⟨rfl, h⟩)]
    · rw [if_neg h, if_neg fun h' => h ((seg_hit_iff x b' b' n v).1 h').2]
  · intro b _ hb
    refine Finset.sum_eq_zero fun n _ => ?_
    rw [if_neg fun h' => hb ((seg_hit_iff x b b' n v).1 h').1]
  · intro h
    exact absurd (Finset.mem_univ b') h

/-- THE ROW SCATTER at segment `b' · 32768 + v`, channel `c`: the specification's sum. -/
theorem v45_at (b' : Fin 8) (v : Fin 32768) (c : Fin 64) :
    val_main_v45 (F := Ideal) f x (ix2 (⟨b'.val * 32768 + v.val, by have := b'.isLt; have := v.isLt; omega⟩ : Fin 262144) c)
      = Spec.sums f x b' c v := by
  unfold val_main_v45
  refine (Host.scatterAdd_rows_apply (S := 262144) (C := 64) (U := 524288) scatter_S262144x64_S524288x1_S524288x64_1_0_0_1
    rfl rfl rfl rfl (val_main_v43 (F := Ideal)) (val_main_v44 (F := Ideal) x) (val_main_v42 (F := Ideal) f) _ c).trans ?_
  rw [val_main_v43_apply, sum_points]
  have e0 : val_main_cst_10 (F := Ideal) (idx_main_v43 (ix2 (⟨b'.val * 32768 + v.val, by have := b'.isLt; have := v.isLt; omega⟩ : Fin 262144) c)) = 0 :=
    Ideal.ofBits_zero_f32
  rw [e0, zero_add]
  simp only [v44_at, v42_at]
  exact sum_hit x b' v (fun b n => f (ix3 b c n))

/-- The scattered ones. -/
theorem v46_at (u : Fin 524288) : val_main_v46 (F := Ideal) (ix1 u) = 1 := by
  rw [val_main_v46_apply]
  exact Spec.ofBits_one

/-- THE ELEMENT SCATTER at segment `b' · 32768 + v`: the specification's count. -/
theorem v49_at (b' : Fin 8) (v : Fin 32768) :
    val_main_v49 (F := Ideal) x (ix1 (⟨b'.val * 32768 + v.val, by have := b'.isLt; have := v.isLt; omega⟩ : Fin 262144))
      = Spec.cnt x b' v := by
  unfold val_main_v49
  refine (Host.scatterAdd_elts_apply (S := 262144) (U := 524288) scatter_S262144_S524288x1_S524288_n_0_0_1
    rfl rfl rfl rfl (val_main_v47 (F := Ideal)) (val_main_v48 (F := Ideal) x) (val_main_v46 (F := Ideal)) _).trans ?_
  rw [val_main_v47_apply, sum_points]
  have e0 : val_main_cst_12 (F := Ideal) (idx_main_v47 (ix1 (⟨b'.val * 32768 + v.val, by have := b'.isLt; have := v.isLt; omega⟩ : Fin 262144))) = 0 :=
    Ideal.ofBits_zero_f32
  rw [e0, zero_add]
  simp only [v48_at, v46_at]
  exact sum_hit x b' v (fun _ _ => (1 : EReal))

end Cert.ReferenceIdeal.RefValue

end
-- ==== Proof.RefSpec.lean ====
/-
  The reference is the specification. Its first result is, at the index `(b, c, r0, r1, r2)`, the row-scatter's
  sum at segment `b · 32768 + cell` and channel `c` divided by the larger of the scattered count and one — the three
  layout operations after the division only move the element from row `b · 32768 + cell`, column `c` of a
  [262144, 64] array to position `(b, c, r0, r1, r2)` of the [8, 64, 32, 32, 32] result. Its second result is the
  clipped coordinate.
-/
import proofs.«111114_j62749472195254_1_alg».proof.Proof.RefScatter

noncomputable section

open scoped BigOperators

namespace Cert.ReferenceIdeal.RefValue

open Cert.ReferenceIdeal Cert.ReferenceIdeal.Gen Cert.ReferenceIdeal.Read Idealize.ShloMosaic Idealize.ShloMosaic.ValueIdx

variable (f : (⟨S8x64x65536, .f32⟩ : BufTy).Contents (Elt Ideal)) (x : (⟨S8x3x65536, .f32⟩ : BufTy).Contents (Elt Ideal))

/-- The divisor at segment `b' · 32768 + v`, in any column: the larger of the count and one. -/
theorem v53_at (b' : Fin 8) (v : Fin 32768) (c : Fin 64) :
    val_main_v53 (F := Ideal) x (ix2 (⟨b'.val * 32768 + v.val, by have := b'.isLt; have := v.isLt; omega⟩ : Fin 262144) c)
      = max (Spec.cnt x b' v) (Ideal.ofBits .f32 0x3F800000#32) := by
  rw [val_main_v53_apply, val_main_v52_apply]
  have e : idx_main_v52 (idx_main_v53 (ix2 (⟨b'.val * 32768 + v.val, by have := b'.isLt; have := v.isLt; omega⟩ : Fin 262144) c))
      = ix1 (⟨b'.val * 32768 + v.val, by have := b'.isLt; have := v.isLt; omega⟩ : Fin 262144) := funext fun a => by
    match a with
    | ⟨0, _⟩ => rfl
  rw [e, val_main_v51_apply, v49_at, val_main_v50_apply]
  rfl

/-- The quotient at segment `b' · 32768 + v`, channel `c`. -/
theorem v54_at (b' : Fin 8) (v : Fin 32768) (c : Fin 64) :
    val_main_v54 (F := Ideal) f x (ix2 (⟨b'.val * 32768 + v.val, by have := b'.isLt; have := v.isLt; omega⟩ : Fin 262144) c)
      = Ideal.div (Spec.sums f x b' c v) (max (Spec.cnt x b' v) (Ideal.ofBits .f32 0x3F800000#32)) := by
  rw [val_main_v54_apply, v45_at, v53_at]
  rfl

/-- THE FIRST RESULT at an index. -/
theorem v57_at (b : Fin 8) (c : Fin 64) (r0 r1 r2 : Fin 32) :
    val_main_v57 (F := Ideal) f x (ix5 b c r0 r1 r2) = Spec.outAt f x b c r0 r1 r2 := by
  rw [val_main_v57_apply, val_main_v56_apply, val_main_v55_apply]
  have hb := b.isLt
  have hc := c.isLt
  have h0 := r0.isLt
  have h1 := r1.isLt
  have h2 := r2.isLt
  have e : idx_main_v55 (idx_main_v56 (idx_main_v57 (ix5 b c r0 r1 r2)))
      = ix2 (⟨b.val * 32768 + (Spec.cell r0 r1 r2).val, by have := (Spec.cell r0 r1 r2).isLt; omega⟩ : Fin 262144) c :=
    funext fun a => Fin.ext (by
      have q1 : ((((b.val * 64 + c.val) * 32 + r0.val) * 32 + r1.val) * 32 + r2.val) / 2097152 = b.val := by omega
      have q2 : ((((b.val * 64 + c.val) * 32 + r0.val) * 32 + r1.val) * 32 + r2.val) % 32768
          = r0.val * 1024 + r1.val * 32 + r2.val := by omega
      have q3 : ((((b.val * 64 + c.val) * 32 + r0.val) * 32 + r1.val) * 32 + r2.val) / 32768 % 64 = c.val := by omega
      match a with
      | ⟨0, _⟩ =>
        show ((((((b.val * 64 + c.val) * 32 + r0.val) * 32 + r1.val) * 32 + r2.val) / 2097152 * 32768
            + ((((b.val * 64 + c.val) * 32 + r0.val) * 32 + r1.val) * 32 + r2.val) % 32768) * 64
            + ((((b.val * 64 + c.val) * 32 + r0.val) * 32 + r1.val) * 32 + r2.val) / 32768 % 64) / 64
          = b.val * 32768 + (r0.val * 1024 + r1.val * 32 + r2.val)
        rw [q1, q2, q3]
        omega
      | ⟨1, _⟩ =>
        show ((((((b.val * 64 + c.val) * 32 + r0.val) * 32 + r1.val) * 32 + r2.val) / 2097152 * 32768
            + ((((b.val * 64 + c.val) * 32 + r0.val) * 32 + r1.val) * 32 + r2.val) % 32768) * 64
            + ((((b.val * 64 + c.val) * 32 + r0.val) * 32 + r1.val) * 32 + r2.val) / 32768 % 64) % 64
          = c.val
        rw [q1, q2, q3]
        omega)
  rw [e, v54_at]
  rfl

/-- THE REFERENCE'S FIRST RESULT IS THE SPECIFICATION'S, as a function of the two argument arrays. -/
theorem out_eq : val_main_v57 (F := Ideal) f x = Spec.out f x := by
  funext i
  obtain ⟨b, c, r0, r1, r2, rfl⟩ : ∃ (b : Fin 8) (c : Fin 64) (r0 r1 r2 : Fin 32), i = ix5 b c r0 r1 r2 :=
    ⟨i 0, i 1, i 2, i 3, i 4, eq_ix5 i⟩
  rw [v57_at, Spec.out_ix5]

/-- THE REFERENCE'S SECOND RESULT IS THE SPECIFICATION'S. -/
theorem nc_eq : val_main_v19 (F := Ideal) x = Spec.nc x := by
  funext i
  obtain ⟨b, k, n, rfl⟩ : ∃ (b : Fin 8) (k : Fin 3) (n : Fin 65536), i = ix3 b k n := ⟨i 0, i 1, i 2, eq_ix3 i⟩
  rw [v19_at, Spec.nc_ix3]

/-- The term the reference's run states for its first result is the specification's first result of the launch contents of the arguments. -/
theorem res_out0_eq (m : (ℓ : Loc nD τ sig) → Buf (Elt Ideal) ℓ) (c : Dev nD) :
    Cert.ReferenceIdeal.Value.res_main_v57 (F := Ideal) m c
      = Spec.out (m ((c.tc : Thread nD τ).loc main_arg0)) (m ((c.tc : Thread nD τ).loc main_arg1)) :=
  (val_main_v57_eq (F := Ideal) m c).trans (out_eq _ _)

end Cert.ReferenceIdeal.RefValue

end
-- ==== Proof.lean ====
/- The claim: the program read at word level and read over the extended reals both run to the end without a fault
   and leave their two arguments as launched (the run of the four items of @main — region, host operations, region,
   host operations — with every buffer's contents followed from boundary to boundary); so does the reference (its
   host operations run one after another); the idealization rewrote nothing; and over the extended reals the
   kernel's two results — the per-voxel averages of the features and the normalized coordinates — are the
   reference's, index by index. -/
import proofs.«111114_j62749472195254_1_alg».proof.Defs
import proofs.«111114_j62749472195254_1_alg».proof.Proof.Gen.Kernel
import proofs.«111114_j62749472195254_1_alg».proof.Proof.Gen.Kernel.Skeleton
import proofs.«111114_j62749472195254_1_alg».proof.Proof.Gen.Kernel.Loops
import proofs.«111114_j62749472195254_1_alg».proof.Proof.Gen.Kernel.Launch
import proofs.«111114_j62749472195254_1_alg».proof.Proof.Gen.Kernel.Regions
import proofs.«111114_j62749472195254_1_alg».proof.Proof.Gen.Kernel.Points
import proofs.«111114_j62749472195254_1_alg».proof.Proof.Gen.KernelIdeal
import proofs.«111114_j62749472195254_1_alg».proof.Proof.Gen.KernelIdeal.Skeleton
import proofs.«111114_j62749472195254_1_alg».proof.Proof.Gen.KernelIdeal.Loops
import proofs.«111114_j62749472195254_1_alg».proof.Proof.Gen.KernelIdeal.Launch
import proofs.«111114_j62749472195254_1_alg».proof.Proof.Gen.KernelIdeal.Regions
import proofs.«111114_j62749472195254_1_alg».proof.Proof.Gen.KernelIdeal.Points
import proofs.«111114_j62749472195254_1_alg».proof.Proof.Gen.ReferenceIdeal
import proofs.«111114_j62749472195254_1_alg».proof.Proof.Gen.Pre_finite_inputs
import proofs.«111114_j62749472195254_1_alg».proof.Proof.Gen.ReferenceIdeal.Run
import proofs.«111114_j62749472195254_1_alg».proof.Proof.Gen.ReferenceIdeal.Read
import proofs.«111114_j62749472195254_1_alg».proof.Proof.Kept
import proofs.«111114_j62749472195254_1_alg».proof.Proof.WKept
import proofs.«111114_j62749472195254_1_alg».proof.Proof.KernelSpec
import proofs.«111114_j62749472195254_1_alg».proof.Proof.RefSpec
import Idealize.ShloMosaic.Adequacy
import Idealize.ShloMosaic.Init

noncomputable section

namespace Cert.Proof

open Idealize.ShloMosaic Idealize.SL.Sem Cert.Kernel

theorem frame_word : Cert.frame_Kernel := fun m ρ _ => Cert.Kernel.Run.frame (F := Bits) m ρ
theorem frame_ideal : Cert.frame_KernelIdeal := fun m ρ _ => Cert.KernelIdeal.Run.frame (F := Ideal) m ρ
theorem frame_ref : Cert.frame_ReferenceIdeal := fun m ρ _ =>
  (θ_run Cert.ReferenceIdeal.defs _ _).mono (fun _ h c => ⟨(h c).2.2.1, (h c).2.2.2⟩) (Cert.ReferenceIdeal.Value.run (F := Ideal) m ρ)
theorem preserves : Cert.preserves_Kernel_KernelIdeal := trivial

/-- Over the extended reals both programs end with the specification's two arrays — the kernel's read off the last
    boundary of its run, the reference's off its host operations' composed term — of arguments that agree. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      fun c => Cert.Spec.nc (m ((c.tc : Thread Cert.KernelIdeal.nD Cert.KernelIdeal.τ).loc Cert.KernelIdeal.main_arg1)), ?_, ?_⟩
  · refine (θ_run Cert.KernelIdeal.defs _ _).mono (fun r h c => ⟨?_, ?_, ?_, ?_⟩) (Cert.KernelIdeal.Run.run_all (F := Ideal) m ρ)
    · exact (h c _ (Cert.KernelIdeal.Run.mem_uc Cert.KernelIdeal.main_v12 (by decide))).trans (Cert.KernelIdeal.Val.out_result m c)
    · exact (h c _ (Cert.KernelIdeal.Run.mem_uc Cert.KernelIdeal.main_v0_0 (by decide))).trans (Cert.KernelIdeal.Val.nc_result m c)
    · exact (h c _ (Cert.KernelIdeal.Run.mem_uc Cert.KernelIdeal.main_arg0 (by decide))).trans (Cert.KernelIdeal.Run.B4_features m c)
    · exact (h c _ (Cert.KernelIdeal.Run.mem_uc Cert.KernelIdeal.main_arg1 (by decide))).trans (Cert.KernelIdeal.Run.B4_coords m c)
  · refine (θ_run Cert.ReferenceIdeal.defs _ _).mono (fun r h c => ⟨?_, ?_, (h c).2.2.1, (h c).2.2.2⟩)
      (Cert.ReferenceIdeal.Value.run (F := Ideal) m' ρ')
    · rw [(h c).1, Cert.ReferenceIdeal.RefValue.res_out0_eq, (hagree c).1, (hagree c).2]
    · rw [(h c).2.1, Cert.ReferenceIdeal.Read.val_main_v19_eq, Cert.ReferenceIdeal.RefValue.nc_eq, (hagree c).2]

theorem claim : Cert.Claim := ⟨Cert.Kernel.Gen.facts, Cert.KernelIdeal.Gen.facts, Cert.ReferenceIdeal.Gen.facts, Cert.Pre_finite_inputs.Gen.facts,
  frame_word, frame_ideal, frame_ref, preserves, algebraic⟩

end Cert.Proof

end
